-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4x4096x4096 : Shape := ⟨3, ![4, 4096, 4096]⟩
abbrev S64x1024 : Shape := ⟨2, ![64, 1024]⟩
abbrev S64 : Shape := ⟨1, ![64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x1024 .f32) (main_arg9 : FVec F S64 .f32) (main_v33 : IVec S_ 1) : IVec S_ 1 :=
  let main_v34 : FVec F S64x1024 .f32 := Host.absf main_arg8
  let main_cst_12 : FVec F S_ .f32 := constant S_ .f32 0x7F800000#32
  let main_v35 : FVec F S64x1024 .f32 := broadcastInDim S64x1024 ![] bcast_S_S64x1024 main_cst_12
  let main_v36 : IVec S64x1024 1 := cmpf .olt main_v34 main_v35
  let main_c_13 : IVec S_ 1 := constantI S_ 1 1#1
  let main_v37 : IVec S_ 1 := (fun x v => Host.reduce IntOp.andi x v reducesTo_S64x1024_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x1024 .f32) (main_arg7 : FVec F S64 .f32) (main_arg8 : FVec F S64x1024 .f32) (main_arg9 : FVec F S64 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1024 .f32 := Host.absf main_arg6
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S4x4096x1024 .f32) (main_arg1 : FVec F S4x4096x1024 .f32) (main_arg2 : FVec F S4x4096x1024 .f32) (main_arg3 : IVec S4x4096x4096 32) (main_arg4 : FVec F S64x1024 .f32) (main_arg5 : FVec F S64 .f32) (main_arg6 : FVec F S64x1024 .f32) (main_arg7 : FVec F S64 .f32) (main_arg8 : FVec F S64x1024 .f32) (main_arg9 : FVec F S64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S64x1024 .f32 := Host.absf main_arg4
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg5 main_arg6 main_arg7 main_arg8 main_arg9 main_v13 main_v16
-- ==== Kernel.lean ====
abbrev S4x4096x1024 : Shape := ⟨3, ![4, 4096, 1024]⟩
abbrev S4x4096x4096 : Shape := ⟨3, ![4, 4096, 4096]⟩
abbrev S64x1024 : Shape := ⟨2, ![64, 1024]⟩
abbrev S64 : Shape := ⟨1, ![64]⟩
abbrev S16384x1024 : Shape := ⟨2, ![16384, 1024]⟩
abbrev S1x64 : Shape := ⟨2, ![1, 64]⟩
abbrev S16384x64 : Shape := ⟨2, ![16384, 64]⟩
abbrev S1024x1024 : Shape := ⟨2, ![1024, 1024]⟩
abbrev S1024x64 : Shape := ⟨2, ![1024, 64]⟩
abbrev S4x4096x64 : Shape := ⟨3, ![4, 4096, 64]⟩
abbrev S4x1x4096 : Shape := ⟨3, ![4, 1, 4096]⟩
abbrev S1x1024x64 : Shape := ⟨3, ![1, 1024, 64]⟩
abbrev S1x1024x1024 : Shape := ⟨3, ![1, 1024, 1024]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 24
  | .vmem => 41
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x4096, .i32⟩
  | .hbm, ⟨4, _⟩ => ⟨S64x1024, .f32⟩
  | .hbm, ⟨5, _⟩ => ⟨S64, .f32⟩
  | .hbm, ⟨6, _⟩ => ⟨S64x1024, .f32⟩
  | .hbm, ⟨7, _⟩ => ⟨S64, .f32⟩
  | .hbm, ⟨8, _⟩ => ⟨S64x1024, .f32⟩
  | .hbm, ⟨9, _⟩ => ⟨S64, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S16384x64, .bf16⟩
  | .hbm, ⟨17, _⟩ => ⟨S16384x64, .bf16⟩
  | .hbm, ⟨18, _⟩ => ⟨S16384x64, .bf16⟩
  | .hbm, ⟨19, _⟩ => ⟨S4x4096x64, .bf16⟩
  | .hbm, ⟨20, _⟩ => ⟨S4x4096x64, .bf16⟩
  | .hbm, ⟨21, _⟩ => ⟨S4x4096x64, .bf16⟩
  | .hbm, ⟨22, _⟩ => ⟨S4x1x4096, .f32⟩
  | .hbm, ⟨23, _⟩ => ⟨S4x4096x64, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S64x1024, .f32⟩
  | .local _ .vmem, ⟨7, _⟩ => ⟨S1x64, .f32⟩
  | .local _ .vmem, ⟨8, _⟩ => ⟨S64x1024, .f32⟩
  | .local _ .vmem, ⟨9, _⟩ => ⟨S1x64, .f32⟩
  | .local _ .vmem, ⟨10, _⟩ => ⟨S64x1024, .f32⟩
  | .local _ .vmem, ⟨11, _⟩ => ⟨S1x64, .f32⟩
  | .local _ .vmem, ⟨12, _⟩ => ⟨S1024x64, .bf16⟩
  | .local _ .vmem, ⟨13, _⟩ => ⟨S1024x64, .bf16⟩
  | .local _ .vmem, ⟨14, _⟩ => ⟨S1024x64, .bf16⟩
  | .local _ .vmem, ⟨15, _⟩ => ⟨S1024x64, .bf16⟩
  | .local _ .vmem, ⟨16, _⟩ => ⟨S1024x64, .bf16⟩
  | .local _ .vmem, ⟨17, _⟩ => ⟨S1024x64, .bf16⟩
  | .local _ .vmem, ⟨18, _⟩ => ⟨S1x1024x64, .bf16⟩
  | .local _ .vmem, ⟨19, _⟩ => ⟨S1x1024x64, .bf16⟩
  | .local _ .vmem, ⟨20, _⟩ => ⟨S1x1024x64, .bf16⟩
  | .local _ .vmem, ⟨21, _⟩ => ⟨S1x1024x64, .bf16⟩
  | .local _ .vmem, ⟨22, _⟩ => ⟨S1x1024x1024, .i32⟩
  | .local _ .vmem, ⟨23, _⟩ => ⟨S1x1024x1024, .i32⟩
  | .local _ .vmem, ⟨24, _⟩ => ⟨S1x1x1024, .f32⟩
  | .local _ .vmem, ⟨25, _⟩ => ⟨S1x1x1024, .f32⟩
  | .local _ .vmem, ⟨26, _⟩ => ⟨S1x1024, .f32⟩
  | .local _ .vmem, ⟨27, _⟩ => ⟨S1x1024, .f32⟩
  | .local _ .vmem, ⟨28, _⟩ => ⟨S1x1024x64, .bf16⟩
  | .local _ .vmem, ⟨29, _⟩ => ⟨S1x1024x64, .bf16⟩
  | .local _ .vmem, ⟨30, _⟩ => ⟨S1x1024x64, .bf16⟩
  | .local _ .vmem, ⟨31, _⟩ => ⟨S1x1024x64, .bf16⟩
  | .local _ .vmem, ⟨32, _⟩ => ⟨S1x1024x64, .bf16⟩
  | .local _ .vmem, ⟨33, _⟩ => ⟨S1x1024x64, .bf16⟩
  | .local _ .vmem, ⟨34, _⟩ => ⟨S1x1024x1024, .i32⟩
  | .local _ .vmem, ⟨35, _⟩ => ⟨S1x1024x1024, .i32⟩
  | .local _ .vmem, ⟨36, _⟩ => ⟨S1x1x1024, .f32⟩
  | .local _ .vmem, ⟨37, _⟩ => ⟨S1x1x1024, .f32⟩
  | .local _ .vmem, ⟨38, _⟩ => ⟨S1x1024x64, .f32⟩
  | .local _ .vmem, ⟨39, _⟩ => ⟨S1x1024x64, .f32⟩
  | .local _ .vmem, ⟨40, _⟩ => ⟨S1024x64, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_scratch0 : Ref sig .tc := ⟨.vmem, 26, rfl⟩
abbrev cc1_scratch1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35
abbrev cc2_sem5_0 : DmaSem sig := 36
abbrev cc2_sem5_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_25 : BitVec 32 := 0#32
  let v42 : BitVec 1 := Scalar.cmpi .ne v41 c0_i32_25
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1024x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 4, 4], ![false, false, false]⟩

def k2_cond2 (i : grid2.Coords) : BitVec 1 :=
  let arg2 : BitVec 32 := BitVec.ofNat 32 (i 2).val
  let c3_i32 : BitVec 32 := 3#32
  let v33 : BitVec 1 := Scalar.cmpi .eq arg2 c3_i32
  let v34 : BitVec 32 := Scalar.extui v33
  let c0_i32_24 : BitVec 32 := 0#32
  let v35 : BitVec 1 := Scalar.cmpi .ne v34 c0_i32_24
  v35

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x1024x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x1024x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x1024x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x1024x1024 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 2 → Memref sig .tc .vmem S1x1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, true]

abbrev stage2_5 : Fin 2 → Memref sig .tc .vmem S1x1024x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

class Facts₀ : Prop where
  shapeCasts_S4x4096x1024_S16384x1024 : S4x4096x1024.ShapeCasts S16384x1024
  shapeCasts_S64_S1x64 : S64.ShapeCasts S1x64
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  transposes_S64x1024_p1_0_S1024x64 : S64x1024.Transposes [1, 0] S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  packedbf16_S1024x64_S1024x64_0_0 : (Rect.unit (s := S1024x64) ![0, 0] S1024x64.size inb_S1024x64_S1024x64_0_0).PackedRows (EltTy.packing .bf16)
  shapeCasts_S16384x64_S4x4096x64 : S16384x64.ShapeCasts S4x4096x64
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [0] S1024
  shapeCasts_S1024_S1x1024 : S1024.ShapeCasts S1x1024
  broadcasts_S1x1024_S1024x1024 : S1x1024.Broadcasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S1024x64_S1024x64 : S1024x64.ShapeCasts S1024x64
  shapeCasts_S1024x64_S1x1024x64 : S1024x64.ShapeCasts S1x1024x64
  dot_S1024x1024_S1024x64_S1024x64_1_0_0_1_n_n_wf : DotDims.WF S1024x1024 S1024x64 S1024x64 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x1024.size a
  hwx0_3 : ∀ i : grid0.Coords, EltTy.bits .f32 = 32 ∨ (Rect.block (s := S64x1024) S64x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x1024.size a
  hwx0_5 : ∀ i : grid0.Coords, EltTy.bits .f32 = 32 ∨ (Rect.block (s := S64x1024) S64x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1024.size a ≤ S64x1024.size a
  hwx0_7 : ∀ i : grid0.Coords, EltTy.bits .f32 = 32 ∨ (Rect.block (s := S64x1024) S64x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x64.size a ≤ S16384x64.size a
  hwx0_9 : ∀ i : grid0.Coords, EltTy.bits .bf16 = 32 ∨ (Rect.block (s := S16384x64) S1024x64.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x64.size a ≤ S16384x64.size a
  hwx0_10 : ∀ i : grid0.Coords, EltTy.bits .bf16 = 32 ∨ (Rect.block (s := S16384x64) S1024x64.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x64.size a ≤ S16384x64.size a
  hwx0_11 : ∀ i : grid0.Coords, EltTy.bits .bf16 = 32 ∨ (Rect.block (s := S16384x64) S1024x64.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x4096x64.size a
  hwx1_0 : ∀ i : grid1.Coords, EltTy.bits .bf16 = 32 ∨ (Rect.block (s := S4x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S4x4096x64.size a
  hwx1_1 : ∀ i : grid1.Coords, EltTy.bits .bf16 = 32 ∨ (Rect.block (s := S4x4096x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x4096x4096.size a
  hwx1_2 : ∀ i : grid1.Coords, EltTy.bits .i32 = 32 ∨ (Rect.block (s := S4x4096x4096) S1x1024x1024.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024.size a ≤ S4x1x4096.size a
  hwx1_3 : ∀ i : grid1.Coords, EltTy.bits .f32 = 32 ∨ (Rect.block (s := S4x1x4096) S1x1x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x64.size a ≤ S4x4096x64.size a
  hwx2_0 : ∀ i : grid2.Coords, EltTy.bits .bf16 = 32 ∨ (Rect.block (s := S4x4096x64) S1x1024x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x64.size a ≤ S4x4096x64.size a
  hwx2_1 : ∀ i : grid2.Coords, EltTy.bits .bf16 = 32 ∨ (Rect.block (s := S4x4096x64) S1x1024x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x64.size a ≤ S4x4096x64.size a
  hwx2_2 : ∀ i : grid2.Coords, EltTy.bits .bf16 = 32 ∨ (Rect.block (s := S4x4096x64) S1x1024x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x1024.size a ≤ S4x4096x4096.size a
  hwx2_3 : ∀ i : grid2.Coords, EltTy.bits .i32 = 32 ∨ (Rect.block (s := S4x4096x4096) S1x1024x1024.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x1024.size a ≤ S4x1x4096.size a
  hwx2_4 : ∀ i : grid2.Coords, EltTy.bits .f32 = 32 ∨ (Rect.block (s := S4x1x4096) S1x1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1024x64.size a ≤ S4x4096x64.size a
  hwx2_5 : ∀ i : grid2.Coords, EltTy.bits .f32 = 32 ∨ (Rect.block (s := S4x4096x64) S1x1024x64.size (cc2_transform_5 i) (hinb2_5 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_0) S1024x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_1) S1024x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_2) S1024x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v7) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x1x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v7) S1x1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1x1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x1024x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S1x1024x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1x1x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v11) S1x1024x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S4x4096x4096 : Shape := ⟨3, ![4, 4096, 4096]⟩
abbrev S64x1024 : Shape := ⟨2, ![64, 1024]⟩
abbrev S64 : Shape := ⟨1, ![64]⟩
abbrev S4x4096x64 : Shape := ⟨3, ![4, 4096, 64]⟩
abbrev S1x1x64 : Shape := ⟨3, ![1, 1, 64]⟩
abbrev S_ : Shape := ⟨0, ![]⟩
abbrev S4x4096 : Shape := ⟨2, ![4, 4096]⟩
abbrev S4x1x4096 : Shape := ⟨3, ![4, 1, 4096]⟩

abbrev nBuf : Space → Nat
  | .hbm => 51
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x4096, .i32⟩
  | .hbm, ⟨4, _⟩ => ⟨S64x1024, .f32⟩
  | .hbm, ⟨5, _⟩ => ⟨S64, .f32⟩
  | .hbm, ⟨6, _⟩ => ⟨S64x1024, .f32⟩
  | .hbm, ⟨7, _⟩ => ⟨S64, .f32⟩
  | .hbm, ⟨8, _⟩ => ⟨S64x1024, .f32⟩
  | .hbm, ⟨9, _⟩ => ⟨S64, .f32⟩
  | .hbm, ⟨10, _⟩ => ⟨S4x4096x64, .f32⟩
  | .hbm, ⟨11, _⟩ => ⟨S1x1x64, .f32⟩
  | .hbm, ⟨12, _⟩ => ⟨S4x4096x64, .f32⟩
  | .hbm, ⟨13, _⟩ => ⟨S4x4096x64, .f32⟩
  | .hbm, ⟨14, _⟩ => ⟨S4x4096x64, .f32⟩
  | .hbm, ⟨15, _⟩ => ⟨S1x1x64, .f32⟩
  | .hbm, ⟨16, _⟩ => ⟨S4x4096x64, .f32⟩
  | .hbm, ⟨17, _⟩ => ⟨S4x4096x64, .f32⟩
  | .hbm, ⟨18, _⟩ => ⟨S4x4096x64, .f32⟩
  | .hbm, ⟨19, _⟩ => ⟨S1x1x64, .f32⟩
  | .hbm, ⟨20, _⟩ => ⟨S4x4096x64, .f32⟩
  | .hbm, ⟨21, _⟩ => ⟨S4x4096x64, .f32⟩
  | .hbm, ⟨22, _⟩ => ⟨S_, .f32⟩
  | .hbm, ⟨23, _⟩ => ⟨S_, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S_, .i32⟩
  | .hbm, ⟨28, _⟩ => ⟨S4x4096x4096, .i32⟩
  | .hbm, ⟨29, _⟩ => ⟨S4x4096x4096, .i1⟩
  | .hbm, ⟨30, _⟩ => ⟨S_, .f32⟩
  | .hbm, ⟨31, _⟩ => ⟨S_, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S4x4096, .f32⟩
  | .hbm, ⟨38, _⟩ => ⟨S_, .f32⟩
  | .hbm, ⟨39, _⟩ => ⟨S4x4096, .f32⟩
  | .hbm, ⟨40, _⟩ => ⟨S4x4096, .f32⟩
  | .hbm, ⟨41, _⟩ => ⟨S4x1x4096, .f32⟩
  | .hbm, ⟨42, _⟩ => ⟨S4x4096x4096, .f32⟩
  | .hbm, ⟨43, _⟩ => ⟨S4x4096x4096, .f32⟩
  | .hbm, ⟨44, _⟩ => ⟨S4x4096x4096, .f32⟩
  | .hbm, ⟨45, _⟩ => ⟨S_, .f32⟩
  | .hbm, ⟨46, _⟩ => ⟨S4x4096, .f32⟩
  | .hbm, ⟨47, _⟩ => ⟨S4x1x4096, .f32⟩
  | .hbm, ⟨48, _⟩ => ⟨S4x4096x4096, .f32⟩
  | .hbm, ⟨49, _⟩ => ⟨S4x4096x4096, .f32⟩
  | .hbm, ⟨50, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x4096 : S_.BroadcastsInDim S4x4096x4096 (![] : Fin 0 → Fin S4x4096x4096.rank)
  reducesTo_S4x4096x4096_S4x4096_d1 : S4x4096x4096.ReducesTo [1] S4x4096
  h_S_ : 0 < S_.numel
  bcast_S_S4x4096 : S_.BroadcastsInDim S4x4096 (![] : Fin 0 → Fin S4x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  dot_S4x4096x1024_S64x1024_S4x4096x64_2_1_01_0_n_n_wf : DotDims.WF S4x4096x1024 S64x1024 S4x4096x64 [2] [1] [0, 1] [0] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x1024_S64x1024_S4x4096x64_2_1_01_0_n_n : DotDims S4x4096x1024 S64x1024 S4x4096x64 where
  lhsContracting := [2]
  rhsContracting := [1]
  lhsNonContracting := [0, 1]
  rhsNonContracting := [0]
  lhsBatch := []
  rhsBatch := []
  wf := dot_S4x4096x1024_S64x1024_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.KReg0.lean ====
/-
  Region 0 (the three linear projections), the frame half, at any float type.

  The kernel body loads the nine input windows' staging buffers whole, computes three products of a block of rows
  against the rows of a weight matrix plus a bias row, and stores each into one output window's staging buffer whole.
  So what it leaves in an output buffer is a closed function of three input blocks at the point, and what it finds in
  an input buffer is that window's block at the point whether or not it was fetched there (the weights and the bias
  rows have a constant block index and are fetched once). The region's proof data is stated at a parameter: the
  contents of the TensorCore's buffers when the region is entered.
-/
import proofs.«102296_j40982577938503_1_alg».proof.Proof.Gen.Kernel.Launch
import proofs.«102296_j40982577938503_1_alg».proof.Proof.Gen.Kernel.Skeleton
import proofs.«102296_j40982577938503_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the entry contents' and whose body leaves the block in place: unfetched, the block index has not moved. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the entry contents' and whose body leaves the block in place: unfetched, the block index has not moved. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the entry contents' and whose body leaves the block in place: unfetched, the block index has not moved. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the entry contents' and whose body leaves the block in place: unfetched, the block index has not moved. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the entry contents' and whose body leaves the block in place: unfetched, the block index has not moved. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the entry contents' and whose body leaves the block in place: unfetched, the block index has not moved. -/
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not, for any proof data
    whose array is the entry contents' and whose body leaves the block in place: unfetched, the block index has not moved. -/
theorem before6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not, for any proof data
    whose array is the entry contents' and whose body leaves the block in place: unfetched, the block index has not moved. -/
theorem before7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not, for any proof data
    whose array is the entry contents' and whose body leaves the block in place: unfetched, the block index has not moved. -/
theorem before8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rX : Rect S1024x1024 := Rect.unit (s := S1024x1024) ![0, 0] S1024x1024.size inb_S1024x1024_S1024x1024_0_0
abbrev rW : Rect S64x1024 := Rect.unit (s := S64x1024) ![0, 0] S64x1024.size inb_S64x1024_S64x1024_0_0
abbrev rB : Rect S1x64 := Rect.unit (s := S1x64) ![0, 0] S1x64.size inb_S1x64_S1x64_0_0
abbrev rO : Rect S1024x64 := Rect.unit (s := S1024x64) ![0, 0] S1024x64.size inb_S1024x64_S1024x64_0_0

/-! ## What the body leaves in each output window's buffer -/

/-- Window 9's staging buffer after the body: its one store, of the product of the first row block against the first
    weight matrix plus the first bias row. -/
def out9 (x0 : Vec F S1024x1024 .f32) (x3 : Vec F S64x1024 .f32) (x4 : Vec F S1x64 .f32) : Vec F S1024x64 .bf16 :=
  View.canon [⟨rO, k0_pay5 (View.ld x0 rX) (View.ld x3 rW) (View.ld x4 rB)⟩]

/-- Window 10's, of the second triple. -/
def out10 (x1 : Vec F S1024x1024 .f32) (x5 : Vec F S64x1024 .f32) (x6 : Vec F S1x64 .f32) : Vec F S1024x64 .bf16 :=
  View.canon [⟨rO, k0_pay1 (k0_pay3 (View.ld x1 rX) (View.ld x5 rW) (View.ld x6 rB))⟩]

/-- Window 11's, of the third triple. -/
def out11 (x2 : Vec F S1024x1024 .f32) (x7 : Vec F S64x1024 .f32) (x8 : Vec F S1x64 .f32) : Vec F S1024x64 .bf16 :=
  View.canon [⟨rO, k0_pay2 (k0_pay4 (View.ld x2 rX) (View.ld x7 rW) (View.ld x8 rB))⟩]

/-- A whole-buffer store covers the buffer. -/
theorem coverO (p0 : Vec F S1024x64 .bf16) (y : S1024x64.Idx) :
    ∃ pc ∈ ([⟨rO, p0⟩] : List (View.Piece (Elt F) S1024x64 .bf16)), y ∈ pc.1.set :=
  View.cover_of_tiled [⟨rO, p0⟩] S1024x64.size (by rfl) y

/-! ## The body's triple -/

set_option maxHeartbeats 4000000 in
/-- The kernel body on whole staging memrefs, the inputs' at read contents and the outputs' at anything, runs to the
    continuation holding the inputs' as they were and each output's at what its store leaves. -/
theorem sound_kernel (c : Dev nD) (E : Set ℕ) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S1x64 .f32) (harg5 : arg5.IsWhole) (arg6 : Memref sig .tc .vmem S64x1024 .f32) (harg6 : arg6.IsWhole) (arg7 : Memref sig .tc .vmem S1x64 .f32) (harg7 : arg7.IsWhole) (arg8 : Memref sig .tc .vmem S64x1024 .f32) (harg8 : arg8.IsWhole) (arg9 : Memref sig .tc .vmem S1x64 .f32) (harg9 : arg9.IsWhole) (arg10 : Memref sig .tc .vmem S1024x64 .bf16) (harg10 : arg10.IsWhole) (arg11 : Memref sig .tc .vmem S1024x64 .bf16) (harg11 : arg11.IsWhole) (arg12 : Memref sig .tc .vmem S1024x64 .bf16) (harg12 : arg12.IsWhole)
    (x0 : Vec F S1024x1024 .f32) (x1 : Vec F S1024x1024 .f32) (x2 : Vec F S1024x1024 .f32) (x3 : Vec F S64x1024 .f32) (x4 : Vec F S1x64 .f32) (x5 : Vec F S64x1024 .f32) (x6 : Vec F S1x64 .f32) (x7 : Vec F S64x1024 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 x0 x3 x4) ∗ owns (c : Thread nD τ) arg11 fullShare (out10 x1 x5 x6) ∗ owns (c : Thread nD τ) arg12 fullShare (out11 x2 x7 x8)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (coverO _)
  isplitl [H10]
  · iexists _; isplitr
    swap; · iexact H10
    ipureintro
    try dsimp only
    exact View.read_writes_eq_canon _ _ _ (coverO _)
  iexists _; isplitr
  swap; · iexact H11
  ipureintro
  try dsimp only
  exact View.read_writes_eq_canon _ _ _ (coverO _)

/-! ## The region's proof data -/

/-- The proof data of the region on core `c`: the arrays as the region finds them; after the body at point `t` each
    input's buffer at its block and each output's at what its store leaves; the invariant the scoped rest and the
    generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => out9 (iblk V c 0 t) (iblk V c 3 t) (iblk V c 4 t)
    | ⟨10, _⟩ => out10 (iblk V c 1 t) (iblk V c 5 t) (iblk V c 6 t)
    | ⟨11, _⟩ => out11 (iblk V c 2 t) (iblk V c 7 t) (iblk V c 8 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = iblk V c 6 t := by dsimp only [dat]
theorem after7 (c : Dev nD) (t : Fin cfg0.N) : (dat V c).after 7 t = iblk V c 7 t := by dsimp only [dat]
theorem after8 (c : Dev nD) (t : Fin cfg0.N) : (dat V c).after 8 t = iblk V c 8 t := by dsimp only [dat]
theorem after9 (c : Dev nD) (t : Fin cfg0.N) : (dat V c).after 9 t = out9 (iblk V c 0 t) (iblk V c 3 t) (iblk V c 4 t) := by dsimp only [dat]
theorem after10 (c : Dev nD) (t : Fin cfg0.N) : (dat V c).after 10 t = out10 (iblk V c 1 t) (iblk V c 5 t) (iblk V c 6 t) := by dsimp only [dat]
theorem after11 (c : Dev nD) (t : Fin cfg0.N) : (dat V c).after 11 t = out11 (iblk V c 2 t) (iblk V c 7 t) (iblk V c 8 t) := by dsimp only [dat]

/-- Each input's current staging buffer holds its block at every point, fetched there or not. -/
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d
theorem before5 (c : Dev nD) (t : Fin cfg0.N) (d) : (dat V c).before 5 t d = iblk V c 5 t :=
  before5_of V (dat V c) (A_eq V c 5) (after5 V c) t d
theorem before6 (c : Dev nD) (t : Fin cfg0.N) (d) : (dat V c).before 6 t d = iblk V c 6 t :=
  before6_of V (dat V c) (A_eq V c 6) (after6 V c) t d
theorem before7 (c : Dev nD) (t : Fin cfg0.N) (d) : (dat V c).before 7 t d = iblk V c 7 t :=
  before7_of V (dat V c) (A_eq V c 7) (after7 V c) t d
theorem before8 (c : Dev nD) (t : Fin cfg0.N) (d) : (dat V c).before 8 t d = iblk V c 8 t :=
  before8_of V (dat V c) (A_eq V c 8) (after8 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t))

/-- The body at any point: the inputs' memrefs hold their blocks, so the body's triple applies; the invariant and the
    core's owed work pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6, before7, before8]
  rw [show (dat V c).Φ t.succ = (dat V c).Φ t.castSucc from rfl,
    show (dat V c).owesAt () t.succ = (dat V c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Reg0

end
-- ==== Proof.KReg1Runs.lean ====
import proofs.«102296_j40982577938503_1_alg».proof.Proof.Gen.Kernel.Launch
import proofs.«102296_j40982577938503_1_alg».proof.Proof.Gen.Kernel.Skeleton
import proofs.«102296_j40982577938503_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the entry contents and whose body leaves the block in place. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the entry contents and whose body leaves the block in place. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first conditional (the innermost coordinate is zero), from the grid coordinates. -/
abbrev cond_0 (i : grid1.Coords) : Prop := (Scalar.cmpi .ne (Scalar.extui (Scalar.cmpi .eq (BitVec.ofNat 32 (i 2).val) 0#32)) 0#32) = 1#1
/-- It holds at the points ≡ 0 (mod 4). -/
theorem hcond_0 : ∀ t : Fin cfg1.N, cond_0 (grid1.coords t) ↔ t.val % 4 = 0 :=
  (by decide +kernel : ∀ t : Fin grid1.N, cond_0 (grid1.coords t) ↔ t.val % 4 = 0)

/-- The condition of the body's second conditional (the innermost coordinate is three). -/
abbrev cond_1 (i : grid1.Coords) : Prop := k1_cond2 i = 1#1
/-- It holds at the points ≡ 3 (mod 4). -/
theorem hcond_1 : ∀ t : Fin cfg1.N, cond_1 (grid1.coords t) ↔ t.val % 4 = 3 :=
  (by decide +kernel : ∀ t : Fin grid1.N, cond_1 (grid1.coords t) ↔ t.val % 4 = 3)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
/-- Where only the first conditional is taken the output window is idle and not written back. -/
theorem idleAt_3_A : ∀ t : Fin cfg1.N, cond_0 (grid1.coords t) → ¬cond_1 (grid1.coords t) → cfg1.idle 3 (grid1.coords t) = true := by decide +kernel
theorem noFlush_3_A : ∀ t : Fin cfg1.N, cond_0 (grid1.coords t) → ¬cond_1 (grid1.coords t) → (cfg1.win 3).flush t = false := by decide +kernel
/-- Where neither is taken the output window is idle and not written back. -/
theorem idleAt_3_B : ∀ t : Fin cfg1.N, ¬cond_0 (grid1.coords t) → ¬cond_1 (grid1.coords t) → cfg1.idle 3 (grid1.coords t) = true := by decide +kernel
theorem noFlush_3_B : ∀ t : Fin cfg1.N, ¬cond_0 (grid1.coords t) → ¬cond_1 (grid1.coords t) → (cfg1.win 3).flush t = false := by decide +kernel
/-- Where the second is taken the output window is live. -/
theorem liveAt_3_C : ∀ t : Fin cfg1.N, ¬cond_0 (grid1.coords t) → cond_1 (grid1.coords t) → cfg1.idle 3 (grid1.coords t) = false := by decide +kernel

/-! ## The staging and scratch memrefs -/

/-- One staging buffer of the output window, through which its contents are stated (the choice does not matter). -/
abbrev VO_3 : View sig .tc .vmem S1x1x1024 .f32 := (Memref.whole cc1_stg3_0 : Memref sig .tc .vmem S1x1x1024 .f32).view
abbrev ms_0 (t : Fin cfg1.N) : Memref sig .tc .vmem S1x1024x64 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x1024x64 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x1024x1024 .i32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x1x1024 .f32 := win1_3.stage (cfg1.slots t 3)
abbrev hs_3 (t : Fin cfg1.N) : (ms_3 t).IsWhole := hstage1_3 ((cfg1.slots t 3).cast nbuf1_3)
/-- The two scratch operands (the running maximum and the running sum): whole scoped buffers of the kernel's own. -/
abbrev scM_0 : Memref sig .tc .vmem S1x1024 .f32 := Memref.whole cc1_scratch0
abbrev scM_1 : Memref sig .tc .vmem S1x1024 .f32 := Memref.whole cc1_scratch1
abbrev VS_0 : View sig .tc .vmem S1x1024 .f32 := scM_0.view
abbrev VS_1 : View sig .tc .vmem S1x1024 .f32 := scM_1.view

/-- The scoped buffers that are neither a staging buffer of this call nor its scratch: carried unopened. -/
abbrev restBut (c : Dev nD) : sProp 𝕄 :=
  Pipeline.scopedRestBut (Ix := Unit) (Name := ℕ) (U := UR sig nD τ) (Lvl := ℕ) (Val := Elt F) spec1 c [cc1_scratch0, cc1_scratch1]

/-- The class's invariant with the two scratch operands as memrefs owned at some contents, the other scoped
    buffers unopened, and the generator register at some state. -/
theorem PhiA_eq (c : Dev nD) :
    (Pipeline.ΦA spec1 c : sProp 𝕄)
      = iprop(iprop(iprop((∃ d, owns (c : Thread nD τ) scM_0 fullShare d) ∗ (∃ d, owns (c : Thread nD τ) scM_1 fullShare d)) ∗ restBut (F := F) c) ∗ (∃ r, prngReg c r)) := by
  unfold Pipeline.ΦA; rw [scopedRest1_split]; simp only [scM_0, scM_1, owns_whole]; try rfl

end Cert.Kernel.Reg1

end
-- ==== Proof.KReg1RunA.lean ====
import proofs.«102296_j40982577938503_1_alg».proof.Proof.KReg1Runs

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

-- (the run's proof term is large)
set_option maxHeartbeats 4000000 in
/-- What the body's stores leave in the output's staging memref and in the two scratch memrefs, as pieces (last first),
    in the case with only the first conditional taken (the first point of a run of four): the scratch pair is reset and then updated; with the proof that on whole memrefs — the inputs' at their contents — the body runs to the
    continuation holding the inputs' as they were and each stored buffer with its pieces written. The pieces are the
    witness the run finds. -/
noncomputable def kernelRun_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : cond_0 i) (hc1 : ¬cond_1 i)
    (x0 : Vec F S1x1024x64 .bf16) (x1 : Vec F S1x1024x64 .bf16) (x2 : Vec F S1x1024x1024 .i32) :
    Σ' (L3 : List (View.Piece (Elt F) S1x1x1024 .f32)) (LS0 : List (View.Piece (Elt F) S1x1024 .f32)), { LS1 : List (View.Piece (Elt F) S1x1024 .f32) //
      ∀ (xi3 : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__pass1_kernel i arg3 harg3 arg4 harg4 arg5 harg5 arg6 harg6 arg7 harg7 arg8 harg8) K } := by
  refine ⟨[], ?_, ?_, fun xi3 E K => ?run⟩
  case run =>
    simp only [cc1__pass1_kernel_eq_skeleton]; unfold cc1__pass1_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Reg1

end
-- ==== Proof.KReg1RunB.lean ====
import proofs.«102296_j40982577938503_1_alg».proof.Proof.KReg1RunA

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

-- (the run's proof term is large)
set_option maxHeartbeats 4000000 in
/-- What the body's stores leave in the output's staging memref and in the two scratch memrefs, as pieces (last first),
    in the case with neither conditional taken (the two middle points of a run): the scratch pair is updated; with the proof that on whole memrefs — the inputs' at their contents — the body runs to the
    continuation holding the inputs' as they were and each stored buffer with its pieces written. The pieces are the
    witness the run finds. -/
noncomputable def kernelRun_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : ¬cond_1 i)
    (x0 : Vec F S1x1024x64 .bf16) (x1 : Vec F S1x1024x64 .bf16) (x2 : Vec F S1x1024x1024 .i32) (xs0 : Vec F S1x1024 .f32) (xs1 : Vec F S1x1024 .f32) :
    Σ' (L3 : List (View.Piece (Elt F) S1x1x1024 .f32)) (LS0 : List (View.Piece (Elt F) S1x1024 .f32)), { LS1 : List (View.Piece (Elt F) S1x1024 .f32) //
      ∀ (xi3 : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__pass1_kernel i arg3 harg3 arg4 harg4 arg5 harg5 arg6 harg6 arg7 harg7 arg8 harg8) K } := by
  refine ⟨[], ?_, ?_, fun xi3 E K => ?run⟩
  case run =>
    simp only [cc1__pass1_kernel_eq_skeleton]; unfold cc1__pass1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Reg1

end
-- ==== Proof.KReg1RunC.lean ====
import proofs.«102296_j40982577938503_1_alg».proof.Proof.KReg1RunB

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

-- (the run's proof term is large)
set_option maxHeartbeats 4000000 in
/-- What the body's stores leave in the output's staging memref and in the two scratch memrefs, as pieces (last first),
    in the case with only the second taken (the last point of a run): the scratch pair is updated and the output block stored; with the proof that on whole memrefs — the inputs' at their contents — the body runs to the
    continuation holding the inputs' as they were and each stored buffer with its pieces written. The pieces are the
    witness the run finds. -/
noncomputable def kernelRun_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : cond_1 i)
    (x0 : Vec F S1x1024x64 .bf16) (x1 : Vec F S1x1024x64 .bf16) (x2 : Vec F S1x1024x1024 .i32) (xs0 : Vec F S1x1024 .f32) (xs1 : Vec F S1x1024 .f32) :
    Σ' (L3 : List (View.Piece (Elt F) S1x1x1024 .f32)) (LS0 : List (View.Piece (Elt F) S1x1024 .f32)), { LS1 : List (View.Piece (Elt F) S1x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__pass1_kernel i arg3 harg3 arg4 harg4 arg5 harg5 arg6 harg6 arg7 harg7 arg8 harg8) K } := by
  refine ⟨?_, ?_, ?_, fun E K => ?run⟩
  case run =>
    simp only [cc1__pass1_kernel_eq_skeleton]; unfold cc1__pass1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.Kernel.Reg1

end
-- ==== Proof.KReg1.lean ====
import proofs.«102296_j40982577938503_1_alg».proof.Proof.KReg1RunC

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## What each case leaves -/

/-- This case stores nothing into the output (the window is idle at its points and not written back): a placeholder nothing consults. -/
def out_A_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : cond_0 i) (hc1 : ¬cond_1 i)
    (x0 : Vec F S1x1024x64 .bf16) (x1 : Vec F S1x1024x64 .bf16) (x2 : Vec F S1x1024x1024 .i32) : Vec F S1x1x1024 .f32 :=
  VO_3.read (Elt F) (VO_3.writes (Elt F) VO_3.junk (kernelRun_A c i arg3 harg3 arg4 harg4 arg5 harg5 arg6 harg6 arg7 harg7 arg8 harg8 hc0 hc1 x0 x1 x2).1)

/-- Case A's pieces for scratch 0 tile it, so they cover it. -/
theorem scover_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : cond_0 i) (hc1 : ¬cond_1 i)
    (x0 : Vec F S1x1024x64 .bf16) (x1 : Vec F S1x1024x64 .bf16) (x2 : Vec F S1x1024x1024 .i32) (y : S1x1024.Idx) :
    ∃ pc ∈ (kernelRun_A c i arg3 harg3 arg4 harg4 arg5 harg5 arg6 harg6 arg7 harg7 arg8 harg8 hc0 hc1 x0 x1 x2).2.1, y ∈ pc.1.set :=
  View.cover_of_tiledL (kernelRun_A c i arg3 harg3 arg4 harg4 arg5 harg5 arg6 harg6 arg7 harg7 arg8 harg8 hc0 hc1 x0 x1 x2).2.1 S1x1024.size (by sl_kernel_rfl) y

/-- What case A leaves in scratch 0: its pieces read back over junk. -/
def sout_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : cond_0 i) (hc1 : ¬cond_1 i)
    (x0 : Vec F S1x1024x64 .bf16) (x1 : Vec F S1x1024x64 .bf16) (x2 : Vec F S1x1024x1024 .i32) : Vec F S1x1024 .f32 :=
  VS_0.read (Elt F) (VS_0.writes (Elt F) VS_0.junk (kernelRun_A c i arg3 harg3 arg4 harg4 arg5 harg5 arg6 harg6 arg7 harg7 arg8 harg8 hc0 hc1 x0 x1 x2).2.1)

/-- Case A's pieces for scratch 1 tile it, so they cover it. -/
theorem scover_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : cond_0 i) (hc1 : ¬cond_1 i)
    (x0 : Vec F S1x1024x64 .bf16) (x1 : Vec F S1x1024x64 .bf16) (x2 : Vec F S1x1024x1024 .i32) (y : S1x1024.Idx) :
    ∃ pc ∈ (kernelRun_A c i arg3 harg3 arg4 harg4 arg5 harg5 arg6 harg6 arg7 harg7 arg8 harg8 hc0 hc1 x0 x1 x2).2.2.1, y ∈ pc.1.set :=
  View.cover_of_tiledL (kernelRun_A c i arg3 harg3 arg4 harg4 arg5 harg5 arg6 harg6 arg7 harg7 arg8 harg8 hc0 hc1 x0 x1 x2).2.2.1 S1x1024.size (by sl_kernel_rfl) y

/-- What case A leaves in scratch 1: its pieces read back over junk. -/
def sout_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : cond_0 i) (hc1 : ¬cond_1 i)
    (x0 : Vec F S1x1024x64 .bf16) (x1 : Vec F S1x1024x64 .bf16) (x2 : Vec F S1x1024x1024 .i32) : Vec F S1x1024 .f32 :=
  VS_1.read (Elt F) (VS_1.writes (Elt F) VS_1.junk (kernelRun_A c i arg3 harg3 arg4 harg4 arg5 harg5 arg6 harg6 arg7 harg7 arg8 harg8 hc0 hc1 x0 x1 x2).2.2.1)

/-- This case stores nothing into the output (the window is idle at its points and not written back): a placeholder nothing consults. -/
def out_B_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : ¬cond_1 i)
    (x0 : Vec F S1x1024x64 .bf16) (x1 : Vec F S1x1024x64 .bf16) (x2 : Vec F S1x1024x1024 .i32) (xs0 : Vec F S1x1024 .f32) (xs1 : Vec F S1x1024 .f32) : Vec F S1x1x1024 .f32 :=
  VO_3.read (Elt F) (VO_3.writes (Elt F) VO_3.junk (kernelRun_B c i arg3 harg3 arg4 harg4 arg5 harg5 arg6 harg6 arg7 harg7 arg8 harg8 hc0 hc1 x0 x1 x2 xs0 xs1).1)

/-- Case B's pieces for scratch 0 tile it, so they cover it. -/
theorem scover_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : ¬cond_1 i)
    (x0 : Vec F S1x1024x64 .bf16) (x1 : Vec F S1x1024x64 .bf16) (x2 : Vec F S1x1024x1024 .i32) (xs0 : Vec F S1x1024 .f32) (xs1 : Vec F S1x1024 .f32) (y : S1x1024.Idx) :
    ∃ pc ∈ (kernelRun_B c i arg3 harg3 arg4 harg4 arg5 harg5 arg6 harg6 arg7 harg7 arg8 harg8 hc0 hc1 x0 x1 x2 xs0 xs1).2.1, y ∈ pc.1.set :=
  View.cover_of_tiledL (kernelRun_B c i arg3 harg3 arg4 harg4 arg5 harg5 arg6 harg6 arg7 harg7 arg8 harg8 hc0 hc1 x0 x1 x2 xs0 xs1).2.1 S1x1024.size (by sl_kernel_rfl) y

/-- What case B leaves in scratch 0: its pieces read back over junk. -/
def sout_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : ¬cond_1 i)
    (x0 : Vec F S1x1024x64 .bf16) (x1 : Vec F S1x1024x64 .bf16) (x2 : Vec F S1x1024x1024 .i32) (xs0 : Vec F S1x1024 .f32) (xs1 : Vec F S1x1024 .f32) : Vec F S1x1024 .f32 :=
  VS_0.read (Elt F) (VS_0.writes (Elt F) VS_0.junk (kernelRun_B c i arg3 harg3 arg4 harg4 arg5 harg5 arg6 harg6 arg7 harg7 arg8 harg8 hc0 hc1 x0 x1 x2 xs0 xs1).2.1)

/-- Case B's pieces for scratch 1 tile it, so they cover it. -/
theorem scover_B_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : ¬cond_1 i)
    (x0 : Vec F S1x1024x64 .bf16) (x1 : Vec F S1x1024x64 .bf16) (x2 : Vec F S1x1024x1024 .i32) (xs0 : Vec F S1x1024 .f32) (xs1 : Vec F S1x1024 .f32) (y : S1x1024.Idx) :
    ∃ pc ∈ (kernelRun_B c i arg3 harg3 arg4 harg4 arg5 harg5 arg6 harg6 arg7 harg7 arg8 harg8 hc0 hc1 x0 x1 x2 xs0 xs1).2.2.1, y ∈ pc.1.set :=
  View.cover_of_tiledL (kernelRun_B c i arg3 harg3 arg4 harg4 arg5 harg5 arg6 harg6 arg7 harg7 arg8 harg8 hc0 hc1 x0 x1 x2 xs0 xs1).2.2.1 S1x1024.size (by sl_kernel_rfl) y

/-- What case B leaves in scratch 1: its pieces read back over junk. -/
def sout_B_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : ¬cond_1 i)
    (x0 : Vec F S1x1024x64 .bf16) (x1 : Vec F S1x1024x64 .bf16) (x2 : Vec F S1x1024x1024 .i32) (xs0 : Vec F S1x1024 .f32) (xs1 : Vec F S1x1024 .f32) : Vec F S1x1024 .f32 :=
  VS_1.read (Elt F) (VS_1.writes (Elt F) VS_1.junk (kernelRun_B c i arg3 harg3 arg4 harg4 arg5 harg5 arg6 harg6 arg7 harg7 arg8 harg8 hc0 hc1 x0 x1 x2 xs0 xs1).2.2.1)

/-- In the last case the pieces for the output tile its block, so they cover it. -/
theorem cover_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : cond_1 i)
    (x0 : Vec F S1x1024x64 .bf16) (x1 : Vec F S1x1024x64 .bf16) (x2 : Vec F S1x1024x1024 .i32) (xs0 : Vec F S1x1024 .f32) (xs1 : Vec F S1x1024 .f32) (y : S1x1x1024.Idx) :
    ∃ pc ∈ (kernelRun_C c i arg3 harg3 arg4 harg4 arg5 harg5 arg6 harg6 arg7 harg7 arg8 harg8 hc0 hc1 x0 x1 x2 xs0 xs1).1, y ∈ pc.1.set :=
  View.cover_of_tiledL (kernelRun_C c i arg3 harg3 arg4 harg4 arg5 harg5 arg6 harg6 arg7 harg7 arg8 harg8 hc0 hc1 x0 x1 x2 xs0 xs1).1 S1x1x1024.size (by sl_kernel_rfl) y

/-- What the last case leaves in the output's staging buffer: its pieces read back over junk. -/
def out_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : cond_1 i)
    (x0 : Vec F S1x1024x64 .bf16) (x1 : Vec F S1x1024x64 .bf16) (x2 : Vec F S1x1024x1024 .i32) (xs0 : Vec F S1x1024 .f32) (xs1 : Vec F S1x1024 .f32) : Vec F S1x1x1024 .f32 :=
  VO_3.read (Elt F) (VO_3.writes (Elt F) VO_3.junk (kernelRun_C c i arg3 harg3 arg4 harg4 arg5 harg5 arg6 harg6 arg7 harg7 arg8 harg8 hc0 hc1 x0 x1 x2 xs0 xs1).1)

/-- Case C's pieces for scratch 0 tile it, so they cover it. -/
theorem scover_C_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : cond_1 i)
    (x0 : Vec F S1x1024x64 .bf16) (x1 : Vec F S1x1024x64 .bf16) (x2 : Vec F S1x1024x1024 .i32) (xs0 : Vec F S1x1024 .f32) (xs1 : Vec F S1x1024 .f32) (y : S1x1024.Idx) :
    ∃ pc ∈ (kernelRun_C c i arg3 harg3 arg4 harg4 arg5 harg5 arg6 harg6 arg7 harg7 arg8 harg8 hc0 hc1 x0 x1 x2 xs0 xs1).2.1, y ∈ pc.1.set :=
  View.cover_of_tiledL (kernelRun_C c i arg3 harg3 arg4 harg4 arg5 harg5 arg6 harg6 arg7 harg7 arg8 harg8 hc0 hc1 x0 x1 x2 xs0 xs1).2.1 S1x1024.size (by sl_kernel_rfl) y

/-- What case C leaves in scratch 0: its pieces read back over junk. -/
def sout_C_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : cond_1 i)
    (x0 : Vec F S1x1024x64 .bf16) (x1 : Vec F S1x1024x64 .bf16) (x2 : Vec F S1x1024x1024 .i32) (xs0 : Vec F S1x1024 .f32) (xs1 : Vec F S1x1024 .f32) : Vec F S1x1024 .f32 :=
  VS_0.read (Elt F) (VS_0.writes (Elt F) VS_0.junk (kernelRun_C c i arg3 harg3 arg4 harg4 arg5 harg5 arg6 harg6 arg7 harg7 arg8 harg8 hc0 hc1 x0 x1 x2 xs0 xs1).2.1)

/-- Case C's pieces for scratch 1 tile it, so they cover it. -/
theorem scover_C_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : cond_1 i)
    (x0 : Vec F S1x1024x64 .bf16) (x1 : Vec F S1x1024x64 .bf16) (x2 : Vec F S1x1024x1024 .i32) (xs0 : Vec F S1x1024 .f32) (xs1 : Vec F S1x1024 .f32) (y : S1x1024.Idx) :
    ∃ pc ∈ (kernelRun_C c i arg3 harg3 arg4 harg4 arg5 harg5 arg6 harg6 arg7 harg7 arg8 harg8 hc0 hc1 x0 x1 x2 xs0 xs1).2.2.1, y ∈ pc.1.set :=
  View.cover_of_tiledL (kernelRun_C c i arg3 harg3 arg4 harg4 arg5 harg5 arg6 harg6 arg7 harg7 arg8 harg8 hc0 hc1 x0 x1 x2 xs0 xs1).2.2.1 S1x1024.size (by sl_kernel_rfl) y

/-- What case C leaves in scratch 1: its pieces read back over junk. -/
def sout_C_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : cond_1 i)
    (x0 : Vec F S1x1024x64 .bf16) (x1 : Vec F S1x1024x64 .bf16) (x2 : Vec F S1x1024x1024 .i32) (xs0 : Vec F S1x1024 .f32) (xs1 : Vec F S1x1024 .f32) : Vec F S1x1024 .f32 :=
  VS_1.read (Elt F) (VS_1.writes (Elt F) VS_1.junk (kernelRun_C c i arg3 harg3 arg4 harg4 arg5 harg5 arg6 harg6 arg7 harg7 arg8 harg8 hc0 hc1 x0 x1 x2 xs0 xs1).2.2.1)

/-! ## What the output's staging buffer and the two scratch buffers hold after each point -/

/-- The accumulation: after the body at position `n`, the output's staging buffer, the running maximum and the running
    sum — the case the closed forms select at `n`, run at the point's memrefs and input blocks, the scratch pair it
    reads at what position `n - 1` left. -/
def outsAt (c : Dev nD) : (n : ℕ) → n < cfg1.N → Vec F S1x1x1024 .f32 × Vec F S1x1024 .f32 × Vec F S1x1024 .f32
  | 0, hn => (out_A_3 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩), sout_A_0 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩), sout_A_1 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (out_A_3 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩) (iblk V c 2 ⟨n + 1, hn⟩), sout_A_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩) (iblk V c 2 ⟨n + 1, hn⟩), sout_A_1 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩) (iblk V c 2 ⟨n + 1, hn⟩))
    else
      if h1 : (n + 1) % 4 = 3 then
        (out_C_3 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2, sout_C_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2, sout_C_1 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2)
      else
        (out_B_3 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2, sout_B_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2, sout_B_1 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2)

/-- `outsAt` at a point of the first case. -/
theorem outsAt_A (c : Dev nD) (t : Fin cfg1.N) (h0 : t.val % 4 = 0) (h1 : ¬t.val % 4 = 3) :
    outsAt V c t.val t.isLt = (out_A_3 c (grid1.coords t) (ms_0 t) (hs_0 t) (ms_1 t) (hs_1 t) (ms_2 t) (hs_2 t) (ms_3 t) (hs_3 t) scM_0 (Memref.isWhole_whole _) scM_1 (Memref.isWhole_whole _) ((hcond_0 t).mpr h0) (fun h => h1 ((hcond_1 t).mp h)) (iblk V c 0 t) (iblk V c 1 t) (iblk V c 2 t), sout_A_0 c (grid1.coords t) (ms_0 t) (hs_0 t) (ms_1 t) (hs_1 t) (ms_2 t) (hs_2 t) (ms_3 t) (hs_3 t) scM_0 (Memref.isWhole_whole _) scM_1 (Memref.isWhole_whole _) ((hcond_0 t).mpr h0) (fun h => h1 ((hcond_1 t).mp h)) (iblk V c 0 t) (iblk V c 1 t) (iblk V c 2 t), sout_A_1 c (grid1.coords t) (ms_0 t) (hs_0 t) (ms_1 t) (hs_1 t) (ms_2 t) (hs_2 t) (ms_3 t) (hs_3 t) scM_0 (Memref.isWhole_whole _) scM_1 (Memref.isWhole_whole _) ((hcond_0 t).mpr h0) (fun h => h1 ((hcond_1 t).mp h)) (iblk V c 0 t) (iblk V c 1 t) (iblk V c 2 t)) := by
  obtain ⟨n, hn⟩ := t
  cases n with
  | zero => exact rfl
  | succ n => exact (dif_pos h0).trans ((dif_neg h1).trans rfl)

/-- `outsAt` at a middle point: over what the point before left. -/
theorem outsAt_B (c : Dev nD) (t : Fin cfg1.N) (h0 : ¬t.val % 4 = 0) (h1 : ¬t.val % 4 = 3) :
    outsAt V c t.val t.isLt = (out_B_3 c (grid1.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) (fun h => h1 ((hcond_1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2, sout_B_0 c (grid1.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) (fun h => h1 ((hcond_1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2, sout_B_1 c (grid1.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) (fun h => h1 ((hcond_1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt` at a last point of a run: over what the point before left. -/
theorem outsAt_C (c : Dev nD) (t : Fin cfg1.N) (h0 : ¬t.val % 4 = 0) (h1 : t.val % 4 = 3) :
    outsAt V c t.val t.isLt = (out_C_3 c (grid1.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) ((hcond_1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2, sout_C_0 c (grid1.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) ((hcond_1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2, sout_C_1 c (grid1.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) ((hcond_1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before the first point the class's invariant; afterwards the two scratch buffers at what the point before left in
    them, the other scoped buffers unopened, and the generator register at some state. -/
def PhiS (c : Dev nD) : (n : ℕ) → n ≤ cfg1.N → sProp 𝕄
  | 0, _ => Pipeline.ΦA spec1 c
  | n + 1, hn => iprop(iprop(iprop(owns (c : Thread nD τ) scM_0 fullShare ((outsAt V c n hn).2.1) ∗ owns (c : Thread nD τ) scM_1 fullShare ((outsAt V c n hn).2.2)) ∗ restBut (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM_0 fullShare ((outsAt V c n hn).2.1) ∗ owns (c : Thread nD τ) scM_1 fullShare ((outsAt V c n hn).2.2)) ∗ restBut (F := F) c) ∗ (∃ r, prngReg c r)) := rfl

theorem PhiS_pos (c : Dev nD) (n : ℕ) (h : n ≤ cfg1.N) (hz : n ≠ 0) :
    PhiS V c n h = iprop(iprop(iprop(owns (c : Thread nD τ) scM_0 fullShare ((outsAt V c (n - 1) (by omega)).2.1) ∗ owns (c : Thread nD τ) scM_1 fullShare ((outsAt V c (n - 1) (by omega)).2.2)) ∗ restBut (F := F) c) ∗ (∃ r, prngReg c r)) := by
  cases n with
  | zero => exact absurd rfl hz
  | succ n => rfl

/-! ## The pipeline's proof data -/

/-- The proof data of this region's pipeline on core `c`: the arrays as the region finds them; after the body at point
    `t` each input's buffer at its block and the output's at `outsAt`'s first component; the invariant `PhiS`;
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 8000000 in
/-- The body at any point: the inputs' memrefs hold their blocks; the closed forms say which case the point is in; the
    invariant hands the body the scratch pair at what the point before left (at anything at the first point) and
    takes it back at this point's contents; the other scoped buffers and the generator register pass through; the
    core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 4 = 0
  · by_cases h1 : t.val % 4 = 3
    · exfalso; omega
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3_A t ((hcond_0 t).mpr h0) (fun h => h1 ((hcond_1 t).mp h))) (noFlush_3_A t ((hcond_0 t).mpr h0) (fun h => h1 ((hcond_1 t).mp h)))]
      rw [outsAt_A V c t h0 h1]
      unfold sout_A_0 sout_A_1; (try dsimp only)
      by_cases hz : t.val = 0
      ·
        rw [PhiS_castSucc V c t, PhiS_zero V c _ _ hz, PhiA_eq]
        iintro ⟨⟨⟨⟨HS0, HS1⟩, Hrb⟩, Hg⟩, Ho, ⟨%d0, H0⟩, ⟨%d1, H1⟩, ⟨%d2, H2⟩, ⟨%d3, H3⟩⟩
        iapply ((kernelRun_A c (grid1.coords t) _ _ _ _ _ _ _ _ _ _ _ _ ((hcond_0 t).mpr h0) (fun h => h1 ((hcond_1 t).mp h)) (iblk V c 0 t) (iblk V c 1 t) (iblk V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hrb Hg]
        · isplitl [HS0 HS1 Hrb]
          · isplitl [HS0 HS1]
            · isplitl [HS0]
              · unfold owns; iexists _; isplitr
                swap; · iexact HS0
                ipureintro; exact View.read_writes_of_cover _ _ _ _ _ (scover_A_0 c _ _ _ _ _ _ _ _ _ _ _ _ _ _ _ _ _ _)
              · unfold owns; iexists _; isplitr
                swap; · iexact HS1
                ipureintro; exact View.read_writes_of_cover _ _ _ _ _ (scover_A_1 c _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3
      ·
        rw [PhiS_castSucc V c t, PhiS_pos V c _ _ hz]
        iintro ⟨⟨⟨⟨HS0, HS1⟩, Hrb⟩, Hg⟩, Ho, ⟨%d0, H0⟩, ⟨%d1, H1⟩, ⟨%d2, H2⟩, ⟨%d3, H3⟩⟩
        iapply ((kernelRun_A c (grid1.coords t) _ _ _ _ _ _ _ _ _ _ _ _ ((hcond_0 t).mpr h0) (fun h => h1 ((hcond_1 t).mp h)) (iblk V c 0 t) (iblk V c 1 t) (iblk V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hrb Hg]
        · isplitl [HS0 HS1 Hrb]
          · isplitl [HS0 HS1]
            · isplitl [HS0]
              · unfold owns; iexists _; isplitr
                swap; · iexact HS0
                ipureintro; exact View.read_writes_of_cover _ _ _ _ _ (scover_A_0 c _ _ _ _ _ _ _ _ _ _ _ _ _ _ _ _ _ _)
              · unfold owns; iexists _; isplitr
                swap; · iexact HS1
                ipureintro; exact View.read_writes_of_cover _ _ _ _ _ (scover_A_1 c _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3
  · by_cases h1 : t.val % 4 = 3
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3_C t (fun h => h0 ((hcond_0 t).mp h)) ((hcond_1 t).mpr h1)], after_3]
      rw [outsAt_C V c t h0 h1]
      unfold out_C_3 sout_C_0 sout_C_1; (try dsimp only)
      by_cases hz : t.val = 0
      ·
        exfalso; have hN : t.val < 64 := lt_of_lt_of_eq t.isLt (show cfg1.N = 64 from N_1); omega
      ·
        rw [PhiS_castSucc V c t, PhiS_pos V c _ _ hz]
        iintro ⟨⟨⟨⟨HS0, HS1⟩, Hrb⟩, Hg⟩, Ho, ⟨%d0, H0⟩, ⟨%d1, H1⟩, ⟨%d2, H2⟩, ⟨%d3, H3⟩⟩
        iapply ((kernelRun_C c (grid1.coords t) _ _ _ _ _ _ _ _ _ _ _ _ (fun h => h0 ((hcond_0 t).mp h)) ((hcond_1 t).mpr h1) (iblk V c 0 t) (iblk V c 1 t) (iblk V c 2 t) _ _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%es0, HS0⟩, ⟨%es1, HS1⟩⟩
        isplitl [HS0 HS1 Hrb Hg]
        · isplitl [HS0 HS1 Hrb]
          · isplitl [HS0 HS1]
            · isplitl [HS0]
              · unfold owns; iexists _; isplitr
                swap; · iexact HS0
                ipureintro; exact View.read_writes_of_cover _ _ _ _ _ (scover_C_0 c _ _ _ _ _ _ _ _ _ _ _ _ _ _ _ _ _ _ _ _)
              · unfold owns; iexists _; isplitr
                swap; · iexact HS1
                ipureintro; exact View.read_writes_of_cover _ _ _ _ _ (scover_C_1 c _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_C_3 c _ _ _ _ _ _ _ _ _ _ _ _ _ _ _ _ _ _ _ _)
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3_B t (fun h => h0 ((hcond_0 t).mp h)) (fun h => h1 ((hcond_1 t).mp h))) (noFlush_3_B t (fun h => h0 ((hcond_0 t).mp h)) (fun h => h1 ((hcond_1 t).mp h)))]
      rw [outsAt_B V c t h0 h1]
      unfold sout_B_0 sout_B_1; (try dsimp only)
      by_cases hz : t.val = 0
      ·
        exfalso; have hN : t.val < 64 := lt_of_lt_of_eq t.isLt (show cfg1.N = 64 from N_1); omega
      ·
        rw [PhiS_castSucc V c t, PhiS_pos V c _ _ hz]
        iintro ⟨⟨⟨⟨HS0, HS1⟩, Hrb⟩, Hg⟩, Ho, ⟨%d0, H0⟩, ⟨%d1, H1⟩, ⟨%d2, H2⟩, ⟨%d3, H3⟩⟩
        iapply ((kernelRun_B c (grid1.coords t) _ _ _ _ _ _ _ _ _ _ _ _ (fun h => h0 ((hcond_0 t).mp h)) (fun h => h1 ((hcond_1 t).mp h)) (iblk V c 0 t) (iblk V c 1 t) (iblk V c 2 t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hrb Hg]
        · isplitl [HS0 HS1 Hrb]
          · isplitl [HS0 HS1]
            · isplitl [HS0]
              · unfold owns; iexists _; isplitr
                swap; · iexact HS0
                ipureintro; exact View.read_writes_of_cover _ _ _ _ _ (scover_B_0 c _ _ _ _ _ _ _ _ _ _ _ _ _ _ _ _ _ _ _ _)
              · unfold owns; iexists _; isplitr
                swap; · iexact HS1
                ipureintro; exact View.read_writes_of_cover _ _ _ _ _ (scover_B_1 c _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the scratch pair's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨⟨HS0, HS1⟩, Hrb⟩, Hg⟩
  isplitl [HS0 HS1 Hrb]
  · isplitl [HS0 HS1]
    · isplitl [HS0]
      · iexists _; iexact HS0
      · iexists _; iexact HS1
    iexact Hrb
  iexact Hg

/-- The same after the last point. -/
theorem hout (c : Dev nD) : (dat V c).Φ (Fin.last cfg1.N) ⊢ Pipeline.ΦA spec1 c :=
  Phi_out V c _ (by rw [Fin.val_last]; have : cfg1.N = 64 := N_1; omega)

end Cert.Kernel.Reg1

end
-- ==== Proof.KReg2Runs.lean ====
/- Region 2 (the third kernel call: the weighted sum of the value rows): what the three control cases of its body
   share. The branch conditions decided over the grid, where the output window is idle, each window's block at a
   point read off the region-entry contents, the scratch accumulator as a memref and a view, and the region invariant
   with the scratch split off. Generic in the float instance. -/
import proofs.«102296_j40982577938503_1_alg».proof.Proof.Gen.Kernel.Launch
import proofs.«102296_j40982577938503_1_alg».proof.Proof.Gen.Kernel.Skeleton
import proofs.«102296_j40982577938503_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the block
    index has not moved), for any proof data whose array is the entry contents and whose body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, the block
    index has not moved), for any proof data whose array is the entry contents and whose body leaves the block in place. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, the block
    index has not moved), for any proof data whose array is the entry contents and whose body leaves the block in place. -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (unfetched, the block
    index has not moved), for any proof data whose array is the entry contents and whose body leaves the block in place. -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (unfetched, the block
    index has not moved), for any proof data whose array is the entry contents and whose body leaves the block in place. -/
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch's condition (the innermost grid coordinate is 0: the accumulator is zeroed), from the grid coordinates. -/
abbrev cond0 (i : grid2.Coords) : Prop := (Scalar.cmpi .ne (Scalar.extui (Scalar.cmpi .eq (BitVec.ofNat 32 (i 2).val) 0#32)) 0#32) = 1#1
/-- It holds at the points ≡ 0 (mod 4): decided over the grid. -/
theorem hcond0 : ∀ t : Fin cfg2.N, cond0 (grid2.coords t) ↔ t.val % 4 = 0 :=
  (by decide +kernel : ∀ t : Fin grid2.N, cond0 (grid2.coords t) ↔ t.val % 4 = 0)

/-- The second branch's condition (the innermost grid coordinate is 3: the accumulator is stored into the output). -/
abbrev cond1 (i : grid2.Coords) : Prop := k2_cond2 i = 1#1
/-- It holds at the points ≡ 3 (mod 4): decided over the grid. -/
theorem hcond1 : ∀ t : Fin cfg2.N, cond1 (grid2.coords t) ↔ t.val % 4 = 3 :=
  (by decide +kernel : ∀ t : Fin grid2.N, cond1 (grid2.coords t) ↔ t.val % 4 = 3)

/-! ## Where the windows are idle -/

/-- Window 0 is never idle (an input). -/
theorem liveAt_0 : ∀ t : Fin cfg2.N, cfg2.idle 0 (grid2.coords t) = false := by decide +kernel
/-- Window 1 is never idle (an input). -/
theorem liveAt_1 : ∀ t : Fin cfg2.N, cfg2.idle 1 (grid2.coords t) = false := by decide +kernel
/-- Window 2 is never idle (an input). -/
theorem liveAt_2 : ∀ t : Fin cfg2.N, cfg2.idle 2 (grid2.coords t) = false := by decide +kernel
/-- Window 3 is never idle (an input). -/
theorem liveAt_3 : ∀ t : Fin cfg2.N, cfg2.idle 3 (grid2.coords t) = false := by decide +kernel
/-- Window 4 is never idle (an input). -/
theorem liveAt_4 : ∀ t : Fin cfg2.N, cfg2.idle 4 (grid2.coords t) = false := by decide +kernel
/-- At the points of the first case the output window is idle: the case stores nothing into it. -/
theorem idleAt_5_A : ∀ t : Fin cfg2.N, cond0 (grid2.coords t) → ¬cond1 (grid2.coords t) → cfg2.idle 5 (grid2.coords t) = true := by decide +kernel
/-- and its block is not written back there. -/
theorem noFlush_5_A : ∀ t : Fin cfg2.N, cond0 (grid2.coords t) → ¬cond1 (grid2.coords t) → (cfg2.win 5).flush t = false := by decide +kernel
/-- The same at the points of the middle case. -/
theorem idleAt_5_B : ∀ t : Fin cfg2.N, ¬cond0 (grid2.coords t) → ¬cond1 (grid2.coords t) → cfg2.idle 5 (grid2.coords t) = true := by decide +kernel
theorem noFlush_5_B : ∀ t : Fin cfg2.N, ¬cond0 (grid2.coords t) → ¬cond1 (grid2.coords t) → (cfg2.win 5).flush t = false := by decide +kernel
/-- At the points of the last case the output window is live: the case stores into it. -/
theorem liveAt_5_C : ∀ t : Fin cfg2.N, ¬cond0 (grid2.coords t) → cond1 (grid2.coords t) → cfg2.idle 5 (grid2.coords t) = false := by decide +kernel

/-! ## The staging memrefs and the scratch -/

/-- One staging buffer of the output window, through which its contents are stated (the choice does not matter). -/
abbrev VO5 : View sig .tc .vmem S1x1024x64 .f32 := (Memref.whole cc2_stg5_0 : Memref sig .tc .vmem S1x1024x64 .f32).view
/-- Each window's current staging memref at point `t`, as the pipeline passes it, and its wholeness. -/
abbrev ms0 (t : Fin cfg2.N) : Memref sig .tc .vmem S1x1024x64 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x1024x64 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x1024x64 .bf16 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x1024x1024 .i32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x1x1024 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S1x1024x64 .f32 := win2_5.stage (cfg2.slots t 5)
abbrev hs5 (t : Fin cfg2.N) : (ms5 t).IsWhole := hstage2_5 ((cfg2.slots t 5).cast nbuf2_5)
/-- The scratch accumulator: a whole scoped buffer of the kernel's own, passed beside the windows. -/
abbrev scM : Memref sig .tc .vmem S1024x64 .f32 := Memref.whole cc2_scratch0
/-- The same as a view: what the accumulator holds between points is stated through it. -/
abbrev VS : View sig .tc .vmem S1024x64 .f32 := scM.view

/-- The region's entry invariant with the accumulator as a memref owned at some contents, the other scoped buffers
    kept unopened, and the generator register at some state. -/
theorem PhiA_eq (c : Dev nD) :
    (Pipeline.ΦA spec2 c : sProp 𝕄)
      = iprop(iprop(iprop((∃ d, owns (c : Thread nD τ) scM fullShare d)) ∗ Pipeline.scopedRestBut spec2 c [cc2_scratch0]) ∗ (∃ r, prngReg c r)) := by
  unfold Pipeline.ΦA; rw [scopedRest2_split]; simp only [scM, owns_whole]; try rfl

end Cert.Kernel.Reg2

end
-- ==== Proof.KReg2RunA.lean ====
/- Region 2: the whole-body run of its kernel in the first case (the innermost grid coordinate is 0: the accumulator is zeroed, then the block's product added; nothing stored into the output). The pieces each buffer ends with are the witness the run finds. Generic in the float instance. -/
import proofs.«102296_j40982577938503_1_alg».proof.Proof.KReg2Runs

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), in this
    case, with the proof that on whole memrefs — the inputs' at their contents, the output's at contents handed back untouched, the accumulator at anything —
    the body runs to the continuation holding the inputs' as they were, the output's as it was and the accumulator with its
    pieces written: the printed functions are their skeletons, which are run operation by operation, each branch decided by the case's hypotheses. -/
noncomputable def kernelRun_A (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : cond0 i) (hc1 : ¬cond1 i)
    (x0 : Vec F S1x1024x64 .bf16) (x1 : Vec F S1x1024x64 .bf16) (x2 : Vec F S1x1024x64 .bf16) (x3 : Vec F S1x1024x1024 .i32) (x4 : Vec F S1x1x1024 .f32) :
    Σ' (L5 : List (View.Piece (Elt F) S1x1024x64 .f32)), { LS0 : List (View.Piece (Elt F) S1024x64 .f32) //
      ∀ (xi5 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc2__pass2_kernel i arg3 harg3 arg4 harg4 arg5 harg5 arg6 harg6 arg7 harg7 arg8 harg8 arg9 harg9) K } := by
  refine ⟨[], ?_, fun xi5 E K => ?run⟩
  case run =>
    simp only [cc2__pass2_kernel_eq_skeleton]; unfold cc2__pass2_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Reg2

end
-- ==== Proof.KReg2RunB.lean ====
/- Region 2: the whole-body run of its kernel in the middle case (the innermost grid coordinate is 1 or 2: the block's product added to the accumulator the point before left; nothing stored into the output). The pieces each buffer ends with are the witness the run finds. Generic in the float instance. -/
import proofs.«102296_j40982577938503_1_alg».proof.Proof.KReg2RunA

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), in this
    case, with the proof that on whole memrefs — the inputs' at their contents, the output's at contents handed back untouched, the accumulator at the contents the point before left —
    the body runs to the continuation holding the inputs' as they were, the output's as it was and the accumulator with its
    pieces written: the printed functions are their skeletons, which are run operation by operation, each branch decided by the case's hypotheses. -/
noncomputable def kernelRun_B (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : ¬cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) :
    Σ' (L5 : List (View.Piece (Elt F) S1x1024x64 .f32)), { LS0 : List (View.Piece (Elt F) S1024x64 .f32) //
      ∀ (xi5 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc2__pass2_kernel i arg3 harg3 arg4 harg4 arg5 harg5 arg6 harg6 arg7 harg7 arg8 harg8 arg9 harg9) K } := by
  refine ⟨[], ?_, fun xi5 E K => ?run⟩
  case run =>
    simp only [cc2__pass2_kernel_eq_skeleton]; unfold cc2__pass2_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Reg2

end
-- ==== Proof.KReg2RunC.lean ====
/- Region 2: the whole-body run of its kernel in the last case (the innermost grid coordinate is 3: the block's product added to the accumulator the point before left, and the sum stored into the output). The pieces each buffer ends with are the witness the run finds. Generic in the float instance. -/
import proofs.«102296_j40982577938503_1_alg».proof.Proof.KReg2RunB

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), in this
    case, with the proof that on whole memrefs — the inputs' at their contents, the output's at anything, the accumulator at the contents the point before left —
    the body runs to the continuation holding the inputs' as they were, the output's with its pieces written and the accumulator with its
    pieces written: the printed functions are their skeletons, which are run operation by operation, each branch decided by the case's hypotheses. -/
noncomputable def kernelRun_C (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) :
    Σ' (L5 : List (View.Piece (Elt F) S1x1024x64 .f32)), { LS0 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc2__pass2_kernel i arg3 harg3 arg4 harg4 arg5 harg5 arg6 harg6 arg7 harg7 arg8 harg8 arg9 harg9) K } := by
  refine ⟨?_, ?_, fun E K => ?run⟩
  case run =>
    simp only [cc2__pass2_kernel_eq_skeleton]; unfold cc2__pass2_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Reg2

end
-- ==== Proof.KReg2.lean ====
/- Region 2 (the third kernel call): its frame record. What each control case leaves in the output's staging buffer and
   in the scratch accumulator; the accumulation over the grid points by recursion on the point, with its case
   equations; the region invariant carrying the accumulator's contents from point to point; the proof data; the
   body obligation at a generic point; and the invariant's two ends. Generic in the float instance, at a parameter for
   the region-entry contents. -/
import proofs.«102296_j40982577938503_1_alg».proof.Proof.KReg2RunC

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## What each case leaves -/

/-- What case A leaves in the output's staging buffer: its pieces read back over junk (no pieces: a placeholder nothing consults,
    since at these points the window is neither written back nor read at the next point). -/
def out_A (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : cond0 i) (hc1 : ¬cond1 i)
    (x0 : Vec F S1x1024x64 .bf16) (x1 : Vec F S1x1024x64 .bf16) (x2 : Vec F S1x1024x64 .bf16) (x3 : Vec F S1x1024x1024 .i32) (x4 : Vec F S1x1x1024 .f32) : Vec F S1x1024x64 .f32 :=
  VO5.read (Elt F) (VO5.writes (Elt F) VO5.junk (kernelRun_A c i arg3 harg3 arg4 harg4 arg5 harg5 arg6 harg6 arg7 harg7 arg8 harg8 arg9 harg9 hc0 hc1 x0 x1 x2 x3 x4).1)

/-- Case A's pieces for the accumulator cover it (they tile it). -/
theorem scover_A (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : cond0 i) (hc1 : ¬cond1 i)
    (x0 : Vec F S1x1024x64 .bf16) (x1 : Vec F S1x1024x64 .bf16) (x2 : Vec F S1x1024x64 .bf16) (x3 : Vec F S1x1024x1024 .i32) (x4 : Vec F S1x1x1024 .f32) (y : S1024x64.Idx) :
    ∃ pc ∈ (kernelRun_A c i arg3 harg3 arg4 harg4 arg5 harg5 arg6 harg6 arg7 harg7 arg8 harg8 arg9 harg9 hc0 hc1 x0 x1 x2 x3 x4).2.1, y ∈ pc.1.set :=
  View.cover_of_tiledL (kernelRun_A c i arg3 harg3 arg4 harg4 arg5 harg5 arg6 harg6 arg7 harg7 arg8 harg8 arg9 harg9 hc0 hc1 x0 x1 x2 x3 x4).2.1 S1024x64.size (by sl_kernel_rfl) y

/-- What case A leaves in the accumulator: its pieces read back over junk. -/
def sout_A (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : cond0 i) (hc1 : ¬cond1 i)
    (x0 : Vec F S1x1024x64 .bf16) (x1 : Vec F S1x1024x64 .bf16) (x2 : Vec F S1x1024x64 .bf16) (x3 : Vec F S1x1024x1024 .i32) (x4 : Vec F S1x1x1024 .f32) : Vec F S1024x64 .f32 :=
  VS.read (Elt F) (VS.writes (Elt F) VS.junk (kernelRun_A c i arg3 harg3 arg4 harg4 arg5 harg5 arg6 harg6 arg7 harg7 arg8 harg8 arg9 harg9 hc0 hc1 x0 x1 x2 x3 x4).2.1)

/-- What case B leaves in the output's staging buffer: its pieces read back over junk (no pieces: a placeholder nothing consults,
    since at these points the window is neither written back nor read at the next point). -/
def out_B (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : ¬cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) : Vec F S1x1024x64 .f32 :=
  VO5.read (Elt F) (VO5.writes (Elt F) VO5.junk (kernelRun_B c i arg3 harg3 arg4 harg4 arg5 harg5 arg6 harg6 arg7 harg7 arg8 harg8 arg9 harg9 hc0 hc1 x0 x1 x2 x3 x4 xs0).1)

/-- Case B's pieces for the accumulator cover it (they tile it). -/
theorem scover_B (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : ¬cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) (y : S1024x64.Idx) :
    ∃ pc ∈ (kernelRun_B c i arg3 harg3 arg4 harg4 arg5 harg5 arg6 harg6 arg7 harg7 arg8 harg8 arg9 harg9 hc0 hc1 x0 x1 x2 x3 x4 xs0).2.1, y ∈ pc.1.set :=
  View.cover_of_tiledL (kernelRun_B c i arg3 harg3 arg4 harg4 arg5 harg5 arg6 harg6 arg7 harg7 arg8 harg8 arg9 harg9 hc0 hc1 x0 x1 x2 x3 x4 xs0).2.1 S1024x64.size (by sl_kernel_rfl) y

/-- What case B leaves in the accumulator: its pieces read back over junk. -/
def sout_B (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : ¬cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) : Vec F S1024x64 .f32 :=
  VS.read (Elt F) (VS.writes (Elt F) VS.junk (kernelRun_B c i arg3 harg3 arg4 harg4 arg5 harg5 arg6 harg6 arg7 harg7 arg8 harg8 arg9 harg9 hc0 hc1 x0 x1 x2 x3 x4 xs0).2.1)

/-- The last case's pieces for the output tile its block (one store of the whole block), so they cover it. -/
theorem cover_C (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) (y : S1x1024x64.Idx) :
    ∃ pc ∈ (kernelRun_C c i arg3 harg3 arg4 harg4 arg5 harg5 arg6 harg6 arg7 harg7 arg8 harg8 arg9 harg9 hc0 hc1 x0 x1 x2 x3 x4 xs0).1, y ∈ pc.1.set :=
  View.cover_of_tiledL (kernelRun_C c i arg3 harg3 arg4 harg4 arg5 harg5 arg6 harg6 arg7 harg7 arg8 harg8 arg9 harg9 hc0 hc1 x0 x1 x2 x3 x4 xs0).1 S1x1024x64.size (by sl_kernel_rfl) y

/-- What case C leaves in the output's staging buffer: its pieces read back over junk. -/
def out_C (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) : Vec F S1x1024x64 .f32 :=
  VO5.read (Elt F) (VO5.writes (Elt F) VO5.junk (kernelRun_C c i arg3 harg3 arg4 harg4 arg5 harg5 arg6 harg6 arg7 harg7 arg8 harg8 arg9 harg9 hc0 hc1 x0 x1 x2 x3 x4 xs0).1)

/-- Case C's pieces for the accumulator cover it (they tile it). -/
theorem scover_C (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) (y : S1024x64.Idx) :
    ∃ pc ∈ (kernelRun_C c i arg3 harg3 arg4 harg4 arg5 harg5 arg6 harg6 arg7 harg7 arg8 harg8 arg9 harg9 hc0 hc1 x0 x1 x2 x3 x4 xs0).2.1, y ∈ pc.1.set :=
  View.cover_of_tiledL (kernelRun_C c i arg3 harg3 arg4 harg4 arg5 harg5 arg6 harg6 arg7 harg7 arg8 harg8 arg9 harg9 hc0 hc1 x0 x1 x2 x3 x4 xs0).2.1 S1024x64.size (by sl_kernel_rfl) y

/-- What case C leaves in the accumulator: its pieces read back over junk. -/
def sout_C (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) : Vec F S1024x64 .f32 :=
  VS.read (Elt F) (VS.writes (Elt F) VS.junk (kernelRun_C c i arg3 harg3 arg4 harg4 arg5 harg5 arg6 harg6 arg7 harg7 arg8 harg8 arg9 harg9 hc0 hc1 x0 x1 x2 x3 x4 xs0).2.1)

/-! ## The cases at a grid point -/

/-- Case A at point `t`, run at the point's memrefs and input blocks: what it leaves in the output's
    buffer and in the accumulator. -/
def atA (c : Dev nD) (t : Fin cfg2.N) (h0 : t.val % 4 = 0) (h1 : ¬t.val % 4 = 3) : Vec F S1x1024x64 .f32 × Vec F S1024x64 .f32 :=
  (out_A c (grid2.coords t) (ms0 t) (hs0 t) (ms1 t) (hs1 t) (ms2 t) (hs2 t) (ms3 t) (hs3 t) (ms4 t) (hs4 t) (ms5 t) (hs5 t) scM (Memref.isWhole_whole _) ((hcond0 t).mpr h0) (fun h => h1 ((hcond1 t).mp h)) (iblk V c 0 t) (iblk V c 1 t) (iblk V c 2 t) (iblk V c 3 t) (iblk V c 4 t),
   sout_A c (grid2.coords t) (ms0 t) (hs0 t) (ms1 t) (hs1 t) (ms2 t) (hs2 t) (ms3 t) (hs3 t) (ms4 t) (hs4 t) (ms5 t) (hs5 t) scM (Memref.isWhole_whole _) ((hcond0 t).mpr h0) (fun h => h1 ((hcond1 t).mp h)) (iblk V c 0 t) (iblk V c 1 t) (iblk V c 2 t) (iblk V c 3 t) (iblk V c 4 t))

/-- Case B at point `t`, run at the point's memrefs and input blocks, over what the point before left in the accumulator: what it leaves in the output's
    buffer and in the accumulator. -/
def atB (c : Dev nD) (t : Fin cfg2.N) (h0 : ¬t.val % 4 = 0) (h1 : ¬t.val % 4 = 3) (xs0 : Vec F S1024x64 .f32) : Vec F S1x1024x64 .f32 × Vec F S1024x64 .f32 :=
  (out_B c (grid2.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) (fun h => h1 ((hcond1 t).mp h)) (iblk V c 0 t) (iblk V c 1 t) (iblk V c 2 t) (iblk V c 3 t) (iblk V c 4 t) xs0,
   sout_B c (grid2.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) (fun h => h1 ((hcond1 t).mp h)) (iblk V c 0 t) (iblk V c 1 t) (iblk V c 2 t) (iblk V c 3 t) (iblk V c 4 t) xs0)

/-- Case C at point `t`, run at the point's memrefs and input blocks, over what the point before left in the accumulator: what it leaves in the output's
    buffer and in the accumulator. -/
def atC (c : Dev nD) (t : Fin cfg2.N) (h0 : ¬t.val % 4 = 0) (h1 : t.val % 4 = 3) (xs0 : Vec F S1024x64 .f32) : Vec F S1x1024x64 .f32 × Vec F S1024x64 .f32 :=
  (out_C c (grid2.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) ((hcond1 t).mpr h1) (iblk V c 0 t) (iblk V c 1 t) (iblk V c 2 t) (iblk V c 3 t) (iblk V c 4 t) xs0,
   sout_C c (grid2.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) ((hcond1 t).mpr h1) (iblk V c 0 t) (iblk V c 1 t) (iblk V c 2 t) (iblk V c 3 t) (iblk V c 4 t) xs0)

/-! ## What the output's buffer and the accumulator hold after each point -/

/-- The accumulation. What the output's staging buffer and the accumulator hold after the body at position `n`: the case
    the closed forms select at `n`, run at the point's memrefs and input blocks, the accumulator at what this leaves
    at `n - 1`. An assignment of the conditions no point meets is no case. -/
def outsAt (c : Dev nD) : (n : ℕ) → n < cfg2.N → Vec F S1x1024x64 .f32 × Vec F S1024x64 .f32
  | 0, hn => atA V c ⟨0, hn⟩ (Nat.zero_mod _) (by show ¬(0 % 4 = 3); decide)
  | n + 1, hn =>
    if h0 : (n + 1) % 4 = 0 then
      if h1 : (n + 1) % 4 = 3 then
        False.elim (by omega)
      else
        atA V c ⟨n + 1, hn⟩ h0 h1
    else
      if h1 : (n + 1) % 4 = 3 then
        atC V c ⟨n + 1, hn⟩ h0 h1 (outsAt c n (Nat.lt_of_succ_lt hn)).2
      else
        atB V c ⟨n + 1, hn⟩ h0 h1 (outsAt c n (Nat.lt_of_succ_lt hn)).2

/-- `outsAt` at a point of case A: that case's contents. -/
theorem outsAt_A (c : Dev nD) (t : Fin cfg2.N) (h0 : t.val % 4 = 0) (h1 : ¬t.val % 4 = 3) :
    outsAt V c t.val t.isLt = atA V c t h0 h1 := by
  obtain ⟨n, hn⟩ := t
  cases n with
  | zero => exact rfl
  | succ n => exact (dif_pos h0).trans ((dif_neg h1).trans rfl)

/-- `outsAt` at a point of case B: that case's contents, over what the point before left. -/
theorem outsAt_B (c : Dev nD) (t : Fin cfg2.N) (h0 : ¬t.val % 4 = 0) (h1 : ¬t.val % 4 = 3) :
    outsAt V c t.val t.isLt = atB V c t h0 h1 (outsAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- `outsAt` at a point of case C: that case's contents, over what the point before left. -/
theorem outsAt_C (c : Dev nD) (t : Fin cfg2.N) (h0 : ¬t.val % 4 = 0) (h1 : t.val % 4 = 3) :
    outsAt V c t.val t.isLt = atC V c t h0 h1 (outsAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point what the launch hands the region (every scoped
    buffer at anything); afterwards the accumulator at what the point before left in it, the other scoped buffers
    unopened, and the generator register at some state. -/
def PhiS (c : Dev nD) : (n : ℕ) → n ≤ cfg2.N → sProp 𝕄
  | 0, _ => Pipeline.ΦA spec2 c
  | n + 1, hn => iprop(iprop(iprop(owns (c : Thread nD τ) scM fullShare ((outsAt V c n hn).2)) ∗ Pipeline.scopedRestBut spec2 c [cc2_scratch0]) ∗ (∃ r, prngReg c r))

theorem PhiS_zero (c : Dev nD) (n : ℕ) (h : n ≤ cfg2.N) (hz : n = 0) : PhiS V c n h = Pipeline.ΦA spec2 c := by
  subst hz; rfl

/-- After point `n` (before point `n + 1`): the accumulator at that point's contents. -/
theorem PhiS_succ (c : Dev nD) (n : ℕ) (hn : n < cfg2.N) :
    PhiS V c (n + 1) hn = iprop(iprop(iprop(owns (c : Thread nD τ) scM fullShare ((outsAt V c n hn).2)) ∗ Pipeline.scopedRestBut spec2 c [cc2_scratch0]) ∗ (∃ r, prngReg c r)) := rfl

/-- Before a point that is not the first: the accumulator at what the point before left. -/
theorem PhiS_pos (c : Dev nD) (n : ℕ) (h : n ≤ cfg2.N) (hz : n ≠ 0) :
    PhiS V c n h = iprop(iprop(iprop(owns (c : Thread nD τ) scM fullShare ((outsAt V c (n - 1) (by omega)).2)) ∗ Pipeline.scopedRestBut spec2 c [cc2_scratch0]) ∗ (∃ r, prngReg c r)) := by
  cases n with
  | zero => exact absurd rfl hz
  | succ n => rfl

/-! ## The pipeline's proof data -/

/-- The proof data of the region on core `c`: the arrays as the region finds them; after the body at point `t` each
    input's buffer at its block and the output's at `outsAt`'s first component; the invariant `PhiS`; nothing owed;
    full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

/-- The proof data's arrays are the region-entry contents (the definition projected, never unfolded further). -/
theorem A_eq (c : Dev nD) (w : Fin cfg2.W) : (dat V c).A w = V c (Pipeline.arrRef spec2 w) := by
  dsimp only [dat]

/-- The invariant at a point's start, restated at `t.val`. -/
theorem PhiS_castSucc (c : Dev nD) (t : Fin cfg2.N) :
    (dat V c).Φ t.castSucc = PhiS V c t.val (Nat.le_of_lt t.isLt) := by
  dsimp only [dat]; simp only [Fin.coe_castSucc]

/-- What the body leaves, window by window. -/
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = (outsAt V c t.val t.isLt).1 := by dsimp only [dat]

/-- Each input's current staging buffer holds its block at every point, fetched there or not. -/
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d

/-! ## The body obligation, at a generic point -/

/-- What the body is called with at point `t` (the windows one by one), -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks; the closed forms say which case the point is in; so that
    case's run applies; the invariant hands the body the accumulator at what the point before left (at anything at the
    first point) and takes it back at this point's contents, the other scoped buffers and the generator register pass
    through unopened; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg2.N = 64 from N_2)
  rw [show (dat V c).leavesExact 0 t = owns (c : Thread nD τ) (ms0 t) fullShare ((dat V c).after 0 t) from by
    unfold Dat.leavesExact; rw [liveAt_0 t], after_0]
  rw [show (dat V c).leavesExact 1 t = owns (c : Thread nD τ) (ms1 t) fullShare ((dat V c).after 1 t) from by
    unfold Dat.leavesExact; rw [liveAt_1 t], after_1]
  rw [show (dat V c).leavesExact 2 t = owns (c : Thread nD τ) (ms2 t) fullShare ((dat V c).after 2 t) from by
    unfold Dat.leavesExact; rw [liveAt_2 t], after_2]
  rw [show (dat V c).leavesExact 3 t = owns (c : Thread nD τ) (ms3 t) fullShare ((dat V c).after 3 t) from by
    unfold Dat.leavesExact; rw [liveAt_3 t], after_3]
  rw [show (dat V c).leavesExact 4 t = owns (c : Thread nD τ) (ms4 t) fullShare ((dat V c).after 4 t) from by
    unfold Dat.leavesExact; rw [liveAt_4 t], after_4]
  by_cases h0 : t.val % 4 = 0
  · by_cases h1 : t.val % 4 = 3
    · exfalso; omega
    · rw [Dat.leavesExact_idle (dat V c) 5 t (idleAt_5_A t ((hcond0 t).mpr h0) (fun h => h1 ((hcond1 t).mp h))) (noFlush_5_A t ((hcond0 t).mpr h0) (fun h => h1 ((hcond1 t).mp h)))]
      rw [outsAt_A V c t h0 h1]
      unfold atA sout_A; (try dsimp only)
      by_cases hz : t.val = 0
      ·
        rw [PhiS_castSucc V c t, PhiS_zero V c _ _ hz, PhiA_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun_A c (grid2.coords t) _ _ _ _ _ _ _ _ _ _ _ _ _ _ ((hcond0 t).mpr h0) (fun h => h1 ((hcond1 t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_A c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun_A c (grid2.coords t) _ _ _ _ _ _ _ _ _ _ _ _ _ _ ((hcond0 t).mpr h0) (fun h => h1 ((hcond1 t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_A c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat V c).leavesExact 5 t = owns (c : Thread nD τ) (ms5 t) fullShare ((dat V c).after 5 t) from by
        unfold Dat.leavesExact; rw [liveAt_5_C t (fun h => h0 ((hcond0 t).mp h)) ((hcond1 t).mpr h1)], after_5]
      rw [outsAt_C V c t h0 h1]
      unfold atC out_C sout_C; (try dsimp only)
      by_cases hz : t.val = 0
      · exfalso; omega
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun_C c (grid2.coords t) _ _ _ _ _ _ _ _ _ _ _ _ _ _ (fun h => h0 ((hcond0 t).mp h)) ((hcond1 t).mpr h1) (iblk V c 0 t) (iblk V c 1 t) (iblk V c 2 t) (iblk V c 3 t) (iblk V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_C c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover_C c _ _ _ _ _ _ _ _ _ _ _ _ _ _ _ _ _ _ _ _ _ _ _)
    · rw [Dat.leavesExact_idle (dat V c) 5 t (idleAt_5_B t (fun h => h0 ((hcond0 t).mp h)) (fun h => h1 ((hcond1 t).mp h))) (noFlush_5_B t (fun h => h0 ((hcond0 t).mp h)) (fun h => h1 ((hcond1 t).mp h)))]
      rw [outsAt_B V c t h0 h1]
      unfold atB sout_B; (try dsimp only)
      by_cases hz : t.val = 0
      · exfalso; omega
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun_B c (grid2.coords t) _ _ _ _ _ _ _ _ _ _ _ _ _ _ (fun h => h0 ((hcond0 t).mp h)) (fun h => h1 ((hcond1 t).mp h)) (iblk V c 0 t) (iblk V c 1 t) (iblk V c 2 t) (iblk V c 3 t) (iblk V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_B c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's named contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS0, HR⟩, Hg⟩
  isplitl [HS0 HR]
  · isplitl [HS0]
    · iexists _; iexact HS0
    iexact HR
  iexact Hg

/-- The same after the last point. -/
theorem hout (c : Dev nD) : (dat V c).Φ (Fin.last cfg2.N) ⊢ Pipeline.ΦA spec2 c :=
  Phi_out V c _ (by rw [Fin.val_last]; have : cfg2.N = 64 := N_2; omega)

end Cert.Kernel.Reg2

end
-- ==== Proof.KAsm.lean ====
import proofs.«102296_j40982577938503_1_alg».proof.Proof.Gen.Kernel.Launch
import proofs.«102296_j40982577938503_1_alg».proof.Proof.Gen.Kernel.Skeleton
import proofs.«102296_j40982577938503_1_alg».proof.Proof.Gen.Kernel.Points
import proofs.«102296_j40982577938503_1_alg».proof.Proof.Gen.Kernel.Regions
import proofs.«102296_j40982577938503_1_alg».proof.Proof.KReg0
import proofs.«102296_j40982577938503_1_alg».proof.Proof.KReg1
import proofs.«102296_j40982577938503_1_alg».proof.Proof.KReg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The three regions run one after the other

The program is a stretch of reshapes, the projection region, a second stretch of reshapes, and the two passes of the
attention. Between two items a core holds every unscoped buffer at known contents: the launch memory, then each
reshape's result, then after a region its arrays at what the write-backs leave and every other buffer as it was.
Each region's proof data is taken at the contents it is entered with; the regions are chained through those contents;
at the end every unscoped buffer is read back, so the arguments are seen unchanged and the result buffer is named.
-/

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

namespace Cert.Kernel.Asm

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of the program -/

/-- Core c's buffers at launch. -/
abbrev W0 : Dev nD → Valuation τ sig (Elt F) := fun c b => (s₀ m ρ).mem ((c : Dev nD), b)
/-- After the reshapes of the inputs. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its arrays at what its write-backs leave. -/
def W2 (c : Dev nD) : Valuation τ sig (Elt F) :=
  Pipeline.withArrays spec0 c (W1 m ρ c) fun w => (Reg0.dat (V1 m ρ) c).arrAt w cfg0.N
theorem W2_arr (c : Dev nD) (w : Fin cfg0.W) :
    W2 m ρ c (Proc.devRef .tc (Pipeline.arrRef spec0 w)) = (Reg0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Reg0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshapes of the projections. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the first pass. -/
def W4 (c : Dev nD) : Valuation τ sig (Elt F) :=
  Pipeline.withArrays spec1 c (W3 m ρ c) fun w => (Reg1.dat (V3 m ρ) c).arrAt w cfg1.N
theorem W4_arr (c : Dev nD) (w : Fin cfg1.W) :
    W4 m ρ c (Proc.devRef .tc (Pipeline.arrRef spec1 w)) = (Reg1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Reg1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the second pass. -/
def W5 (c : Dev nD) : Valuation τ sig (Elt F) :=
  Pipeline.withArrays spec2 c (W4 m ρ c) fun w => (Reg2.dat (V4 m ρ) c).arrAt w cfg2.N
theorem W5_arr (c : Dev nD) (w : Fin cfg2.W) :
    W5 m ρ c (Proc.devRef .tc (Pipeline.arrRef spec2 w)) = (Reg2.dat (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (Reg2.dat (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

end Cert.Kernel.Asm

namespace Cert.Kernel.Asm

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the three regions and the thread state between two items -/

/-- No region reads a prefetched table. -/
abbrev adm : (p : Fin 3) → (pcfgs (F := F) p).Adm := fun p => (cfgs p).toPCfg_adm
/-- Every region's proof data at its entry contents: a literal match on the region. -/
def pdats : (p : Fin 3) → (c : Dev nD) → Dat τ (Elt F) Unit ℕ (UR sig nD τ) ℕ (Pipeline.pin (pcfgs (F := F)) adm p) c
  | ⟨0, _⟩ => fun c => Reg0.dat (V1 m ρ) c
  | ⟨1, _⟩ => fun c => Reg1.dat (V3 m ρ) c
  | ⟨2, _⟩ => fun c => Reg2.dat (V4 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- Region 0 over the thread state: entered with every unscoped buffer at the contents before it, left with them at the
    contents after it. Its arrays are split out of the unscoped buffers and put back at what the write-backs leave; the
    generator register goes into the region's invariant and comes out; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ ((BIBase.Entails.of_eq rfl : Pipeline.ΦA spec0 c ⊢ (pdats m ρ 0 c).Φ 0))
    unfold Pipeline.ΦA
    iintro ⟨Hp, -, Hr⟩
    isplitl [Hr]; · iexact Hr
    iexact Hp
  hout c := by
    rw [Pipeline.ownSems0_none]
    refine BIBase.Entails.trans ((BIBase.Entails.of_eq rfl : (pdats m ρ 0 c).Φ (Fin.last _) ⊢ Pipeline.ΦA spec0 c)) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it. Its arrays are split out of the unscoped buffers and put back at what the write-backs leave; the
    generator register goes into the region's invariant and comes out; nothing is owed; the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg1.hin (V3 m ρ) c)
    unfold Pipeline.ΦA
    iintro ⟨Hp, -, Hr⟩
    isplitl [Hr]; · iexact Hr
    iexact Hp
  hout c := by
    rw [Pipeline.ownSems0_none]
    refine BIBase.Entails.trans (Reg1.hout (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at the
    contents after it. Its arrays are split out of the unscoped buffers and put back at what the write-backs leave; the
    generator register goes into the region's invariant and comes out; nothing is owed; the kernel has no semaphore of
    its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg2.hin (V4 m ρ) c)
    unfold Pipeline.ΦA
    iintro ⟨Hp, -, Hr⟩
    isplitl [Hr]; · iexact Hr
    iexact Hp
  hout c := by
    rw [Pipeline.ownSems0_none]
    refine BIBase.Entails.trans (Reg2.hout (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds every unscoped buffer at the contents after the last region. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Asm

namespace Cert.Kernel.Asm

variable {F : FTy → Type} [FloatOps F]

variable (m : (ℓ : Loc nD τ sig) → Buf (Elt F) ℓ) (ρ : Dev nD → PrngReg)

/-! ## What each item leaves as it found it -/

/-- A buffer the first stretch of host operations does not write. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
/-- A buffer the second stretch does not write. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h
/-- An input window's array leaves its region as it entered it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((Reg0.dat (V1 m ρ) c).arrAt_in w hw _).trans (Reg0.A_eq (V1 m ρ) c w))
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((Reg1.dat (V3 m ρ) c).arrAt_in w hw _).trans (Reg1.A_eq (V3 m ρ) c w))
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((Reg2.dat (V4 m ρ) c).arrAt_in w hw _).trans (Reg2.A_eq (V4 m ρ) c w))

/-! ## Every argument ends as launched: no host operation writes one, a region at most reads it through an input window -/

theorem W5_main_arg0 (c : Dev nD) : W5 m ρ c (Proc.devRef .tc main_arg0) = m ((c : Thread nD τ).loc main_arg0) :=
  (W5_of_ne m ρ c main_arg0 (by decide)).trans <| (W4_of_ne m ρ c main_arg0 (by decide)).trans <| (W3_of m ρ c main_arg0 (by decide)).trans <| (W2_of_ne m ρ c main_arg0 (by decide)).trans <| (W1_of m ρ c main_arg0 (by decide)).trans rfl
theorem W5_main_arg1 (c : Dev nD) : W5 m ρ c (Proc.devRef .tc main_arg1) = m ((c : Thread nD τ).loc main_arg1) :=
  (W5_of_ne m ρ c main_arg1 (by decide)).trans <| (W4_of_ne m ρ c main_arg1 (by decide)).trans <| (W3_of m ρ c main_arg1 (by decide)).trans <| (W2_of_ne m ρ c main_arg1 (by decide)).trans <| (W1_of m ρ c main_arg1 (by decide)).trans rfl
theorem W5_main_arg2 (c : Dev nD) : W5 m ρ c (Proc.devRef .tc main_arg2) = m ((c : Thread nD τ).loc main_arg2) :=
  (W5_of_ne m ρ c main_arg2 (by decide)).trans <| (W4_of_ne m ρ c main_arg2 (by decide)).trans <| (W3_of m ρ c main_arg2 (by decide)).trans <| (W2_of_ne m ρ c main_arg2 (by decide)).trans <| (W1_of m ρ c main_arg2 (by decide)).trans rfl
theorem W5_main_arg3 (c : Dev nD) : W5 m ρ c (Proc.devRef .tc main_arg3) = m ((c : Thread nD τ).loc main_arg3) :=
  (W5_in m ρ c 3 rfl).trans <| (W4_in m ρ c 2 rfl).trans <| (W3_of m ρ c main_arg3 (by decide)).trans <| (W2_of_ne m ρ c main_arg3 (by decide)).trans <| (W1_of m ρ c main_arg3 (by decide)).trans rfl
theorem W5_main_arg4 (c : Dev nD) : W5 m ρ c (Proc.devRef .tc main_arg4) = m ((c : Thread nD τ).loc main_arg4) :=
  (W5_of_ne m ρ c main_arg4 (by decide)).trans <| (W4_of_ne m ρ c main_arg4 (by decide)).trans <| (W3_of m ρ c main_arg4 (by decide)).trans <| (W2_in m ρ c 3 rfl).trans <| (W1_of m ρ c main_arg4 (by decide)).trans rfl
theorem W5_main_arg5 (c : Dev nD) : W5 m ρ c (Proc.devRef .tc main_arg5) = m ((c : Thread nD τ).loc main_arg5) :=
  (W5_of_ne m ρ c main_arg5 (by decide)).trans <| (W4_of_ne m ρ c main_arg5 (by decide)).trans <| (W3_of m ρ c main_arg5 (by decide)).trans <| (W2_of_ne m ρ c main_arg5 (by decide)).trans <| (W1_of m ρ c main_arg5 (by decide)).trans rfl
theorem W5_main_arg6 (c : Dev nD) : W5 m ρ c (Proc.devRef .tc main_arg6) = m ((c : Thread nD τ).loc main_arg6) :=
  (W5_of_ne m ρ c main_arg6 (by decide)).trans <| (W4_of_ne m ρ c main_arg6 (by decide)).trans <| (W3_of m ρ c main_arg6 (by decide)).trans <| (W2_in m ρ c 5 rfl).trans <| (W1_of m ρ c main_arg6 (by decide)).trans rfl
theorem W5_main_arg7 (c : Dev nD) : W5 m ρ c (Proc.devRef .tc main_arg7) = m ((c : Thread nD τ).loc main_arg7) :=
  (W5_of_ne m ρ c main_arg7 (by decide)).trans <| (W4_of_ne m ρ c main_arg7 (by decide)).trans <| (W3_of m ρ c main_arg7 (by decide)).trans <| (W2_of_ne m ρ c main_arg7 (by decide)).trans <| (W1_of m ρ c main_arg7 (by decide)).trans rfl
theorem W5_main_arg8 (c : Dev nD) : W5 m ρ c (Proc.devRef .tc main_arg8) = m ((c : Thread nD τ).loc main_arg8) :=
  (W5_of_ne m ρ c main_arg8 (by decide)).trans <| (W4_of_ne m ρ c main_arg8 (by decide)).trans <| (W3_of m ρ c main_arg8 (by decide)).trans <| (W2_in m ρ c 7 rfl).trans <| (W1_of m ρ c main_arg8 (by decide)).trans rfl
theorem W5_main_arg9 (c : Dev nD) : W5 m ρ c (Proc.devRef .tc main_arg9) = m ((c : Thread nD τ).loc main_arg9) :=
  (W5_of_ne m ρ c main_arg9 (by decide)).trans <| (W4_of_ne m ρ c main_arg9 (by decide)).trans <| (W3_of m ρ c main_arg9 (by decide)).trans <| (W2_of_ne m ρ c main_arg9 (by decide)).trans <| (W1_of m ρ c main_arg9 (by decide)).trans rfl

/-- The run with the result buffer named and the arguments read back. -/
theorem run_result : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v11 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c)⟩) (run m ρ)

/-- The frame: the program runs to its end, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_result m ρ)

end Cert.Kernel.Asm

end
-- ==== Proof.Reg0.lean ====
/-
  Region 0 (the three linear projections), the frame half, at any float type.

  The kernel body loads the nine input windows' staging buffers whole, computes three products of a block of rows
  against the rows of a weight matrix plus a bias row, and stores each into one output window's staging buffer whole.
  So what it leaves in an output buffer is a closed function of three input blocks at the point, and what it finds in
  an input buffer is that window's block at the point whether or not it was fetched there (the weights and the bias
  rows have a constant block index and are fetched once). The region's proof data is stated at a parameter: the
  contents of the TensorCore's buffers when the region is entered.
-/
import proofs.«102296_j40982577938503_1_alg».proof.Proof.Gen.KernelIdeal.Launch
import proofs.«102296_j40982577938503_1_alg».proof.Proof.Gen.KernelIdeal.Skeleton
import proofs.«102296_j40982577938503_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the entry contents' and whose body leaves the block in place: unfetched, the block index has not moved. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the entry contents' and whose body leaves the block in place: unfetched, the block index has not moved. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the entry contents' and whose body leaves the block in place: unfetched, the block index has not moved. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the entry contents' and whose body leaves the block in place: unfetched, the block index has not moved. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the entry contents' and whose body leaves the block in place: unfetched, the block index has not moved. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the entry contents' and whose body leaves the block in place: unfetched, the block index has not moved. -/
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not, for any proof data
    whose array is the entry contents' and whose body leaves the block in place: unfetched, the block index has not moved. -/
theorem before6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not, for any proof data
    whose array is the entry contents' and whose body leaves the block in place: unfetched, the block index has not moved. -/
theorem before7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not, for any proof data
    whose array is the entry contents' and whose body leaves the block in place: unfetched, the block index has not moved. -/
theorem before8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rX : Rect S1024x1024 := Rect.unit (s := S1024x1024) ![0, 0] S1024x1024.size inb_S1024x1024_S1024x1024_0_0
abbrev rW : Rect S64x1024 := Rect.unit (s := S64x1024) ![0, 0] S64x1024.size inb_S64x1024_S64x1024_0_0
abbrev rB : Rect S1x64 := Rect.unit (s := S1x64) ![0, 0] S1x64.size inb_S1x64_S1x64_0_0
abbrev rO : Rect S1024x64 := Rect.unit (s := S1024x64) ![0, 0] S1024x64.size inb_S1024x64_S1024x64_0_0

/-! ## What the body leaves in each output window's buffer -/

/-- Window 9's staging buffer after the body: its one store, of the product of the first row block against the first
    weight matrix plus the first bias row. -/
def out9 (x0 : Vec F S1024x1024 .f32) (x3 : Vec F S64x1024 .f32) (x4 : Vec F S1x64 .f32) : Vec F S1024x64 .bf16 :=
  View.canon [⟨rO, k0_pay5 (View.ld x0 rX) (View.ld x3 rW) (View.ld x4 rB)⟩]

/-- Window 10's, of the second triple. -/
def out10 (x1 : Vec F S1024x1024 .f32) (x5 : Vec F S64x1024 .f32) (x6 : Vec F S1x64 .f32) : Vec F S1024x64 .bf16 :=
  View.canon [⟨rO, k0_pay1 (k0_pay3 (View.ld x1 rX) (View.ld x5 rW) (View.ld x6 rB))⟩]

/-- Window 11's, of the third triple. -/
def out11 (x2 : Vec F S1024x1024 .f32) (x7 : Vec F S64x1024 .f32) (x8 : Vec F S1x64 .f32) : Vec F S1024x64 .bf16 :=
  View.canon [⟨rO, k0_pay2 (k0_pay4 (View.ld x2 rX) (View.ld x7 rW) (View.ld x8 rB))⟩]

/-- A whole-buffer store covers the buffer. -/
theorem coverO (p0 : Vec F S1024x64 .bf16) (y : S1024x64.Idx) :
    ∃ pc ∈ ([⟨rO, p0⟩] : List (View.Piece (Elt F) S1024x64 .bf16)), y ∈ pc.1.set :=
  View.cover_of_tiled [⟨rO, p0⟩] S1024x64.size (by rfl) y

/-! ## The body's triple -/

set_option maxHeartbeats 4000000 in
/-- The kernel body on whole staging memrefs, the inputs' at read contents and the outputs' at anything, runs to the
    continuation holding the inputs' as they were and each output's at what its store leaves. -/
theorem sound_kernel (c : Dev nD) (E : Set ℕ) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S1x64 .f32) (harg5 : arg5.IsWhole) (arg6 : Memref sig .tc .vmem S64x1024 .f32) (harg6 : arg6.IsWhole) (arg7 : Memref sig .tc .vmem S1x64 .f32) (harg7 : arg7.IsWhole) (arg8 : Memref sig .tc .vmem S64x1024 .f32) (harg8 : arg8.IsWhole) (arg9 : Memref sig .tc .vmem S1x64 .f32) (harg9 : arg9.IsWhole) (arg10 : Memref sig .tc .vmem S1024x64 .bf16) (harg10 : arg10.IsWhole) (arg11 : Memref sig .tc .vmem S1024x64 .bf16) (harg11 : arg11.IsWhole) (arg12 : Memref sig .tc .vmem S1024x64 .bf16) (harg12 : arg12.IsWhole)
    (x0 : Vec F S1024x1024 .f32) (x1 : Vec F S1024x1024 .f32) (x2 : Vec F S1024x1024 .f32) (x3 : Vec F S64x1024 .f32) (x4 : Vec F S1x64 .f32) (x5 : Vec F S64x1024 .f32) (x6 : Vec F S1x64 .f32) (x7 : Vec F S64x1024 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 x0 x3 x4) ∗ owns (c : Thread nD τ) arg11 fullShare (out10 x1 x5 x6) ∗ owns (c : Thread nD τ) arg12 fullShare (out11 x2 x7 x8)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (coverO _)
  isplitl [H10]
  · iexists _; isplitr
    swap; · iexact H10
    ipureintro
    try dsimp only
    exact View.read_writes_eq_canon _ _ _ (coverO _)
  iexists _; isplitr
  swap; · iexact H11
  ipureintro
  try dsimp only
  exact View.read_writes_eq_canon _ _ _ (coverO _)

/-! ## The region's proof data -/

/-- The proof data of the region on core `c`: the arrays as the region finds them; after the body at point `t` each
    input's buffer at its block and each output's at what its store leaves; the invariant the scoped rest and the
    generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => out9 (iblk V c 0 t) (iblk V c 3 t) (iblk V c 4 t)
    | ⟨10, _⟩ => out10 (iblk V c 1 t) (iblk V c 5 t) (iblk V c 6 t)
    | ⟨11, _⟩ => out11 (iblk V c 2 t) (iblk V c 7 t) (iblk V c 8 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = iblk V c 6 t := by dsimp only [dat]
theorem after7 (c : Dev nD) (t : Fin cfg0.N) : (dat V c).after 7 t = iblk V c 7 t := by dsimp only [dat]
theorem after8 (c : Dev nD) (t : Fin cfg0.N) : (dat V c).after 8 t = iblk V c 8 t := by dsimp only [dat]
theorem after9 (c : Dev nD) (t : Fin cfg0.N) : (dat V c).after 9 t = out9 (iblk V c 0 t) (iblk V c 3 t) (iblk V c 4 t) := by dsimp only [dat]
theorem after10 (c : Dev nD) (t : Fin cfg0.N) : (dat V c).after 10 t = out10 (iblk V c 1 t) (iblk V c 5 t) (iblk V c 6 t) := by dsimp only [dat]
theorem after11 (c : Dev nD) (t : Fin cfg0.N) : (dat V c).after 11 t = out11 (iblk V c 2 t) (iblk V c 7 t) (iblk V c 8 t) := by dsimp only [dat]

/-- Each input's current staging buffer holds its block at every point, fetched there or not. -/
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d
theorem before5 (c : Dev nD) (t : Fin cfg0.N) (d) : (dat V c).before 5 t d = iblk V c 5 t :=
  before5_of V (dat V c) (A_eq V c 5) (after5 V c) t d
theorem before6 (c : Dev nD) (t : Fin cfg0.N) (d) : (dat V c).before 6 t d = iblk V c 6 t :=
  before6_of V (dat V c) (A_eq V c 6) (after6 V c) t d
theorem before7 (c : Dev nD) (t : Fin cfg0.N) (d) : (dat V c).before 7 t d = iblk V c 7 t :=
  before7_of V (dat V c) (A_eq V c 7) (after7 V c) t d
theorem before8 (c : Dev nD) (t : Fin cfg0.N) (d) : (dat V c).before 8 t d = iblk V c 8 t :=
  before8_of V (dat V c) (A_eq V c 8) (after8 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t))

/-- The body at any point: the inputs' memrefs hold their blocks, so the body's triple applies; the invariant and the
    core's owed work pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6, before7, before8]
  rw [show (dat V c).Φ t.succ = (dat V c).Φ t.castSucc from rfl,
    show (dat V c).owesAt () t.succ = (dat V c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Reg0

end
-- ==== Proof.Reg1Runs.lean ====
import proofs.«102296_j40982577938503_1_alg».proof.Proof.Gen.KernelIdeal.Launch
import proofs.«102296_j40982577938503_1_alg».proof.Proof.Gen.KernelIdeal.Skeleton
import proofs.«102296_j40982577938503_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the entry contents and whose body leaves the block in place. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the entry contents and whose body leaves the block in place. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first conditional (the innermost coordinate is zero), from the grid coordinates. -/
abbrev cond_0 (i : grid1.Coords) : Prop := (Scalar.cmpi .ne (Scalar.extui (Scalar.cmpi .eq (BitVec.ofNat 32 (i 2).val) 0#32)) 0#32) = 1#1
/-- It holds at the points ≡ 0 (mod 4). -/
theorem hcond_0 : ∀ t : Fin cfg1.N, cond_0 (grid1.coords t) ↔ t.val % 4 = 0 :=
  (by decide +kernel : ∀ t : Fin grid1.N, cond_0 (grid1.coords t) ↔ t.val % 4 = 0)

/-- The condition of the body's second conditional (the innermost coordinate is three). -/
abbrev cond_1 (i : grid1.Coords) : Prop := k1_cond2 i = 1#1
/-- It holds at the points ≡ 3 (mod 4). -/
theorem hcond_1 : ∀ t : Fin cfg1.N, cond_1 (grid1.coords t) ↔ t.val % 4 = 3 :=
  (by decide +kernel : ∀ t : Fin grid1.N, cond_1 (grid1.coords t) ↔ t.val % 4 = 3)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
/-- Where only the first conditional is taken the output window is idle and not written back. -/
theorem idleAt_3_A : ∀ t : Fin cfg1.N, cond_0 (grid1.coords t) → ¬cond_1 (grid1.coords t) → cfg1.idle 3 (grid1.coords t) = true := by decide +kernel
theorem noFlush_3_A : ∀ t : Fin cfg1.N, cond_0 (grid1.coords t) → ¬cond_1 (grid1.coords t) → (cfg1.win 3).flush t = false := by decide +kernel
/-- Where neither is taken the output window is idle and not written back. -/
theorem idleAt_3_B : ∀ t : Fin cfg1.N, ¬cond_0 (grid1.coords t) → ¬cond_1 (grid1.coords t) → cfg1.idle 3 (grid1.coords t) = true := by decide +kernel
theorem noFlush_3_B : ∀ t : Fin cfg1.N, ¬cond_0 (grid1.coords t) → ¬cond_1 (grid1.coords t) → (cfg1.win 3).flush t = false := by decide +kernel
/-- Where the second is taken the output window is live. -/
theorem liveAt_3_C : ∀ t : Fin cfg1.N, ¬cond_0 (grid1.coords t) → cond_1 (grid1.coords t) → cfg1.idle 3 (grid1.coords t) = false := by decide +kernel

/-! ## The staging and scratch memrefs -/

/-- One staging buffer of the output window, through which its contents are stated (the choice does not matter). -/
abbrev VO_3 : View sig .tc .vmem S1x1x1024 .f32 := (Memref.whole cc1_stg3_0 : Memref sig .tc .vmem S1x1x1024 .f32).view
abbrev ms_0 (t : Fin cfg1.N) : Memref sig .tc .vmem S1x1024x64 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x1024x64 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x1024x1024 .i32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x1x1024 .f32 := win1_3.stage (cfg1.slots t 3)
abbrev hs_3 (t : Fin cfg1.N) : (ms_3 t).IsWhole := hstage1_3 ((cfg1.slots t 3).cast nbuf1_3)
/-- The two scratch operands (the running maximum and the running sum): whole scoped buffers of the kernel's own. -/
abbrev scM_0 : Memref sig .tc .vmem S1x1024 .f32 := Memref.whole cc1_scratch0
abbrev scM_1 : Memref sig .tc .vmem S1x1024 .f32 := Memref.whole cc1_scratch1
abbrev VS_0 : View sig .tc .vmem S1x1024 .f32 := scM_0.view
abbrev VS_1 : View sig .tc .vmem S1x1024 .f32 := scM_1.view

/-- The scoped buffers that are neither a staging buffer of this call nor its scratch: carried unopened. -/
abbrev restBut (c : Dev nD) : sProp 𝕄 :=
  Pipeline.scopedRestBut (Ix := Unit) (Name := ℕ) (U := UR sig nD τ) (Lvl := ℕ) (Val := Elt F) spec1 c [cc1_scratch0, cc1_scratch1]

/-- The class's invariant with the two scratch operands as memrefs owned at some contents, the other scoped
    buffers unopened, and the generator register at some state. -/
theorem PhiA_eq (c : Dev nD) :
    (Pipeline.ΦA spec1 c : sProp 𝕄)
      = iprop(iprop(iprop((∃ d, owns (c : Thread nD τ) scM_0 fullShare d) ∗ (∃ d, owns (c : Thread nD τ) scM_1 fullShare d)) ∗ restBut (F := F) c) ∗ (∃ r, prngReg c r)) := by
  unfold Pipeline.ΦA; rw [scopedRest1_split]; simp only [scM_0, scM_1, owns_whole]; try rfl

end Cert.KernelIdeal.Reg1

end
-- ==== Proof.Reg1RunA.lean ====
import proofs.«102296_j40982577938503_1_alg».proof.Proof.Reg1Runs

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

-- (the run's proof term is large)
set_option maxHeartbeats 4000000 in
/-- What the body's stores leave in the output's staging memref and in the two scratch memrefs, as pieces (last first),
    in the case with only the first conditional taken (the first point of a run of four): the scratch pair is reset and then updated; with the proof that on whole memrefs — the inputs' at their contents — the body runs to the
    continuation holding the inputs' as they were and each stored buffer with its pieces written. The pieces are the
    witness the run finds. -/
noncomputable def kernelRun_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : cond_0 i) (hc1 : ¬cond_1 i)
    (x0 : Vec F S1x1024x64 .bf16) (x1 : Vec F S1x1024x64 .bf16) (x2 : Vec F S1x1024x1024 .i32) :
    Σ' (L3 : List (View.Piece (Elt F) S1x1x1024 .f32)) (LS0 : List (View.Piece (Elt F) S1x1024 .f32)), { LS1 : List (View.Piece (Elt F) S1x1024 .f32) //
      ∀ (xi3 : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__pass1_kernel i arg3 harg3 arg4 harg4 arg5 harg5 arg6 harg6 arg7 harg7 arg8 harg8) K } := by
  refine ⟨[], ?_, ?_, fun xi3 E K => ?run⟩
  case run =>
    simp only [cc1__pass1_kernel_eq_skeleton]; unfold cc1__pass1_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Reg1

end
-- ==== Proof.Reg1RunB.lean ====
import proofs.«102296_j40982577938503_1_alg».proof.Proof.Reg1RunA

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

-- (the run's proof term is large)
set_option maxHeartbeats 4000000 in
/-- What the body's stores leave in the output's staging memref and in the two scratch memrefs, as pieces (last first),
    in the case with neither conditional taken (the two middle points of a run): the scratch pair is updated; with the proof that on whole memrefs — the inputs' at their contents — the body runs to the
    continuation holding the inputs' as they were and each stored buffer with its pieces written. The pieces are the
    witness the run finds. -/
noncomputable def kernelRun_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : ¬cond_1 i)
    (x0 : Vec F S1x1024x64 .bf16) (x1 : Vec F S1x1024x64 .bf16) (x2 : Vec F S1x1024x1024 .i32) (xs0 : Vec F S1x1024 .f32) (xs1 : Vec F S1x1024 .f32) :
    Σ' (L3 : List (View.Piece (Elt F) S1x1x1024 .f32)) (LS0 : List (View.Piece (Elt F) S1x1024 .f32)), { LS1 : List (View.Piece (Elt F) S1x1024 .f32) //
      ∀ (xi3 : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__pass1_kernel i arg3 harg3 arg4 harg4 arg5 harg5 arg6 harg6 arg7 harg7 arg8 harg8) K } := by
  refine ⟨[], ?_, ?_, fun xi3 E K => ?run⟩
  case run =>
    simp only [cc1__pass1_kernel_eq_skeleton]; unfold cc1__pass1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Reg1

end
-- ==== Proof.Reg1RunC.lean ====
import proofs.«102296_j40982577938503_1_alg».proof.Proof.Reg1RunB

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

-- (the run's proof term is large)
set_option maxHeartbeats 4000000 in
/-- What the body's stores leave in the output's staging memref and in the two scratch memrefs, as pieces (last first),
    in the case with only the second taken (the last point of a run): the scratch pair is updated and the output block stored; with the proof that on whole memrefs — the inputs' at their contents — the body runs to the
    continuation holding the inputs' as they were and each stored buffer with its pieces written. The pieces are the
    witness the run finds. -/
noncomputable def kernelRun_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : cond_1 i)
    (x0 : Vec F S1x1024x64 .bf16) (x1 : Vec F S1x1024x64 .bf16) (x2 : Vec F S1x1024x1024 .i32) (xs0 : Vec F S1x1024 .f32) (xs1 : Vec F S1x1024 .f32) :
    Σ' (L3 : List (View.Piece (Elt F) S1x1x1024 .f32)) (LS0 : List (View.Piece (Elt F) S1x1024 .f32)), { LS1 : List (View.Piece (Elt F) S1x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__pass1_kernel i arg3 harg3 arg4 harg4 arg5 harg5 arg6 harg6 arg7 harg7 arg8 harg8) K } := by
  refine ⟨?_, ?_, ?_, fun E K => ?run⟩
  case run =>
    simp only [cc1__pass1_kernel_eq_skeleton]; unfold cc1__pass1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.KernelIdeal.Reg1

end
-- ==== Proof.Reg1.lean ====
import proofs.«102296_j40982577938503_1_alg».proof.Proof.Reg1RunC

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## What each case leaves -/

/-- This case stores nothing into the output (the window is idle at its points and not written back): a placeholder nothing consults. -/
def out_A_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : cond_0 i) (hc1 : ¬cond_1 i)
    (x0 : Vec F S1x1024x64 .bf16) (x1 : Vec F S1x1024x64 .bf16) (x2 : Vec F S1x1024x1024 .i32) : Vec F S1x1x1024 .f32 :=
  VO_3.read (Elt F) (VO_3.writes (Elt F) VO_3.junk (kernelRun_A c i arg3 harg3 arg4 harg4 arg5 harg5 arg6 harg6 arg7 harg7 arg8 harg8 hc0 hc1 x0 x1 x2).1)

/-- Case A's pieces for scratch 0 tile it, so they cover it. -/
theorem scover_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : cond_0 i) (hc1 : ¬cond_1 i)
    (x0 : Vec F S1x1024x64 .bf16) (x1 : Vec F S1x1024x64 .bf16) (x2 : Vec F S1x1024x1024 .i32) (y : S1x1024.Idx) :
    ∃ pc ∈ (kernelRun_A c i arg3 harg3 arg4 harg4 arg5 harg5 arg6 harg6 arg7 harg7 arg8 harg8 hc0 hc1 x0 x1 x2).2.1, y ∈ pc.1.set :=
  View.cover_of_tiledL (kernelRun_A c i arg3 harg3 arg4 harg4 arg5 harg5 arg6 harg6 arg7 harg7 arg8 harg8 hc0 hc1 x0 x1 x2).2.1 S1x1024.size (by sl_kernel_rfl) y

/-- What case A leaves in scratch 0: its pieces read back over junk. -/
def sout_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : cond_0 i) (hc1 : ¬cond_1 i)
    (x0 : Vec F S1x1024x64 .bf16) (x1 : Vec F S1x1024x64 .bf16) (x2 : Vec F S1x1024x1024 .i32) : Vec F S1x1024 .f32 :=
  VS_0.read (Elt F) (VS_0.writes (Elt F) VS_0.junk (kernelRun_A c i arg3 harg3 arg4 harg4 arg5 harg5 arg6 harg6 arg7 harg7 arg8 harg8 hc0 hc1 x0 x1 x2).2.1)

/-- Case A's pieces for scratch 1 tile it, so they cover it. -/
theorem scover_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : cond_0 i) (hc1 : ¬cond_1 i)
    (x0 : Vec F S1x1024x64 .bf16) (x1 : Vec F S1x1024x64 .bf16) (x2 : Vec F S1x1024x1024 .i32) (y : S1x1024.Idx) :
    ∃ pc ∈ (kernelRun_A c i arg3 harg3 arg4 harg4 arg5 harg5 arg6 harg6 arg7 harg7 arg8 harg8 hc0 hc1 x0 x1 x2).2.2.1, y ∈ pc.1.set :=
  View.cover_of_tiledL (kernelRun_A c i arg3 harg3 arg4 harg4 arg5 harg5 arg6 harg6 arg7 harg7 arg8 harg8 hc0 hc1 x0 x1 x2).2.2.1 S1x1024.size (by sl_kernel_rfl) y

/-- What case A leaves in scratch 1: its pieces read back over junk. -/
def sout_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : cond_0 i) (hc1 : ¬cond_1 i)
    (x0 : Vec F S1x1024x64 .bf16) (x1 : Vec F S1x1024x64 .bf16) (x2 : Vec F S1x1024x1024 .i32) : Vec F S1x1024 .f32 :=
  VS_1.read (Elt F) (VS_1.writes (Elt F) VS_1.junk (kernelRun_A c i arg3 harg3 arg4 harg4 arg5 harg5 arg6 harg6 arg7 harg7 arg8 harg8 hc0 hc1 x0 x1 x2).2.2.1)

/-- This case stores nothing into the output (the window is idle at its points and not written back): a placeholder nothing consults. -/
def out_B_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : ¬cond_1 i)
    (x0 : Vec F S1x1024x64 .bf16) (x1 : Vec F S1x1024x64 .bf16) (x2 : Vec F S1x1024x1024 .i32) (xs0 : Vec F S1x1024 .f32) (xs1 : Vec F S1x1024 .f32) : Vec F S1x1x1024 .f32 :=
  VO_3.read (Elt F) (VO_3.writes (Elt F) VO_3.junk (kernelRun_B c i arg3 harg3 arg4 harg4 arg5 harg5 arg6 harg6 arg7 harg7 arg8 harg8 hc0 hc1 x0 x1 x2 xs0 xs1).1)

/-- Case B's pieces for scratch 0 tile it, so they cover it. -/
theorem scover_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : ¬cond_1 i)
    (x0 : Vec F S1x1024x64 .bf16) (x1 : Vec F S1x1024x64 .bf16) (x2 : Vec F S1x1024x1024 .i32) (xs0 : Vec F S1x1024 .f32) (xs1 : Vec F S1x1024 .f32) (y : S1x1024.Idx) :
    ∃ pc ∈ (kernelRun_B c i arg3 harg3 arg4 harg4 arg5 harg5 arg6 harg6 arg7 harg7 arg8 harg8 hc0 hc1 x0 x1 x2 xs0 xs1).2.1, y ∈ pc.1.set :=
  View.cover_of_tiledL (kernelRun_B c i arg3 harg3 arg4 harg4 arg5 harg5 arg6 harg6 arg7 harg7 arg8 harg8 hc0 hc1 x0 x1 x2 xs0 xs1).2.1 S1x1024.size (by sl_kernel_rfl) y

/-- What case B leaves in scratch 0: its pieces read back over junk. -/
def sout_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : ¬cond_1 i)
    (x0 : Vec F S1x1024x64 .bf16) (x1 : Vec F S1x1024x64 .bf16) (x2 : Vec F S1x1024x1024 .i32) (xs0 : Vec F S1x1024 .f32) (xs1 : Vec F S1x1024 .f32) : Vec F S1x1024 .f32 :=
  VS_0.read (Elt F) (VS_0.writes (Elt F) VS_0.junk (kernelRun_B c i arg3 harg3 arg4 harg4 arg5 harg5 arg6 harg6 arg7 harg7 arg8 harg8 hc0 hc1 x0 x1 x2 xs0 xs1).2.1)

/-- Case B's pieces for scratch 1 tile it, so they cover it. -/
theorem scover_B_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : ¬cond_1 i)
    (x0 : Vec F S1x1024x64 .bf16) (x1 : Vec F S1x1024x64 .bf16) (x2 : Vec F S1x1024x1024 .i32) (xs0 : Vec F S1x1024 .f32) (xs1 : Vec F S1x1024 .f32) (y : S1x1024.Idx) :
    ∃ pc ∈ (kernelRun_B c i arg3 harg3 arg4 harg4 arg5 harg5 arg6 harg6 arg7 harg7 arg8 harg8 hc0 hc1 x0 x1 x2 xs0 xs1).2.2.1, y ∈ pc.1.set :=
  View.cover_of_tiledL (kernelRun_B c i arg3 harg3 arg4 harg4 arg5 harg5 arg6 harg6 arg7 harg7 arg8 harg8 hc0 hc1 x0 x1 x2 xs0 xs1).2.2.1 S1x1024.size (by sl_kernel_rfl) y

/-- What case B leaves in scratch 1: its pieces read back over junk. -/
def sout_B_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : ¬cond_1 i)
    (x0 : Vec F S1x1024x64 .bf16) (x1 : Vec F S1x1024x64 .bf16) (x2 : Vec F S1x1024x1024 .i32) (xs0 : Vec F S1x1024 .f32) (xs1 : Vec F S1x1024 .f32) : Vec F S1x1024 .f32 :=
  VS_1.read (Elt F) (VS_1.writes (Elt F) VS_1.junk (kernelRun_B c i arg3 harg3 arg4 harg4 arg5 harg5 arg6 harg6 arg7 harg7 arg8 harg8 hc0 hc1 x0 x1 x2 xs0 xs1).2.2.1)

/-- In the last case the pieces for the output tile its block, so they cover it. -/
theorem cover_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : cond_1 i)
    (x0 : Vec F S1x1024x64 .bf16) (x1 : Vec F S1x1024x64 .bf16) (x2 : Vec F S1x1024x1024 .i32) (xs0 : Vec F S1x1024 .f32) (xs1 : Vec F S1x1024 .f32) (y : S1x1x1024.Idx) :
    ∃ pc ∈ (kernelRun_C c i arg3 harg3 arg4 harg4 arg5 harg5 arg6 harg6 arg7 harg7 arg8 harg8 hc0 hc1 x0 x1 x2 xs0 xs1).1, y ∈ pc.1.set :=
  View.cover_of_tiledL (kernelRun_C c i arg3 harg3 arg4 harg4 arg5 harg5 arg6 harg6 arg7 harg7 arg8 harg8 hc0 hc1 x0 x1 x2 xs0 xs1).1 S1x1x1024.size (by sl_kernel_rfl) y

/-- What the last case leaves in the output's staging buffer: its pieces read back over junk. -/
def out_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : cond_1 i)
    (x0 : Vec F S1x1024x64 .bf16) (x1 : Vec F S1x1024x64 .bf16) (x2 : Vec F S1x1024x1024 .i32) (xs0 : Vec F S1x1024 .f32) (xs1 : Vec F S1x1024 .f32) : Vec F S1x1x1024 .f32 :=
  VO_3.read (Elt F) (VO_3.writes (Elt F) VO_3.junk (kernelRun_C c i arg3 harg3 arg4 harg4 arg5 harg5 arg6 harg6 arg7 harg7 arg8 harg8 hc0 hc1 x0 x1 x2 xs0 xs1).1)

/-- Case C's pieces for scratch 0 tile it, so they cover it. -/
theorem scover_C_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : cond_1 i)
    (x0 : Vec F S1x1024x64 .bf16) (x1 : Vec F S1x1024x64 .bf16) (x2 : Vec F S1x1024x1024 .i32) (xs0 : Vec F S1x1024 .f32) (xs1 : Vec F S1x1024 .f32) (y : S1x1024.Idx) :
    ∃ pc ∈ (kernelRun_C c i arg3 harg3 arg4 harg4 arg5 harg5 arg6 harg6 arg7 harg7 arg8 harg8 hc0 hc1 x0 x1 x2 xs0 xs1).2.1, y ∈ pc.1.set :=
  View.cover_of_tiledL (kernelRun_C c i arg3 harg3 arg4 harg4 arg5 harg5 arg6 harg6 arg7 harg7 arg8 harg8 hc0 hc1 x0 x1 x2 xs0 xs1).2.1 S1x1024.size (by sl_kernel_rfl) y

/-- What case C leaves in scratch 0: its pieces read back over junk. -/
def sout_C_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : cond_1 i)
    (x0 : Vec F S1x1024x64 .bf16) (x1 : Vec F S1x1024x64 .bf16) (x2 : Vec F S1x1024x1024 .i32) (xs0 : Vec F S1x1024 .f32) (xs1 : Vec F S1x1024 .f32) : Vec F S1x1024 .f32 :=
  VS_0.read (Elt F) (VS_0.writes (Elt F) VS_0.junk (kernelRun_C c i arg3 harg3 arg4 harg4 arg5 harg5 arg6 harg6 arg7 harg7 arg8 harg8 hc0 hc1 x0 x1 x2 xs0 xs1).2.1)

/-- Case C's pieces for scratch 1 tile it, so they cover it. -/
theorem scover_C_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : cond_1 i)
    (x0 : Vec F S1x1024x64 .bf16) (x1 : Vec F S1x1024x64 .bf16) (x2 : Vec F S1x1024x1024 .i32) (xs0 : Vec F S1x1024 .f32) (xs1 : Vec F S1x1024 .f32) (y : S1x1024.Idx) :
    ∃ pc ∈ (kernelRun_C c i arg3 harg3 arg4 harg4 arg5 harg5 arg6 harg6 arg7 harg7 arg8 harg8 hc0 hc1 x0 x1 x2 xs0 xs1).2.2.1, y ∈ pc.1.set :=
  View.cover_of_tiledL (kernelRun_C c i arg3 harg3 arg4 harg4 arg5 harg5 arg6 harg6 arg7 harg7 arg8 harg8 hc0 hc1 x0 x1 x2 xs0 xs1).2.2.1 S1x1024.size (by sl_kernel_rfl) y

/-- What case C leaves in scratch 1: its pieces read back over junk. -/
def sout_C_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : cond_1 i)
    (x0 : Vec F S1x1024x64 .bf16) (x1 : Vec F S1x1024x64 .bf16) (x2 : Vec F S1x1024x1024 .i32) (xs0 : Vec F S1x1024 .f32) (xs1 : Vec F S1x1024 .f32) : Vec F S1x1024 .f32 :=
  VS_1.read (Elt F) (VS_1.writes (Elt F) VS_1.junk (kernelRun_C c i arg3 harg3 arg4 harg4 arg5 harg5 arg6 harg6 arg7 harg7 arg8 harg8 hc0 hc1 x0 x1 x2 xs0 xs1).2.2.1)

/-! ## What the output's staging buffer and the two scratch buffers hold after each point -/

/-- The accumulation: after the body at position `n`, the output's staging buffer, the running maximum and the running
    sum — the case the closed forms select at `n`, run at the point's memrefs and input blocks, the scratch pair it
    reads at what position `n - 1` left. -/
def outsAt (c : Dev nD) : (n : ℕ) → n < cfg1.N → Vec F S1x1x1024 .f32 × Vec F S1x1024 .f32 × Vec F S1x1024 .f32
  | 0, hn => (out_A_3 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩), sout_A_0 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩), sout_A_1 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (out_A_3 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩) (iblk V c 2 ⟨n + 1, hn⟩), sout_A_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩) (iblk V c 2 ⟨n + 1, hn⟩), sout_A_1 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩) (iblk V c 2 ⟨n + 1, hn⟩))
    else
      if h1 : (n + 1) % 4 = 3 then
        (out_C_3 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2, sout_C_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2, sout_C_1 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2)
      else
        (out_B_3 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2, sout_B_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2, sout_B_1 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2)

/-- `outsAt` at a point of the first case. -/
theorem outsAt_A (c : Dev nD) (t : Fin cfg1.N) (h0 : t.val % 4 = 0) (h1 : ¬t.val % 4 = 3) :
    outsAt V c t.val t.isLt = (out_A_3 c (grid1.coords t) (ms_0 t) (hs_0 t) (ms_1 t) (hs_1 t) (ms_2 t) (hs_2 t) (ms_3 t) (hs_3 t) scM_0 (Memref.isWhole_whole _) scM_1 (Memref.isWhole_whole _) ((hcond_0 t).mpr h0) (fun h => h1 ((hcond_1 t).mp h)) (iblk V c 0 t) (iblk V c 1 t) (iblk V c 2 t), sout_A_0 c (grid1.coords t) (ms_0 t) (hs_0 t) (ms_1 t) (hs_1 t) (ms_2 t) (hs_2 t) (ms_3 t) (hs_3 t) scM_0 (Memref.isWhole_whole _) scM_1 (Memref.isWhole_whole _) ((hcond_0 t).mpr h0) (fun h => h1 ((hcond_1 t).mp h)) (iblk V c 0 t) (iblk V c 1 t) (iblk V c 2 t), sout_A_1 c (grid1.coords t) (ms_0 t) (hs_0 t) (ms_1 t) (hs_1 t) (ms_2 t) (hs_2 t) (ms_3 t) (hs_3 t) scM_0 (Memref.isWhole_whole _) scM_1 (Memref.isWhole_whole _) ((hcond_0 t).mpr h0) (fun h => h1 ((hcond_1 t).mp h)) (iblk V c 0 t) (iblk V c 1 t) (iblk V c 2 t)) := by
  obtain ⟨n, hn⟩ := t
  cases n with
  | zero => exact rfl
  | succ n => exact (dif_pos h0).trans ((dif_neg h1).trans rfl)

/-- `outsAt` at a middle point: over what the point before left. -/
theorem outsAt_B (c : Dev nD) (t : Fin cfg1.N) (h0 : ¬t.val % 4 = 0) (h1 : ¬t.val % 4 = 3) :
    outsAt V c t.val t.isLt = (out_B_3 c (grid1.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) (fun h => h1 ((hcond_1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2, sout_B_0 c (grid1.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) (fun h => h1 ((hcond_1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2, sout_B_1 c (grid1.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) (fun h => h1 ((hcond_1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt` at a last point of a run: over what the point before left. -/
theorem outsAt_C (c : Dev nD) (t : Fin cfg1.N) (h0 : ¬t.val % 4 = 0) (h1 : t.val % 4 = 3) :
    outsAt V c t.val t.isLt = (out_C_3 c (grid1.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) ((hcond_1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2, sout_C_0 c (grid1.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) ((hcond_1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2, sout_C_1 c (grid1.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) ((hcond_1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before the first point the class's invariant; afterwards the two scratch buffers at what the point before left in
    them, the other scoped buffers unopened, and the generator register at some state. -/
def PhiS (c : Dev nD) : (n : ℕ) → n ≤ cfg1.N → sProp 𝕄
  | 0, _ => Pipeline.ΦA spec1 c
  | n + 1, hn => iprop(iprop(iprop(owns (c : Thread nD τ) scM_0 fullShare ((outsAt V c n hn).2.1) ∗ owns (c : Thread nD τ) scM_1 fullShare ((outsAt V c n hn).2.2)) ∗ restBut (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM_0 fullShare ((outsAt V c n hn).2.1) ∗ owns (c : Thread nD τ) scM_1 fullShare ((outsAt V c n hn).2.2)) ∗ restBut (F := F) c) ∗ (∃ r, prngReg c r)) := rfl

theorem PhiS_pos (c : Dev nD) (n : ℕ) (h : n ≤ cfg1.N) (hz : n ≠ 0) :
    PhiS V c n h = iprop(iprop(iprop(owns (c : Thread nD τ) scM_0 fullShare ((outsAt V c (n - 1) (by omega)).2.1) ∗ owns (c : Thread nD τ) scM_1 fullShare ((outsAt V c (n - 1) (by omega)).2.2)) ∗ restBut (F := F) c) ∗ (∃ r, prngReg c r)) := by
  cases n with
  | zero => exact absurd rfl hz
  | succ n => rfl

/-! ## The pipeline's proof data -/

/-- The proof data of this region's pipeline on core `c`: the arrays as the region finds them; after the body at point
    `t` each input's buffer at its block and the output's at `outsAt`'s first component; the invariant `PhiS`;
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 8000000 in
/-- The body at any point: the inputs' memrefs hold their blocks; the closed forms say which case the point is in; the
    invariant hands the body the scratch pair at what the point before left (at anything at the first point) and
    takes it back at this point's contents; the other scoped buffers and the generator register pass through; the
    core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 4 = 0
  · by_cases h1 : t.val % 4 = 3
    · exfalso; omega
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3_A t ((hcond_0 t).mpr h0) (fun h => h1 ((hcond_1 t).mp h))) (noFlush_3_A t ((hcond_0 t).mpr h0) (fun h => h1 ((hcond_1 t).mp h)))]
      rw [outsAt_A V c t h0 h1]
      unfold sout_A_0 sout_A_1; (try dsimp only)
      by_cases hz : t.val = 0
      ·
        rw [PhiS_castSucc V c t, PhiS_zero V c _ _ hz, PhiA_eq]
        iintro ⟨⟨⟨⟨HS0, HS1⟩, Hrb⟩, Hg⟩, Ho, ⟨%d0, H0⟩, ⟨%d1, H1⟩, ⟨%d2, H2⟩, ⟨%d3, H3⟩⟩
        iapply ((kernelRun_A c (grid1.coords t) _ _ _ _ _ _ _ _ _ _ _ _ ((hcond_0 t).mpr h0) (fun h => h1 ((hcond_1 t).mp h)) (iblk V c 0 t) (iblk V c 1 t) (iblk V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hrb Hg]
        · isplitl [HS0 HS1 Hrb]
          · isplitl [HS0 HS1]
            · isplitl [HS0]
              · unfold owns; iexists _; isplitr
                swap; · iexact HS0
                ipureintro; exact View.read_writes_of_cover _ _ _ _ _ (scover_A_0 c _ _ _ _ _ _ _ _ _ _ _ _ _ _ _ _ _ _)
              · unfold owns; iexists _; isplitr
                swap; · iexact HS1
                ipureintro; exact View.read_writes_of_cover _ _ _ _ _ (scover_A_1 c _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3
      ·
        rw [PhiS_castSucc V c t, PhiS_pos V c _ _ hz]
        iintro ⟨⟨⟨⟨HS0, HS1⟩, Hrb⟩, Hg⟩, Ho, ⟨%d0, H0⟩, ⟨%d1, H1⟩, ⟨%d2, H2⟩, ⟨%d3, H3⟩⟩
        iapply ((kernelRun_A c (grid1.coords t) _ _ _ _ _ _ _ _ _ _ _ _ ((hcond_0 t).mpr h0) (fun h => h1 ((hcond_1 t).mp h)) (iblk V c 0 t) (iblk V c 1 t) (iblk V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hrb Hg]
        · isplitl [HS0 HS1 Hrb]
          · isplitl [HS0 HS1]
            · isplitl [HS0]
              · unfold owns; iexists _; isplitr
                swap; · iexact HS0
                ipureintro; exact View.read_writes_of_cover _ _ _ _ _ (scover_A_0 c _ _ _ _ _ _ _ _ _ _ _ _ _ _ _ _ _ _)
              · unfold owns; iexists _; isplitr
                swap; · iexact HS1
                ipureintro; exact View.read_writes_of_cover _ _ _ _ _ (scover_A_1 c _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3
  · by_cases h1 : t.val % 4 = 3
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3_C t (fun h => h0 ((hcond_0 t).mp h)) ((hcond_1 t).mpr h1)], after_3]
      rw [outsAt_C V c t h0 h1]
      unfold out_C_3 sout_C_0 sout_C_1; (try dsimp only)
      by_cases hz : t.val = 0
      ·
        exfalso; have hN : t.val < 64 := lt_of_lt_of_eq t.isLt (show cfg1.N = 64 from N_1); omega
      ·
        rw [PhiS_castSucc V c t, PhiS_pos V c _ _ hz]
        iintro ⟨⟨⟨⟨HS0, HS1⟩, Hrb⟩, Hg⟩, Ho, ⟨%d0, H0⟩, ⟨%d1, H1⟩, ⟨%d2, H2⟩, ⟨%d3, H3⟩⟩
        iapply ((kernelRun_C c (grid1.coords t) _ _ _ _ _ _ _ _ _ _ _ _ (fun h => h0 ((hcond_0 t).mp h)) ((hcond_1 t).mpr h1) (iblk V c 0 t) (iblk V c 1 t) (iblk V c 2 t) _ _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%es0, HS0⟩, ⟨%es1, HS1⟩⟩
        isplitl [HS0 HS1 Hrb Hg]
        · isplitl [HS0 HS1 Hrb]
          · isplitl [HS0 HS1]
            · isplitl [HS0]
              · unfold owns; iexists _; isplitr
                swap; · iexact HS0
                ipureintro; exact View.read_writes_of_cover _ _ _ _ _ (scover_C_0 c _ _ _ _ _ _ _ _ _ _ _ _ _ _ _ _ _ _ _ _)
              · unfold owns; iexists _; isplitr
                swap; · iexact HS1
                ipureintro; exact View.read_writes_of_cover _ _ _ _ _ (scover_C_1 c _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_C_3 c _ _ _ _ _ _ _ _ _ _ _ _ _ _ _ _ _ _ _ _)
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3_B t (fun h => h0 ((hcond_0 t).mp h)) (fun h => h1 ((hcond_1 t).mp h))) (noFlush_3_B t (fun h => h0 ((hcond_0 t).mp h)) (fun h => h1 ((hcond_1 t).mp h)))]
      rw [outsAt_B V c t h0 h1]
      unfold sout_B_0 sout_B_1; (try dsimp only)
      by_cases hz : t.val = 0
      ·
        exfalso; have hN : t.val < 64 := lt_of_lt_of_eq t.isLt (show cfg1.N = 64 from N_1); omega
      ·
        rw [PhiS_castSucc V c t, PhiS_pos V c _ _ hz]
        iintro ⟨⟨⟨⟨HS0, HS1⟩, Hrb⟩, Hg⟩, Ho, ⟨%d0, H0⟩, ⟨%d1, H1⟩, ⟨%d2, H2⟩, ⟨%d3, H3⟩⟩
        iapply ((kernelRun_B c (grid1.coords t) _ _ _ _ _ _ _ _ _ _ _ _ (fun h => h0 ((hcond_0 t).mp h)) (fun h => h1 ((hcond_1 t).mp h)) (iblk V c 0 t) (iblk V c 1 t) (iblk V c 2 t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hrb Hg]
        · isplitl [HS0 HS1 Hrb]
          · isplitl [HS0 HS1]
            · isplitl [HS0]
              · unfold owns; iexists _; isplitr
                swap; · iexact HS0
                ipureintro; exact View.read_writes_of_cover _ _ _ _ _ (scover_B_0 c _ _ _ _ _ _ _ _ _ _ _ _ _ _ _ _ _ _ _ _)
              · unfold owns; iexists _; isplitr
                swap; · iexact HS1
                ipureintro; exact View.read_writes_of_cover _ _ _ _ _ (scover_B_1 c _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the scratch pair's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨⟨HS0, HS1⟩, Hrb⟩, Hg⟩
  isplitl [HS0 HS1 Hrb]
  · isplitl [HS0 HS1]
    · isplitl [HS0]
      · iexists _; iexact HS0
      · iexists _; iexact HS1
    iexact Hrb
  iexact Hg

/-- The same after the last point. -/
theorem hout (c : Dev nD) : (dat V c).Φ (Fin.last cfg1.N) ⊢ Pipeline.ΦA spec1 c :=
  Phi_out V c _ (by rw [Fin.val_last]; have : cfg1.N = 64 := N_1; omega)

end Cert.KernelIdeal.Reg1

end
-- ==== Proof.Reg2Runs.lean ====
/- Region 2 (the third kernel call: the weighted sum of the value rows): what the three control cases of its body
   share. The branch conditions decided over the grid, where the output window is idle, each window's block at a
   point read off the region-entry contents, the scratch accumulator as a memref and a view, and the region invariant
   with the scratch split off. Generic in the float instance. -/
import proofs.«102296_j40982577938503_1_alg».proof.Proof.Gen.KernelIdeal.Launch
import proofs.«102296_j40982577938503_1_alg».proof.Proof.Gen.KernelIdeal.Skeleton
import proofs.«102296_j40982577938503_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the block
    index has not moved), for any proof data whose array is the entry contents and whose body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, the block
    index has not moved), for any proof data whose array is the entry contents and whose body leaves the block in place. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, the block
    index has not moved), for any proof data whose array is the entry contents and whose body leaves the block in place. -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (unfetched, the block
    index has not moved), for any proof data whose array is the entry contents and whose body leaves the block in place. -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (unfetched, the block
    index has not moved), for any proof data whose array is the entry contents and whose body leaves the block in place. -/
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch's condition (the innermost grid coordinate is 0: the accumulator is zeroed), from the grid coordinates. -/
abbrev cond0 (i : grid2.Coords) : Prop := (Scalar.cmpi .ne (Scalar.extui (Scalar.cmpi .eq (BitVec.ofNat 32 (i 2).val) 0#32)) 0#32) = 1#1
/-- It holds at the points ≡ 0 (mod 4): decided over the grid. -/
theorem hcond0 : ∀ t : Fin cfg2.N, cond0 (grid2.coords t) ↔ t.val % 4 = 0 :=
  (by decide +kernel : ∀ t : Fin grid2.N, cond0 (grid2.coords t) ↔ t.val % 4 = 0)

/-- The second branch's condition (the innermost grid coordinate is 3: the accumulator is stored into the output). -/
abbrev cond1 (i : grid2.Coords) : Prop := k2_cond2 i = 1#1
/-- It holds at the points ≡ 3 (mod 4): decided over the grid. -/
theorem hcond1 : ∀ t : Fin cfg2.N, cond1 (grid2.coords t) ↔ t.val % 4 = 3 :=
  (by decide +kernel : ∀ t : Fin grid2.N, cond1 (grid2.coords t) ↔ t.val % 4 = 3)

/-! ## Where the windows are idle -/

/-- Window 0 is never idle (an input). -/
theorem liveAt_0 : ∀ t : Fin cfg2.N, cfg2.idle 0 (grid2.coords t) = false := by decide +kernel
/-- Window 1 is never idle (an input). -/
theorem liveAt_1 : ∀ t : Fin cfg2.N, cfg2.idle 1 (grid2.coords t) = false := by decide +kernel
/-- Window 2 is never idle (an input). -/
theorem liveAt_2 : ∀ t : Fin cfg2.N, cfg2.idle 2 (grid2.coords t) = false := by decide +kernel
/-- Window 3 is never idle (an input). -/
theorem liveAt_3 : ∀ t : Fin cfg2.N, cfg2.idle 3 (grid2.coords t) = false := by decide +kernel
/-- Window 4 is never idle (an input). -/
theorem liveAt_4 : ∀ t : Fin cfg2.N, cfg2.idle 4 (grid2.coords t) = false := by decide +kernel
/-- At the points of the first case the output window is idle: the case stores nothing into it. -/
theorem idleAt_5_A : ∀ t : Fin cfg2.N, cond0 (grid2.coords t) → ¬cond1 (grid2.coords t) → cfg2.idle 5 (grid2.coords t) = true := by decide +kernel
/-- and its block is not written back there. -/
theorem noFlush_5_A : ∀ t : Fin cfg2.N, cond0 (grid2.coords t) → ¬cond1 (grid2.coords t) → (cfg2.win 5).flush t = false := by decide +kernel
/-- The same at the points of the middle case. -/
theorem idleAt_5_B : ∀ t : Fin cfg2.N, ¬cond0 (grid2.coords t) → ¬cond1 (grid2.coords t) → cfg2.idle 5 (grid2.coords t) = true := by decide +kernel
theorem noFlush_5_B : ∀ t : Fin cfg2.N, ¬cond0 (grid2.coords t) → ¬cond1 (grid2.coords t) → (cfg2.win 5).flush t = false := by decide +kernel
/-- At the points of the last case the output window is live: the case stores into it. -/
theorem liveAt_5_C : ∀ t : Fin cfg2.N, ¬cond0 (grid2.coords t) → cond1 (grid2.coords t) → cfg2.idle 5 (grid2.coords t) = false := by decide +kernel

/-! ## The staging memrefs and the scratch -/

/-- One staging buffer of the output window, through which its contents are stated (the choice does not matter). -/
abbrev VO5 : View sig .tc .vmem S1x1024x64 .f32 := (Memref.whole cc2_stg5_0 : Memref sig .tc .vmem S1x1024x64 .f32).view
/-- Each window's current staging memref at point `t`, as the pipeline passes it, and its wholeness. -/
abbrev ms0 (t : Fin cfg2.N) : Memref sig .tc .vmem S1x1024x64 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x1024x64 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x1024x64 .bf16 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x1024x1024 .i32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x1x1024 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S1x1024x64 .f32 := win2_5.stage (cfg2.slots t 5)
abbrev hs5 (t : Fin cfg2.N) : (ms5 t).IsWhole := hstage2_5 ((cfg2.slots t 5).cast nbuf2_5)
/-- The scratch accumulator: a whole scoped buffer of the kernel's own, passed beside the windows. -/
abbrev scM : Memref sig .tc .vmem S1024x64 .f32 := Memref.whole cc2_scratch0
/-- The same as a view: what the accumulator holds between points is stated through it. -/
abbrev VS : View sig .tc .vmem S1024x64 .f32 := scM.view

/-- The region's entry invariant with the accumulator as a memref owned at some contents, the other scoped buffers
    kept unopened, and the generator register at some state. -/
theorem PhiA_eq (c : Dev nD) :
    (Pipeline.ΦA spec2 c : sProp 𝕄)
      = iprop(iprop(iprop((∃ d, owns (c : Thread nD τ) scM fullShare d)) ∗ Pipeline.scopedRestBut spec2 c [cc2_scratch0]) ∗ (∃ r, prngReg c r)) := by
  unfold Pipeline.ΦA; rw [scopedRest2_split]; simp only [scM, owns_whole]; try rfl

end Cert.KernelIdeal.Reg2

end
-- ==== Proof.Reg2RunA.lean ====
/- Region 2: the whole-body run of its kernel in the first case (the innermost grid coordinate is 0: the accumulator is zeroed, then the block's product added; nothing stored into the output). The pieces each buffer ends with are the witness the run finds. Generic in the float instance. -/
import proofs.«102296_j40982577938503_1_alg».proof.Proof.Reg2Runs

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), in this
    case, with the proof that on whole memrefs — the inputs' at their contents, the output's at contents handed back untouched, the accumulator at anything —
    the body runs to the continuation holding the inputs' as they were, the output's as it was and the accumulator with its
    pieces written: the printed functions are their skeletons, which are run operation by operation, each branch decided by the case's hypotheses. -/
noncomputable def kernelRun_A (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : cond0 i) (hc1 : ¬cond1 i)
    (x0 : Vec F S1x1024x64 .bf16) (x1 : Vec F S1x1024x64 .bf16) (x2 : Vec F S1x1024x64 .bf16) (x3 : Vec F S1x1024x1024 .i32) (x4 : Vec F S1x1x1024 .f32) :
    Σ' (L5 : List (View.Piece (Elt F) S1x1024x64 .f32)), { LS0 : List (View.Piece (Elt F) S1024x64 .f32) //
      ∀ (xi5 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc2__pass2_kernel i arg3 harg3 arg4 harg4 arg5 harg5 arg6 harg6 arg7 harg7 arg8 harg8 arg9 harg9) K } := by
  refine ⟨[], ?_, fun xi5 E K => ?run⟩
  case run =>
    simp only [cc2__pass2_kernel_eq_skeleton]; unfold cc2__pass2_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Reg2

end
-- ==== Proof.Reg2RunB.lean ====
/- Region 2: the whole-body run of its kernel in the middle case (the innermost grid coordinate is 1 or 2: the block's product added to the accumulator the point before left; nothing stored into the output). The pieces each buffer ends with are the witness the run finds. Generic in the float instance. -/
import proofs.«102296_j40982577938503_1_alg».proof.Proof.Reg2RunA

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), in this
    case, with the proof that on whole memrefs — the inputs' at their contents, the output's at contents handed back untouched, the accumulator at the contents the point before left —
    the body runs to the continuation holding the inputs' as they were, the output's as it was and the accumulator with its
    pieces written: the printed functions are their skeletons, which are run operation by operation, each branch decided by the case's hypotheses. -/
noncomputable def kernelRun_B (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : ¬cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) :
    Σ' (L5 : List (View.Piece (Elt F) S1x1024x64 .f32)), { LS0 : List (View.Piece (Elt F) S1024x64 .f32) //
      ∀ (xi5 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc2__pass2_kernel i arg3 harg3 arg4 harg4 arg5 harg5 arg6 harg6 arg7 harg7 arg8 harg8 arg9 harg9) K } := by
  refine ⟨[], ?_, fun xi5 E K => ?run⟩
  case run =>
    simp only [cc2__pass2_kernel_eq_skeleton]; unfold cc2__pass2_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Reg2

end
-- ==== Proof.Reg2RunC.lean ====
/- Region 2: the whole-body run of its kernel in the last case (the innermost grid coordinate is 3: the block's product added to the accumulator the point before left, and the sum stored into the output). The pieces each buffer ends with are the witness the run finds. Generic in the float instance. -/
import proofs.«102296_j40982577938503_1_alg».proof.Proof.Reg2RunB

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), in this
    case, with the proof that on whole memrefs — the inputs' at their contents, the output's at anything, the accumulator at the contents the point before left —
    the body runs to the continuation holding the inputs' as they were, the output's with its pieces written and the accumulator with its
    pieces written: the printed functions are their skeletons, which are run operation by operation, each branch decided by the case's hypotheses. -/
noncomputable def kernelRun_C (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) :
    Σ' (L5 : List (View.Piece (Elt F) S1x1024x64 .f32)), { LS0 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc2__pass2_kernel i arg3 harg3 arg4 harg4 arg5 harg5 arg6 harg6 arg7 harg7 arg8 harg8 arg9 harg9) K } := by
  refine ⟨?_, ?_, fun E K => ?run⟩
  case run =>
    simp only [cc2__pass2_kernel_eq_skeleton]; unfold cc2__pass2_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Reg2

end
-- ==== Proof.Reg2.lean ====
/- Region 2 (the third kernel call): its frame record. What each control case leaves in the output's staging buffer and
   in the scratch accumulator; the accumulation over the grid points by recursion on the point, with its case
   equations; the region invariant carrying the accumulator's contents from point to point; the proof data; the
   body obligation at a generic point; and the invariant's two ends. Generic in the float instance, at a parameter for
   the region-entry contents. -/
import proofs.«102296_j40982577938503_1_alg».proof.Proof.Reg2RunC

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## What each case leaves -/

/-- What case A leaves in the output's staging buffer: its pieces read back over junk (no pieces: a placeholder nothing consults,
    since at these points the window is neither written back nor read at the next point). -/
def out_A (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : cond0 i) (hc1 : ¬cond1 i)
    (x0 : Vec F S1x1024x64 .bf16) (x1 : Vec F S1x1024x64 .bf16) (x2 : Vec F S1x1024x64 .bf16) (x3 : Vec F S1x1024x1024 .i32) (x4 : Vec F S1x1x1024 .f32) : Vec F S1x1024x64 .f32 :=
  VO5.read (Elt F) (VO5.writes (Elt F) VO5.junk (kernelRun_A c i arg3 harg3 arg4 harg4 arg5 harg5 arg6 harg6 arg7 harg7 arg8 harg8 arg9 harg9 hc0 hc1 x0 x1 x2 x3 x4).1)

/-- Case A's pieces for the accumulator cover it (they tile it). -/
theorem scover_A (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : cond0 i) (hc1 : ¬cond1 i)
    (x0 : Vec F S1x1024x64 .bf16) (x1 : Vec F S1x1024x64 .bf16) (x2 : Vec F S1x1024x64 .bf16) (x3 : Vec F S1x1024x1024 .i32) (x4 : Vec F S1x1x1024 .f32) (y : S1024x64.Idx) :
    ∃ pc ∈ (kernelRun_A c i arg3 harg3 arg4 harg4 arg5 harg5 arg6 harg6 arg7 harg7 arg8 harg8 arg9 harg9 hc0 hc1 x0 x1 x2 x3 x4).2.1, y ∈ pc.1.set :=
  View.cover_of_tiledL (kernelRun_A c i arg3 harg3 arg4 harg4 arg5 harg5 arg6 harg6 arg7 harg7 arg8 harg8 arg9 harg9 hc0 hc1 x0 x1 x2 x3 x4).2.1 S1024x64.size (by sl_kernel_rfl) y

/-- What case A leaves in the accumulator: its pieces read back over junk. -/
def sout_A (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : cond0 i) (hc1 : ¬cond1 i)
    (x0 : Vec F S1x1024x64 .bf16) (x1 : Vec F S1x1024x64 .bf16) (x2 : Vec F S1x1024x64 .bf16) (x3 : Vec F S1x1024x1024 .i32) (x4 : Vec F S1x1x1024 .f32) : Vec F S1024x64 .f32 :=
  VS.read (Elt F) (VS.writes (Elt F) VS.junk (kernelRun_A c i arg3 harg3 arg4 harg4 arg5 harg5 arg6 harg6 arg7 harg7 arg8 harg8 arg9 harg9 hc0 hc1 x0 x1 x2 x3 x4).2.1)

/-- What case B leaves in the output's staging buffer: its pieces read back over junk (no pieces: a placeholder nothing consults,
    since at these points the window is neither written back nor read at the next point). -/
def out_B (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : ¬cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) : Vec F S1x1024x64 .f32 :=
  VO5.read (Elt F) (VO5.writes (Elt F) VO5.junk (kernelRun_B c i arg3 harg3 arg4 harg4 arg5 harg5 arg6 harg6 arg7 harg7 arg8 harg8 arg9 harg9 hc0 hc1 x0 x1 x2 x3 x4 xs0).1)

/-- Case B's pieces for the accumulator cover it (they tile it). -/
theorem scover_B (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : ¬cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) (y : S1024x64.Idx) :
    ∃ pc ∈ (kernelRun_B c i arg3 harg3 arg4 harg4 arg5 harg5 arg6 harg6 arg7 harg7 arg8 harg8 arg9 harg9 hc0 hc1 x0 x1 x2 x3 x4 xs0).2.1, y ∈ pc.1.set :=
  View.cover_of_tiledL (kernelRun_B c i arg3 harg3 arg4 harg4 arg5 harg5 arg6 harg6 arg7 harg7 arg8 harg8 arg9 harg9 hc0 hc1 x0 x1 x2 x3 x4 xs0).2.1 S1024x64.size (by sl_kernel_rfl) y

/-- What case B leaves in the accumulator: its pieces read back over junk. -/
def sout_B (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : ¬cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) : Vec F S1024x64 .f32 :=
  VS.read (Elt F) (VS.writes (Elt F) VS.junk (kernelRun_B c i arg3 harg3 arg4 harg4 arg5 harg5 arg6 harg6 arg7 harg7 arg8 harg8 arg9 harg9 hc0 hc1 x0 x1 x2 x3 x4 xs0).2.1)

/-- The last case's pieces for the output tile its block (one store of the whole block), so they cover it. -/
theorem cover_C (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) (y : S1x1024x64.Idx) :
    ∃ pc ∈ (kernelRun_C c i arg3 harg3 arg4 harg4 arg5 harg5 arg6 harg6 arg7 harg7 arg8 harg8 arg9 harg9 hc0 hc1 x0 x1 x2 x3 x4 xs0).1, y ∈ pc.1.set :=
  View.cover_of_tiledL (kernelRun_C c i arg3 harg3 arg4 harg4 arg5 harg5 arg6 harg6 arg7 harg7 arg8 harg8 arg9 harg9 hc0 hc1 x0 x1 x2 x3 x4 xs0).1 S1x1024x64.size (by sl_kernel_rfl) y

/-- What case C leaves in the output's staging buffer: its pieces read back over junk. -/
def out_C (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) : Vec F S1x1024x64 .f32 :=
  VO5.read (Elt F) (VO5.writes (Elt F) VO5.junk (kernelRun_C c i arg3 harg3 arg4 harg4 arg5 harg5 arg6 harg6 arg7 harg7 arg8 harg8 arg9 harg9 hc0 hc1 x0 x1 x2 x3 x4 xs0).1)

/-- Case C's pieces for the accumulator cover it (they tile it). -/
theorem scover_C (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) (y : S1024x64.Idx) :
    ∃ pc ∈ (kernelRun_C c i arg3 harg3 arg4 harg4 arg5 harg5 arg6 harg6 arg7 harg7 arg8 harg8 arg9 harg9 hc0 hc1 x0 x1 x2 x3 x4 xs0).2.1, y ∈ pc.1.set :=
  View.cover_of_tiledL (kernelRun_C c i arg3 harg3 arg4 harg4 arg5 harg5 arg6 harg6 arg7 harg7 arg8 harg8 arg9 harg9 hc0 hc1 x0 x1 x2 x3 x4 xs0).2.1 S1024x64.size (by sl_kernel_rfl) y

/-- What case C leaves in the accumulator: its pieces read back over junk. -/
def sout_C (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) : Vec F S1024x64 .f32 :=
  VS.read (Elt F) (VS.writes (Elt F) VS.junk (kernelRun_C c i arg3 harg3 arg4 harg4 arg5 harg5 arg6 harg6 arg7 harg7 arg8 harg8 arg9 harg9 hc0 hc1 x0 x1 x2 x3 x4 xs0).2.1)

/-! ## The cases at a grid point -/

/-- Case A at point `t`, run at the point's memrefs and input blocks: what it leaves in the output's
    buffer and in the accumulator. -/
def atA (c : Dev nD) (t : Fin cfg2.N) (h0 : t.val % 4 = 0) (h1 : ¬t.val % 4 = 3) : Vec F S1x1024x64 .f32 × Vec F S1024x64 .f32 :=
  (out_A c (grid2.coords t) (ms0 t) (hs0 t) (ms1 t) (hs1 t) (ms2 t) (hs2 t) (ms3 t) (hs3 t) (ms4 t) (hs4 t) (ms5 t) (hs5 t) scM (Memref.isWhole_whole _) ((hcond0 t).mpr h0) (fun h => h1 ((hcond1 t).mp h)) (iblk V c 0 t) (iblk V c 1 t) (iblk V c 2 t) (iblk V c 3 t) (iblk V c 4 t),
   sout_A c (grid2.coords t) (ms0 t) (hs0 t) (ms1 t) (hs1 t) (ms2 t) (hs2 t) (ms3 t) (hs3 t) (ms4 t) (hs4 t) (ms5 t) (hs5 t) scM (Memref.isWhole_whole _) ((hcond0 t).mpr h0) (fun h => h1 ((hcond1 t).mp h)) (iblk V c 0 t) (iblk V c 1 t) (iblk V c 2 t) (iblk V c 3 t) (iblk V c 4 t))

/-- Case B at point `t`, run at the point's memrefs and input blocks, over what the point before left in the accumulator: what it leaves in the output's
    buffer and in the accumulator. -/
def atB (c : Dev nD) (t : Fin cfg2.N) (h0 : ¬t.val % 4 = 0) (h1 : ¬t.val % 4 = 3) (xs0 : Vec F S1024x64 .f32) : Vec F S1x1024x64 .f32 × Vec F S1024x64 .f32 :=
  (out_B c (grid2.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) (fun h => h1 ((hcond1 t).mp h)) (iblk V c 0 t) (iblk V c 1 t) (iblk V c 2 t) (iblk V c 3 t) (iblk V c 4 t) xs0,
   sout_B c (grid2.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) (fun h => h1 ((hcond1 t).mp h)) (iblk V c 0 t) (iblk V c 1 t) (iblk V c 2 t) (iblk V c 3 t) (iblk V c 4 t) xs0)

/-- Case C at point `t`, run at the point's memrefs and input blocks, over what the point before left in the accumulator: what it leaves in the output's
    buffer and in the accumulator. -/
def atC (c : Dev nD) (t : Fin cfg2.N) (h0 : ¬t.val % 4 = 0) (h1 : t.val % 4 = 3) (xs0 : Vec F S1024x64 .f32) : Vec F S1x1024x64 .f32 × Vec F S1024x64 .f32 :=
  (out_C c (grid2.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) ((hcond1 t).mpr h1) (iblk V c 0 t) (iblk V c 1 t) (iblk V c 2 t) (iblk V c 3 t) (iblk V c 4 t) xs0,
   sout_C c (grid2.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) ((hcond1 t).mpr h1) (iblk V c 0 t) (iblk V c 1 t) (iblk V c 2 t) (iblk V c 3 t) (iblk V c 4 t) xs0)

/-! ## What the output's buffer and the accumulator hold after each point -/

/-- The accumulation. What the output's staging buffer and the accumulator hold after the body at position `n`: the case
    the closed forms select at `n`, run at the point's memrefs and input blocks, the accumulator at what this leaves
    at `n - 1`. An assignment of the conditions no point meets is no case. -/
def outsAt (c : Dev nD) : (n : ℕ) → n < cfg2.N → Vec F S1x1024x64 .f32 × Vec F S1024x64 .f32
  | 0, hn => atA V c ⟨0, hn⟩ (Nat.zero_mod _) (by show ¬(0 % 4 = 3); decide)
  | n + 1, hn =>
    if h0 : (n + 1) % 4 = 0 then
      if h1 : (n + 1) % 4 = 3 then
        False.elim (by omega)
      else
        atA V c ⟨n + 1, hn⟩ h0 h1
    else
      if h1 : (n + 1) % 4 = 3 then
        atC V c ⟨n + 1, hn⟩ h0 h1 (outsAt c n (Nat.lt_of_succ_lt hn)).2
      else
        atB V c ⟨n + 1, hn⟩ h0 h1 (outsAt c n (Nat.lt_of_succ_lt hn)).2

/-- `outsAt` at a point of case A: that case's contents. -/
theorem outsAt_A (c : Dev nD) (t : Fin cfg2.N) (h0 : t.val % 4 = 0) (h1 : ¬t.val % 4 = 3) :
    outsAt V c t.val t.isLt = atA V c t h0 h1 := by
  obtain ⟨n, hn⟩ := t
  cases n with
  | zero => exact rfl
  | succ n => exact (dif_pos h0).trans ((dif_neg h1).trans rfl)

/-- `outsAt` at a point of case B: that case's contents, over what the point before left. -/
theorem outsAt_B (c : Dev nD) (t : Fin cfg2.N) (h0 : ¬t.val % 4 = 0) (h1 : ¬t.val % 4 = 3) :
    outsAt V c t.val t.isLt = atB V c t h0 h1 (outsAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- `outsAt` at a point of case C: that case's contents, over what the point before left. -/
theorem outsAt_C (c : Dev nD) (t : Fin cfg2.N) (h0 : ¬t.val % 4 = 0) (h1 : t.val % 4 = 3) :
    outsAt V c t.val t.isLt = atC V c t h0 h1 (outsAt V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point what the launch hands the region (every scoped
    buffer at anything); afterwards the accumulator at what the point before left in it, the other scoped buffers
    unopened, and the generator register at some state. -/
def PhiS (c : Dev nD) : (n : ℕ) → n ≤ cfg2.N → sProp 𝕄
  | 0, _ => Pipeline.ΦA spec2 c
  | n + 1, hn => iprop(iprop(iprop(owns (c : Thread nD τ) scM fullShare ((outsAt V c n hn).2)) ∗ Pipeline.scopedRestBut spec2 c [cc2_scratch0]) ∗ (∃ r, prngReg c r))

theorem PhiS_zero (c : Dev nD) (n : ℕ) (h : n ≤ cfg2.N) (hz : n = 0) : PhiS V c n h = Pipeline.ΦA spec2 c := by
  subst hz; rfl

/-- After point `n` (before point `n + 1`): the accumulator at that point's contents. -/
theorem PhiS_succ (c : Dev nD) (n : ℕ) (hn : n < cfg2.N) :
    PhiS V c (n + 1) hn = iprop(iprop(iprop(owns (c : Thread nD τ) scM fullShare ((outsAt V c n hn).2)) ∗ Pipeline.scopedRestBut spec2 c [cc2_scratch0]) ∗ (∃ r, prngReg c r)) := rfl

/-- Before a point that is not the first: the accumulator at what the point before left. -/
theorem PhiS_pos (c : Dev nD) (n : ℕ) (h : n ≤ cfg2.N) (hz : n ≠ 0) :
    PhiS V c n h = iprop(iprop(iprop(owns (c : Thread nD τ) scM fullShare ((outsAt V c (n - 1) (by omega)).2)) ∗ Pipeline.scopedRestBut spec2 c [cc2_scratch0]) ∗ (∃ r, prngReg c r)) := by
  cases n with
  | zero => exact absurd rfl hz
  | succ n => rfl

/-! ## The pipeline's proof data -/

/-- The proof data of the region on core `c`: the arrays as the region finds them; after the body at point `t` each
    input's buffer at its block and the output's at `outsAt`'s first component; the invariant `PhiS`; nothing owed;
    full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

/-- The proof data's arrays are the region-entry contents (the definition projected, never unfolded further). -/
theorem A_eq (c : Dev nD) (w : Fin cfg2.W) : (dat V c).A w = V c (Pipeline.arrRef spec2 w) := by
  dsimp only [dat]

/-- The invariant at a point's start, restated at `t.val`. -/
theorem PhiS_castSucc (c : Dev nD) (t : Fin cfg2.N) :
    (dat V c).Φ t.castSucc = PhiS V c t.val (Nat.le_of_lt t.isLt) := by
  dsimp only [dat]; simp only [Fin.coe_castSucc]

/-- What the body leaves, window by window. -/
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = (outsAt V c t.val t.isLt).1 := by dsimp only [dat]

/-- Each input's current staging buffer holds its block at every point, fetched there or not. -/
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d

/-! ## The body obligation, at a generic point -/

/-- What the body is called with at point `t` (the windows one by one), -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks; the closed forms say which case the point is in; so that
    case's run applies; the invariant hands the body the accumulator at what the point before left (at anything at the
    first point) and takes it back at this point's contents, the other scoped buffers and the generator register pass
    through unopened; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg2.N = 64 from N_2)
  rw [show (dat V c).leavesExact 0 t = owns (c : Thread nD τ) (ms0 t) fullShare ((dat V c).after 0 t) from by
    unfold Dat.leavesExact; rw [liveAt_0 t], after_0]
  rw [show (dat V c).leavesExact 1 t = owns (c : Thread nD τ) (ms1 t) fullShare ((dat V c).after 1 t) from by
    unfold Dat.leavesExact; rw [liveAt_1 t], after_1]
  rw [show (dat V c).leavesExact 2 t = owns (c : Thread nD τ) (ms2 t) fullShare ((dat V c).after 2 t) from by
    unfold Dat.leavesExact; rw [liveAt_2 t], after_2]
  rw [show (dat V c).leavesExact 3 t = owns (c : Thread nD τ) (ms3 t) fullShare ((dat V c).after 3 t) from by
    unfold Dat.leavesExact; rw [liveAt_3 t], after_3]
  rw [show (dat V c).leavesExact 4 t = owns (c : Thread nD τ) (ms4 t) fullShare ((dat V c).after 4 t) from by
    unfold Dat.leavesExact; rw [liveAt_4 t], after_4]
  by_cases h0 : t.val % 4 = 0
  · by_cases h1 : t.val % 4 = 3
    · exfalso; omega
    · rw [Dat.leavesExact_idle (dat V c) 5 t (idleAt_5_A t ((hcond0 t).mpr h0) (fun h => h1 ((hcond1 t).mp h))) (noFlush_5_A t ((hcond0 t).mpr h0) (fun h => h1 ((hcond1 t).mp h)))]
      rw [outsAt_A V c t h0 h1]
      unfold atA sout_A; (try dsimp only)
      by_cases hz : t.val = 0
      ·
        rw [PhiS_castSucc V c t, PhiS_zero V c _ _ hz, PhiA_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun_A c (grid2.coords t) _ _ _ _ _ _ _ _ _ _ _ _ _ _ ((hcond0 t).mpr h0) (fun h => h1 ((hcond1 t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_A c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun_A c (grid2.coords t) _ _ _ _ _ _ _ _ _ _ _ _ _ _ ((hcond0 t).mpr h0) (fun h => h1 ((hcond1 t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_A c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat V c).leavesExact 5 t = owns (c : Thread nD τ) (ms5 t) fullShare ((dat V c).after 5 t) from by
        unfold Dat.leavesExact; rw [liveAt_5_C t (fun h => h0 ((hcond0 t).mp h)) ((hcond1 t).mpr h1)], after_5]
      rw [outsAt_C V c t h0 h1]
      unfold atC out_C sout_C; (try dsimp only)
      by_cases hz : t.val = 0
      · exfalso; omega
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun_C c (grid2.coords t) _ _ _ _ _ _ _ _ _ _ _ _ _ _ (fun h => h0 ((hcond0 t).mp h)) ((hcond1 t).mpr h1) (iblk V c 0 t) (iblk V c 1 t) (iblk V c 2 t) (iblk V c 3 t) (iblk V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_C c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover_C c _ _ _ _ _ _ _ _ _ _ _ _ _ _ _ _ _ _ _ _ _ _ _)
    · rw [Dat.leavesExact_idle (dat V c) 5 t (idleAt_5_B t (fun h => h0 ((hcond0 t).mp h)) (fun h => h1 ((hcond1 t).mp h))) (noFlush_5_B t (fun h => h0 ((hcond0 t).mp h)) (fun h => h1 ((hcond1 t).mp h)))]
      rw [outsAt_B V c t h0 h1]
      unfold atB sout_B; (try dsimp only)
      by_cases hz : t.val = 0
      · exfalso; omega
      ·
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun_B c (grid2.coords t) _ _ _ _ _ _ _ _ _ _ _ _ _ _ (fun h => h0 ((hcond0 t).mp h)) (fun h => h1 ((hcond1 t).mp h)) (iblk V c 0 t) (iblk V c 1 t) (iblk V c 2 t) (iblk V c 3 t) (iblk V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_B c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's named contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS0, HR⟩, Hg⟩
  isplitl [HS0 HR]
  · isplitl [HS0]
    · iexists _; iexact HS0
    iexact HR
  iexact Hg

/-- The same after the last point. -/
theorem hout (c : Dev nD) : (dat V c).Φ (Fin.last cfg2.N) ⊢ Pipeline.ΦA spec2 c :=
  Phi_out V c _ (by rw [Fin.val_last]; have : cfg2.N = 64 := N_2; omega)

end Cert.KernelIdeal.Reg2

end
-- ==== Proof.Asm.lean ====
import proofs.«102296_j40982577938503_1_alg».proof.Proof.Gen.KernelIdeal.Launch
import proofs.«102296_j40982577938503_1_alg».proof.Proof.Gen.KernelIdeal.Skeleton
import proofs.«102296_j40982577938503_1_alg».proof.Proof.Gen.KernelIdeal.Points
import proofs.«102296_j40982577938503_1_alg».proof.Proof.Gen.KernelIdeal.Regions
import proofs.«102296_j40982577938503_1_alg».proof.Proof.Reg0
import proofs.«102296_j40982577938503_1_alg».proof.Proof.Reg1
import proofs.«102296_j40982577938503_1_alg».proof.Proof.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The three regions run one after the other

The program is a stretch of reshapes, the projection region, a second stretch of reshapes, and the two passes of the
attention. Between two items a core holds every unscoped buffer at known contents: the launch memory, then each
reshape's result, then after a region its arrays at what the write-backs leave and every other buffer as it was.
Each region's proof data is taken at the contents it is entered with; the regions are chained through those contents;
at the end every unscoped buffer is read back, so the arguments are seen unchanged and the result buffer is named.
-/

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

namespace Cert.KernelIdeal.Asm

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of the program -/

/-- Core c's buffers at launch. -/
abbrev W0 : Dev nD → Valuation τ sig (Elt F) := fun c b => (s₀ m ρ).mem ((c : Dev nD), b)
/-- After the reshapes of the inputs. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its arrays at what its write-backs leave. -/
def W2 (c : Dev nD) : Valuation τ sig (Elt F) :=
  Pipeline.withArrays spec0 c (W1 m ρ c) fun w => (Reg0.dat (V1 m ρ) c).arrAt w cfg0.N
theorem W2_arr (c : Dev nD) (w : Fin cfg0.W) :
    W2 m ρ c (Proc.devRef .tc (Pipeline.arrRef spec0 w)) = (Reg0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Reg0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshapes of the projections. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the first pass. -/
def W4 (c : Dev nD) : Valuation τ sig (Elt F) :=
  Pipeline.withArrays spec1 c (W3 m ρ c) fun w => (Reg1.dat (V3 m ρ) c).arrAt w cfg1.N
theorem W4_arr (c : Dev nD) (w : Fin cfg1.W) :
    W4 m ρ c (Proc.devRef .tc (Pipeline.arrRef spec1 w)) = (Reg1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Reg1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the second pass. -/
def W5 (c : Dev nD) : Valuation τ sig (Elt F) :=
  Pipeline.withArrays spec2 c (W4 m ρ c) fun w => (Reg2.dat (V4 m ρ) c).arrAt w cfg2.N
theorem W5_arr (c : Dev nD) (w : Fin cfg2.W) :
    W5 m ρ c (Proc.devRef .tc (Pipeline.arrRef spec2 w)) = (Reg2.dat (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (Reg2.dat (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

end Cert.KernelIdeal.Asm

namespace Cert.KernelIdeal.Asm

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the three regions and the thread state between two items -/

/-- No region reads a prefetched table. -/
abbrev adm : (p : Fin 3) → (pcfgs (F := F) p).Adm := fun p => (cfgs p).toPCfg_adm
/-- Every region's proof data at its entry contents: a literal match on the region. -/
def pdats : (p : Fin 3) → (c : Dev nD) → Dat τ (Elt F) Unit ℕ (UR sig nD τ) ℕ (Pipeline.pin (pcfgs (F := F)) adm p) c
  | ⟨0, _⟩ => fun c => Reg0.dat (V1 m ρ) c
  | ⟨1, _⟩ => fun c => Reg1.dat (V3 m ρ) c
  | ⟨2, _⟩ => fun c => Reg2.dat (V4 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- Region 0 over the thread state: entered with every unscoped buffer at the contents before it, left with them at the
    contents after it. Its arrays are split out of the unscoped buffers and put back at what the write-backs leave; the
    generator register goes into the region's invariant and comes out; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ ((BIBase.Entails.of_eq rfl : Pipeline.ΦA spec0 c ⊢ (pdats m ρ 0 c).Φ 0))
    unfold Pipeline.ΦA
    iintro ⟨Hp, -, Hr⟩
    isplitl [Hr]; · iexact Hr
    iexact Hp
  hout c := by
    rw [Pipeline.ownSems0_none]
    refine BIBase.Entails.trans ((BIBase.Entails.of_eq rfl : (pdats m ρ 0 c).Φ (Fin.last _) ⊢ Pipeline.ΦA spec0 c)) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it. Its arrays are split out of the unscoped buffers and put back at what the write-backs leave; the
    generator register goes into the region's invariant and comes out; nothing is owed; the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg1.hin (V3 m ρ) c)
    unfold Pipeline.ΦA
    iintro ⟨Hp, -, Hr⟩
    isplitl [Hr]; · iexact Hr
    iexact Hp
  hout c := by
    rw [Pipeline.ownSems0_none]
    refine BIBase.Entails.trans (Reg1.hout (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at the
    contents after it. Its arrays are split out of the unscoped buffers and put back at what the write-backs leave; the
    generator register goes into the region's invariant and comes out; nothing is owed; the kernel has no semaphore of
    its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg2.hin (V4 m ρ) c)
    unfold Pipeline.ΦA
    iintro ⟨Hp, -, Hr⟩
    isplitl [Hr]; · iexact Hr
    iexact Hp
  hout c := by
    rw [Pipeline.ownSems0_none]
    refine BIBase.Entails.trans (Reg2.hout (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds every unscoped buffer at the contents after the last region. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Asm

namespace Cert.KernelIdeal.Asm

variable {F : FTy → Type} [FloatOps F]

variable (m : (ℓ : Loc nD τ sig) → Buf (Elt F) ℓ) (ρ : Dev nD → PrngReg)

/-! ## What each item leaves as it found it -/

/-- A buffer the first stretch of host operations does not write. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
/-- A buffer the second stretch does not write. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h
/-- An input window's array leaves its region as it entered it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((Reg0.dat (V1 m ρ) c).arrAt_in w hw _).trans (Reg0.A_eq (V1 m ρ) c w))
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((Reg1.dat (V3 m ρ) c).arrAt_in w hw _).trans (Reg1.A_eq (V3 m ρ) c w))
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((Reg2.dat (V4 m ρ) c).arrAt_in w hw _).trans (Reg2.A_eq (V4 m ρ) c w))

/-! ## Every argument ends as launched: no host operation writes one, a region at most reads it through an input window -/

theorem W5_main_arg0 (c : Dev nD) : W5 m ρ c (Proc.devRef .tc main_arg0) = m ((c : Thread nD τ).loc main_arg0) :=
  (W5_of_ne m ρ c main_arg0 (by decide)).trans <| (W4_of_ne m ρ c main_arg0 (by decide)).trans <| (W3_of m ρ c main_arg0 (by decide)).trans <| (W2_of_ne m ρ c main_arg0 (by decide)).trans <| (W1_of m ρ c main_arg0 (by decide)).trans rfl
theorem W5_main_arg1 (c : Dev nD) : W5 m ρ c (Proc.devRef .tc main_arg1) = m ((c : Thread nD τ).loc main_arg1) :=
  (W5_of_ne m ρ c main_arg1 (by decide)).trans <| (W4_of_ne m ρ c main_arg1 (by decide)).trans <| (W3_of m ρ c main_arg1 (by decide)).trans <| (W2_of_ne m ρ c main_arg1 (by decide)).trans <| (W1_of m ρ c main_arg1 (by decide)).trans rfl
theorem W5_main_arg2 (c : Dev nD) : W5 m ρ c (Proc.devRef .tc main_arg2) = m ((c : Thread nD τ).loc main_arg2) :=
  (W5_of_ne m ρ c main_arg2 (by decide)).trans <| (W4_of_ne m ρ c main_arg2 (by decide)).trans <| (W3_of m ρ c main_arg2 (by decide)).trans <| (W2_of_ne m ρ c main_arg2 (by decide)).trans <| (W1_of m ρ c main_arg2 (by decide)).trans rfl
theorem W5_main_arg3 (c : Dev nD) : W5 m ρ c (Proc.devRef .tc main_arg3) = m ((c : Thread nD τ).loc main_arg3) :=
  (W5_in m ρ c 3 rfl).trans <| (W4_in m ρ c 2 rfl).trans <| (W3_of m ρ c main_arg3 (by decide)).trans <| (W2_of_ne m ρ c main_arg3 (by decide)).trans <| (W1_of m ρ c main_arg3 (by decide)).trans rfl
theorem W5_main_arg4 (c : Dev nD) : W5 m ρ c (Proc.devRef .tc main_arg4) = m ((c : Thread nD τ).loc main_arg4) :=
  (W5_of_ne m ρ c main_arg4 (by decide)).trans <| (W4_of_ne m ρ c main_arg4 (by decide)).trans <| (W3_of m ρ c main_arg4 (by decide)).trans <| (W2_in m ρ c 3 rfl).trans <| (W1_of m ρ c main_arg4 (by decide)).trans rfl
theorem W5_main_arg5 (c : Dev nD) : W5 m ρ c (Proc.devRef .tc main_arg5) = m ((c : Thread nD τ).loc main_arg5) :=
  (W5_of_ne m ρ c main_arg5 (by decide)).trans <| (W4_of_ne m ρ c main_arg5 (by decide)).trans <| (W3_of m ρ c main_arg5 (by decide)).trans <| (W2_of_ne m ρ c main_arg5 (by decide)).trans <| (W1_of m ρ c main_arg5 (by decide)).trans rfl
theorem W5_main_arg6 (c : Dev nD) : W5 m ρ c (Proc.devRef .tc main_arg6) = m ((c : Thread nD τ).loc main_arg6) :=
  (W5_of_ne m ρ c main_arg6 (by decide)).trans <| (W4_of_ne m ρ c main_arg6 (by decide)).trans <| (W3_of m ρ c main_arg6 (by decide)).trans <| (W2_in m ρ c 5 rfl).trans <| (W1_of m ρ c main_arg6 (by decide)).trans rfl
theorem W5_main_arg7 (c : Dev nD) : W5 m ρ c (Proc.devRef .tc main_arg7) = m ((c : Thread nD τ).loc main_arg7) :=
  (W5_of_ne m ρ c main_arg7 (by decide)).trans <| (W4_of_ne m ρ c main_arg7 (by decide)).trans <| (W3_of m ρ c main_arg7 (by decide)).trans <| (W2_of_ne m ρ c main_arg7 (by decide)).trans <| (W1_of m ρ c main_arg7 (by decide)).trans rfl
theorem W5_main_arg8 (c : Dev nD) : W5 m ρ c (Proc.devRef .tc main_arg8) = m ((c : Thread nD τ).loc main_arg8) :=
  (W5_of_ne m ρ c main_arg8 (by decide)).trans <| (W4_of_ne m ρ c main_arg8 (by decide)).trans <| (W3_of m ρ c main_arg8 (by decide)).trans <| (W2_in m ρ c 7 rfl).trans <| (W1_of m ρ c main_arg8 (by decide)).trans rfl
theorem W5_main_arg9 (c : Dev nD) : W5 m ρ c (Proc.devRef .tc main_arg9) = m ((c : Thread nD τ).loc main_arg9) :=
  (W5_of_ne m ρ c main_arg9 (by decide)).trans <| (W4_of_ne m ρ c main_arg9 (by decide)).trans <| (W3_of m ρ c main_arg9 (by decide)).trans <| (W2_of_ne m ρ c main_arg9 (by decide)).trans <| (W1_of m ρ c main_arg9 (by decide)).trans rfl

/-- The run with the result buffer named and the arguments read back. -/
theorem run_result : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v11 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c)⟩) (run m ρ)

/-- The frame: the program runs to its end, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_result m ρ)

end Cert.KernelIdeal.Asm

end
-- ==== Proof.AttnSpec.lean ====
import Idealize.ShloMosaic.PureOps.Ideal
import Idealize.ShloMosaic.PureOps.Ideal.Laws
import Idealize.ShloMosaic.Lib.ValueIdx

/-!
# What the three kernel regions compute, as functions of whole arrays on the extended reals

A linear projection (rows of x against rows of W, plus a bias row); the masked, scaled score of a query row against a key
row; the running maximum and running exponential sum of a column of scores taken over four consecutive blocks of 1024
query rows, and the log-sum-exp they end at; and the output row as four consecutive block sums of
exp (score - log-sum-exp) times the value rows.
-/

noncomputable section

open scoped BigOperators

namespace Cert.AttnSpec

open Idealize.ShloMosaic Idealize.ShloMosaic.ValueIdx

abbrev Sx : Shape := ⟨2, ![16384, 1024]⟩
abbrev Sw : Shape := ⟨2, ![64, 1024]⟩
abbrev Sb : Shape := ⟨2, ![1, 64]⟩
abbrev Sp : Shape := ⟨2, ![16384, 64]⟩
abbrev Sq : Shape := ⟨3, ![4, 4096, 64]⟩
abbrev Sm : Shape := ⟨3, ![4, 4096, 4096]⟩
abbrev Sl : Shape := ⟨3, ![4, 1, 4096]⟩

/-- The scale 1/8, the additive mask value -1e9, zero and -inf, as the words the programs spell them with. -/
def c125 : EReal := Ideal.ofBits .f32 0x3E000000#32
def negBig : EReal := Ideal.ofBits .f32 0xCE6E6B28#32
def zero32 : EReal := Ideal.ofBits .f32 0x00000000#32
def ninf : EReal := Ideal.ofBits .f32 0xFF800000#32

/-- Row r of x against row k of W, plus the bias at k. -/
def proj (X : Sx.Idx → EReal) (W : Sw.Idx → EReal) (B : Sb.Idx → EReal) : Sp.Idx → EReal :=
  fun i => (∑ d : Fin 1024, X (ix2 (i 0) d) * W (ix2 (i 1) d)) + B (ix2 (0 : Fin 1) (i 1))

/-- What a mask word adds to a score: -1e9 where the word is zero, zero elsewhere. -/
def maskAdd (w : BitVec 32) : EReal := Scalar.select (IntOp.cmpi .eq w 0#32) negBig zero32

/-- The masked, scaled score of query row q against key row s in batch b. -/
def sc (Q K : Sq.Idx → EReal) (Mk : Sm.Idx → BitVec 32) (b : Fin 4) (q s : Fin 4096) : EReal :=
  (∑ k : Fin 64, Q (ix3 b q k) * K (ix3 b s k)) * c125 + maskAdd (Mk (ix3 b q s))

/-- Row r of block j among 4096 rows cut into four blocks of 1024. -/
def row (j : Fin 4) (r : Fin 1024) : Fin 4096 := ⟨1024 * j.val + r.val, by omega⟩

/-- One block's update of a column's running maximum. -/
def stepM (M : EReal) (a : Fin 1024 → EReal) : EReal :=
  max M ((Finset.univ : Finset (Fin 1024)).fold max ninf a)

/-- One block's update of a column's running exponential sum, rescaled to the new maximum. -/
def stepL (M L : EReal) (a : Fin 1024 → EReal) : EReal :=
  Ideal.exp (M - stepM M a) * L + ∑ r : Fin 1024, Ideal.exp (a r - stepM M a)

/-- The running pair after the first n blocks (n ≤ 4), from (-inf, 0). -/
def runML (a : Fin 4 → Fin 1024 → EReal) : (n : Nat) → n ≤ 4 → EReal × EReal
  | 0, _ => (ninf, zero32)
  | n + 1, h => (stepM (runML a n (Nat.le_of_succ_le h)).1 (a ⟨n, h⟩),
                 stepL (runML a n (Nat.le_of_succ_le h)).1 (runML a n (Nat.le_of_succ_le h)).2 (a ⟨n, h⟩))

/-- The log-sum-exp of a column, as the four-block recurrence ends: the maximum plus the log of the sum. -/
def lseOf (a : Fin 4 → Fin 1024 → EReal) : EReal :=
  (runML a 4 (Nat.le_refl 4)).1 + Ideal.log (runML a 4 (Nat.le_refl 4)).2

/-- The column of scores under key row s in batch b, by block and row. -/
def col (Q K : Sq.Idx → EReal) (Mk : Sm.Idx → BitVec 32) (b : Fin 4) (s : Fin 4096) : Fin 4 → Fin 1024 → EReal :=
  fun j r => sc Q K Mk b (row j r) s

/-- The log-sum-exp array [4, 1, 4096]: over the query rows, per batch and key row. -/
def lse (Q K : Sq.Idx → EReal) (Mk : Sm.Idx → BitVec 32) : Sl.Idx → EReal :=
  fun i => lseOf (col Q K Mk (i 0) (i 2))

/-- Block j's contribution to the output at (b, q, k): the sum over the block's key rows of
    exp (score - log-sum-exp) times the value entry. -/
def blockDot (Q K V : Sq.Idx → EReal) (Mk : Sm.Idx → BitVec 32) (Ls : Sl.Idx → EReal) (b : Fin 4) (q : Fin 4096) (k : Fin 64)
    (j : Fin 4) : EReal :=
  ∑ s : Fin 1024, Ideal.exp (sc Q K Mk b q (row j s) - Ls (ix3 b (0 : Fin 1) (row j s))) * V (ix3 b (row j s) k)

/-- The output [4, 4096, 64]: the four blocks' contributions added to zero in order. -/
def out (Q K V : Sq.Idx → EReal) (Mk : Sm.Idx → BitVec 32) (Ls : Sl.Idx → EReal) : Sq.Idx → EReal :=
  fun i => (((zero32 + blockDot Q K V Mk Ls (i 0) (i 1) (i 2) 0) + blockDot Q K V Mk Ls (i 0) (i 1) (i 2) 1)
      + blockDot Q K V Mk Ls (i 0) (i 1) (i 2) 2) + blockDot Q K V Mk Ls (i 0) (i 1) (i 2) 3

end Cert.AttnSpec

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.Val0.lean ====
/-
  Region 0 (the three linear projections), the value: each output array after the region is the projection of its
  three input arrays, index by index, at the ideal values.

  The body's product at a point is the block of rows of x against all the rows of W plus the bias row; the block of
  rows at point t is rows 1024 t to 1024 t + 1023 of x, and the output's block at point t is the same rows of the
  output, so the sixteen blocks are the restrictions of one function of the whole arrays and they cover the output.
-/
import proofs.«102296_j40982577938503_1_alg».proof.Proof.Reg0
import proofs.«102296_j40982577938503_1_alg».proof.Proof.AttnSpec
import proofs.«102296_j40982577938503_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Val0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The body's products at coordinates -/

/-- Row p of a block of x against row q of W, plus the bias at q. -/
def lin (x : Vec Ideal S1024x1024 .f32) (w : Vec Ideal S64x1024 .f32) (b : Vec Ideal S1x64 .f32) (p : Fin 1024) (q : Fin 64) : EReal :=
  (∑ d : Fin 1024, x (ix2 p d) * w (ix2 q d)) + b (ix2 (0 : Fin 1) q)

/-- The product of a block of rows with the transposed weights, at coordinates: the rounding to the narrower format is
    the identity at the ideal values, the transpose swaps the coordinates, the contraction runs over the shared axis. -/
theorem prod_apply (x : FVec Ideal S1024x1024 .f32) (w : FVec Ideal S64x1024 .f32) (p : Fin 1024) (q : Fin 64) :
    (matmul (F := Ideal) dot_S1024x1024_S1024x64_S1024x64_1_0_0_1_n_n none
        (truncf (F := Ideal) .bf16 (shapeCast S1024x1024 x shapeCasts_S1024x1024_S1024x1024) bitsLt_bf16_f32)
        (transpose S1024x64 [1, 0] (truncf (F := Ideal) .bf16 w bitsLt_bf16_f32) transposes_S64x1024_p1_0_S1024x64)
        (constant (F := Ideal) S1024x64 .f32 0x00000000#32) : FVec Ideal S1024x64 .f32) (ix2 p q)
      = ∑ d : Fin 1024, x (ix2 p d) * w (ix2 q d) := by
  refine (Cert.Lib.PlainDot.matmul_zero_apply (R := 1024) (K := 1024) (C := 64) _ rfl none _ _ (ix2 p q)).trans ?_
  unfold Cert.Lib.PlainDot.mm
  refine Finset.sum_congr rfl fun d _ => ?_
  have el : Cert.Lib.PlainDot.rowIdx (K := 1024) (ix2 p q) d = ix2 p d :=
    funext fun a => Fin.ext (by match a with | ⟨0, _⟩ => rfl | ⟨1, _⟩ => rfl)
  have er : Cert.Lib.PlainDot.colIdx (K := 1024) (ix2 p q) d = ix2 d q :=
    funext fun a => Fin.ext (by match a with | ⟨0, _⟩ => rfl | ⟨1, _⟩ => rfl)
  rw [el, er]
  refine congrArg₂ (· * ·) ?_ ?_
  · exact (truncf_apply (ψ := .bf16) _ bitsLt_bf16_f32 _).trans (congrFun (shapeCast_self x _) _)
  · exact (transpose_ix2_apply _ _ d q).trans (truncf_apply (ψ := .bf16) _ bitsLt_bf16_f32 _)

/-- The bias row broadcast over the block's rows, at coordinates. -/
theorem bias_apply (b : FVec Ideal S1x64 .f32) (p : Fin 1024) (q : Fin 64) :
    (broadcastTo S1024x64 (shapeCast S1x64 b shapeCasts_S1x64_S1x64) broadcasts_S1x64_S1024x64 : FVec Ideal S1024x64 .f32) (ix2 p q) = b (ix2 (0 : Fin 1) q) :=
  (broadcastTo_1b_ab_apply _ _ p q).trans (congrFun (shapeCast_self b _) _)

theorem pay5_apply (x : Vec Ideal S1024x1024 .f32) (w : Vec Ideal S64x1024 .f32) (b : Vec Ideal S1x64 .f32) (p : Fin 1024) (q : Fin 64) :
    k0_pay5 x w b (ix2 p q) = lin x w b p q := by
  unfold k0_pay5 lin
  dsimp only
  refine (truncf_apply (ψ := .bf16) _ bitsLt_bf16_f32 _).trans ((addf_apply _ _ _).trans ?_)
  exact congrArg₂ (· + ·) (prod_apply x w p q) (bias_apply b p q)

theorem pay3_apply (x : Vec Ideal S1024x1024 .f32) (w : Vec Ideal S64x1024 .f32) (b : Vec Ideal S1x64 .f32) (p : Fin 1024) (q : Fin 64) :
    k0_pay1 (k0_pay3 x w b) (ix2 p q) = lin x w b p q := by
  unfold k0_pay1 k0_pay3 lin
  dsimp only
  refine (truncf_apply (ψ := .bf16) _ bitsLt_bf16_f32 _).trans ((addf_apply _ _ _).trans ?_)
  exact congrArg₂ (· + ·) (prod_apply x w p q) (bias_apply b p q)

theorem pay4_apply (x : Vec Ideal S1024x1024 .f32) (w : Vec Ideal S64x1024 .f32) (b : Vec Ideal S1x64 .f32) (p : Fin 1024) (q : Fin 64) :
    k0_pay2 (k0_pay4 x w b) (ix2 p q) = lin x w b p q := by
  unfold k0_pay2 k0_pay4 lin
  dsimp only
  refine (truncf_apply (ψ := .bf16) _ bitsLt_bf16_f32 _).trans ((addf_apply _ _ _).trans ?_)
  exact congrArg₂ (· + ·) (prod_apply x w p q) (bias_apply b p q)

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The block's product at a row and a column is the projection at an index of the whole array, when the block's row
    there is the array's row at the index and the weights' row and the bias entry are those of the index's column. -/
theorem lin_eq_proj (X : Cert.AttnSpec.Sx.Idx → EReal) (W : Cert.AttnSpec.Sw.Idx → EReal) (B : Cert.AttnSpec.Sb.Idx → EReal)
    (x : Vec Ideal S1024x1024 .f32) (w : Vec Ideal S64x1024 .f32) (b : Vec Ideal S1x64 .f32)
    (p : Fin 1024) (q : Fin 64) (i : Cert.AttnSpec.Sp.Idx)
    (hx : ∀ d : Fin 1024, x (ix2 p d) = X (ix2 (i 0) d))
    (hw : ∀ d : Fin 1024, w (ix2 q d) = W (ix2 (i 1) d))
    (hb : b (ix2 (0 : Fin 1) q) = B (ix2 (0 : Fin 1) (i 1))) :
    lin x w b p q = Cert.AttnSpec.proj X W B i := by
  unfold lin Cert.AttnSpec.proj
  rw [hb]
  exact congrArg (· + B (ix2 (0 : Fin 1) (i 1))) (Finset.sum_congr rfl fun d _ => by rw [hx d, hw d])

/-- The printed index maps, decided over the grid: a block of rows of x and of an output is block t along the rows;
    the weights and the bias rows are one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- Every block of rows is some point's. -/
theorem idx_onto : ∀ q0 : Fin 16, ∃ t : Fin cfg0.N, t.val = q0.val :=
  (by decide +kernel : ∀ q0 : Fin 16, ∃ t : Fin grid0.N, t.val = q0.val)

/-! ## Output window 9 -/

/-- What point t writes back is block t of the projection of the arrays as the region finds them. -/
theorem flushed9_eq (c : Dev nD) (t : Fin cfg0.N) :
    (Reg0.dat (F := Ideal) V c).flushed 9 t
      = ((cfg0.win 9).blk t).view.read (Elt Ideal) (Cert.AttnSpec.proj (V c main_v0) (V c main_arg4) (V c main_v3)) := by
  show (cfg0.win 9).cut (grid0.coords t) ((Reg0.dat (F := Ideal) V c).after 9 t) = _
  rw [Reg0.after9]
  unfold Reg0.out9
  rw [View.canon_unit_zero hz]
  simp only [View.ld_unit_zero (S := S1024x1024) hz, View.ld_unit_zero (S := S64x1024) hz, View.ld_unit_zero (S := S1x64) hz]
  obtain ⟨a0, a1, a2, a3, a4, a5, a6, a7, a8, a9, a10, a11, a12, a13, a14, a15, a16, a17, a18, a19, a20, a21, a22, a23⟩ := idx_facts t
  funext j
  have hj0 : (j 0).val < 1024 := (j 0).isLt
  have hj1 : (j 1).val < 64 := (j 1).isLt
  have hj : j = ix2 (⟨(j 0).val, hj0⟩ : Fin 1024) (⟨(j 1).val, hj1⟩ : Fin 64) :=
    funext fun a => Fin.ext (by match a with | ⟨0, _⟩ => rfl | ⟨1, _⟩ => rfl)
  show k0_pay5 (Reg0.iblk V c 0 t) (Reg0.iblk V c 3 t) (Reg0.iblk V c 4 t) j
    = Cert.AttnSpec.proj (V c main_v0) (V c main_arg4) (V c main_v3) (((cfg0.win 9).blk t).view.emb j)
  refine (congrArg (k0_pay5 (Reg0.iblk V c 0 t) (Reg0.iblk V c 3 t) (Reg0.iblk V c 4 t)) hj).trans ?_
  refine (pay5_apply (Reg0.iblk V c 0 t) (Reg0.iblk V c 3 t) (Reg0.iblk V c 4 t) ⟨(j 0).val, hj0⟩ ⟨(j 1).val, hj1⟩).trans ?_
  refine lin_eq_proj (V c main_v0) (V c main_arg4) (V c main_v3) (Reg0.iblk V c 0 t) (Reg0.iblk V c 3 t) (Reg0.iblk V c 4 t) ⟨(j 0).val, hj0⟩ ⟨(j 1).val, hj1⟩
    (((cfg0.win 9).blk t).view.emb j) (fun d => ?_) (fun d => ?_) ?_
  · show V c main_v0 (((cfg0.win 0).blk t).view.emb (ix2 (⟨(j 0).val, hj0⟩ : Fin 1024) d))
      = V c main_v0 (ix2 ((((cfg0.win 9).blk t).view.emb j) 0) d)
    refine congrArg (V c main_v0) (funext fun a => Fin.ext ?_)
    match a with
    | ⟨0, _⟩ => show win0_0.index t (0 : Fin 2) * 1024 + 1 * (j 0).val = win0_9.index t (0 : Fin 2) * 1024 + 1 * (j 0).val; omega
    | ⟨1, _⟩ => show win0_0.index t (1 : Fin 2) * 1024 + 1 * d.val = d.val; omega
  · show V c main_arg4 (((cfg0.win 3).blk t).view.emb (ix2 (⟨(j 1).val, hj1⟩ : Fin 64) d))
      = V c main_arg4 (ix2 ((((cfg0.win 9).blk t).view.emb j) 1) d)
    refine congrArg (V c main_arg4) (funext fun a => Fin.ext ?_)
    match a with
    | ⟨0, _⟩ => show win0_3.index t (0 : Fin 2) * 64 + 1 * (j 1).val = win0_9.index t (1 : Fin 2) * 64 + 1 * (j 1).val; omega
    | ⟨1, _⟩ => show win0_3.index t (1 : Fin 2) * 1024 + 1 * d.val = d.val; omega
  · show V c main_v3 (((cfg0.win 4).blk t).view.emb (ix2 (0 : Fin 1) (⟨(j 1).val, hj1⟩ : Fin 64)))
      = V c main_v3 (ix2 (0 : Fin 1) ((((cfg0.win 9).blk t).view.emb j) 1))
    refine congrArg (V c main_v3) (funext fun a => Fin.ext ?_)
    match a with
    | ⟨0, _⟩ => show win0_4.index t (0 : Fin 2) * 1 + 1 * 0 = 0; omega
    | ⟨1, _⟩ => show win0_4.index t (1 : Fin 2) * 64 + 1 * (j 1).val = win0_9.index t (1 : Fin 2) * 64 + 1 * (j 1).val; omega

/-- An index of the array is in point t's block iff each coordinate is in the block's range on its axis. -/
theorem mem_blk9 (t : Fin cfg0.N) (i : S16384x64.Idx) :
    i ∈ ((cfg0.win 9).blk t).view.set ↔ ∀ a : Fin 2, win0_9.index t a * S1024x64.size a ≤ (i a).val ∧ (i a).val < win0_9.index t a * S1024x64.size a + S1024x64.size a := by
  show i ∈ ((View.whole main_v6_0).slice (win0_9.rect t)).set ↔ _
  rw [View.set_slice_whole, Rect.mem_set_unit]
  exact Iff.rfl

/-- Every index of the array is in the block of the point its row block names. -/
theorem cover9 (i : S16384x64.Idx) : ∃ t : Fin cfg0.N, (cfg0.win 9).flush t = true ∧ i ∈ ((cfg0.win 9).blk t).view.set := by
  have hi0 : (i 0).val < 16384 := (i 0).isLt
  have hi1 : (i 1).val < 64 := (i 1).isLt
  obtain ⟨t, ht⟩ := idx_onto ⟨(i 0).val / 1024, by omega⟩
  have ht' : t.val = (i 0).val / 1024 := ht
  obtain ⟨a0, a1, a2, a3, a4, a5, a6, a7, a8, a9, a10, a11, a12, a13, a14, a15, a16, a17, a18, a19, a20, a21, a22, a23⟩ := idx_facts t
  refine ⟨t, flush0_9 t, ?_⟩
  rw [mem_blk9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 64 ≤ (i 1).val ∧ (i 1).val < win0_9.index t (1 : Fin 2) * 64 + 64; omega

/-- The array after the region: the projection of the three arrays as the region finds them. -/
theorem value9 (c : Dev nD) :
    (Reg0.dat (F := Ideal) V c).arrAt 9 cfg0.N = Cert.AttnSpec.proj (V c main_v0) (V c main_arg4) (V c main_v3) :=
  (Reg0.dat (F := Ideal) V c).arrAt_eq_of_cover 9 (Cert.AttnSpec.proj (V c main_v0) (V c main_arg4) (V c main_v3))
    (fun t _ => flushed9_eq V c t) (cover9)

/-! ## Output window 10 -/

/-- What point t writes back is block t of the projection of the arrays as the region finds them. -/
theorem flushed10_eq (c : Dev nD) (t : Fin cfg0.N) :
    (Reg0.dat (F := Ideal) V c).flushed 10 t
      = ((cfg0.win 10).blk t).view.read (Elt Ideal) (Cert.AttnSpec.proj (V c main_v1) (V c main_arg6) (V c main_v4)) := by
  show (cfg0.win 10).cut (grid0.coords t) ((Reg0.dat (F := Ideal) V c).after 10 t) = _
  rw [Reg0.after10]
  unfold Reg0.out10
  rw [View.canon_unit_zero hz]
  simp only [View.ld_unit_zero (S := S1024x1024) hz, View.ld_unit_zero (S := S64x1024) hz, View.ld_unit_zero (S := S1x64) hz]
  obtain ⟨a0, a1, a2, a3, a4, a5, a6, a7, a8, a9, a10, a11, a12, a13, a14, a15, a16, a17, a18, a19, a20, a21, a22, a23⟩ := idx_facts t
  funext j
  have hj0 : (j 0).val < 1024 := (j 0).isLt
  have hj1 : (j 1).val < 64 := (j 1).isLt
  have hj : j = ix2 (⟨(j 0).val, hj0⟩ : Fin 1024) (⟨(j 1).val, hj1⟩ : Fin 64) :=
    funext fun a => Fin.ext (by match a with | ⟨0, _⟩ => rfl | ⟨1, _⟩ => rfl)
  show k0_pay1 (k0_pay3 (Reg0.iblk V c 1 t) (Reg0.iblk V c 5 t) (Reg0.iblk V c 6 t)) j
    = Cert.AttnSpec.proj (V c main_v1) (V c main_arg6) (V c main_v4) (((cfg0.win 10).blk t).view.emb j)
  refine (congrArg (k0_pay1 (k0_pay3 (Reg0.iblk V c 1 t) (Reg0.iblk V c 5 t) (Reg0.iblk V c 6 t))) hj).trans ?_
  refine (pay3_apply (Reg0.iblk V c 1 t) (Reg0.iblk V c 5 t) (Reg0.iblk V c 6 t) ⟨(j 0).val, hj0⟩ ⟨(j 1).val, hj1⟩).trans ?_
  refine lin_eq_proj (V c main_v1) (V c main_arg6) (V c main_v4) (Reg0.iblk V c 1 t) (Reg0.iblk V c 5 t) (Reg0.iblk V c 6 t) ⟨(j 0).val, hj0⟩ ⟨(j 1).val, hj1⟩
    (((cfg0.win 10).blk t).view.emb j) (fun d => ?_) (fun d => ?_) ?_
  · show V c main_v1 (((cfg0.win 1).blk t).view.emb (ix2 (⟨(j 0).val, hj0⟩ : Fin 1024) d))
      = V c main_v1 (ix2 ((((cfg0.win 10).blk t).view.emb j) 0) d)
    refine congrArg (V c main_v1) (funext fun a => Fin.ext ?_)
    match a with
    | ⟨0, _⟩ => show win0_1.index t (0 : Fin 2) * 1024 + 1 * (j 0).val = win0_10.index t (0 : Fin 2) * 1024 + 1 * (j 0).val; omega
    | ⟨1, _⟩ => show win0_1.index t (1 : Fin 2) * 1024 + 1 * d.val = d.val; omega
  · show V c main_arg6 (((cfg0.win 5).blk t).view.emb (ix2 (⟨(j 1).val, hj1⟩ : Fin 64) d))
      = V c main_arg6 (ix2 ((((cfg0.win 10).blk t).view.emb j) 1) d)
    refine congrArg (V c main_arg6) (funext fun a => Fin.ext ?_)
    match a with
    | ⟨0, _⟩ => show win0_5.index t (0 : Fin 2) * 64 + 1 * (j 1).val = win0_10.index t (1 : Fin 2) * 64 + 1 * (j 1).val; omega
    | ⟨1, _⟩ => show win0_5.index t (1 : Fin 2) * 1024 + 1 * d.val = d.val; omega
  · show V c main_v4 (((cfg0.win 6).blk t).view.emb (ix2 (0 : Fin 1) (⟨(j 1).val, hj1⟩ : Fin 64)))
      = V c main_v4 (ix2 (0 : Fin 1) ((((cfg0.win 10).blk t).view.emb j) 1))
    refine congrArg (V c main_v4) (funext fun a => Fin.ext ?_)
    match a with
    | ⟨0, _⟩ => show win0_6.index t (0 : Fin 2) * 1 + 1 * 0 = 0; omega
    | ⟨1, _⟩ => show win0_6.index t (1 : Fin 2) * 64 + 1 * (j 1).val = win0_10.index t (1 : Fin 2) * 64 + 1 * (j 1).val; omega

/-- An index of the array is in point t's block iff each coordinate is in the block's range on its axis. -/
theorem mem_blk10 (t : Fin cfg0.N) (i : S16384x64.Idx) :
    i ∈ ((cfg0.win 10).blk t).view.set ↔ ∀ a : Fin 2, win0_10.index t a * S1024x64.size a ≤ (i a).val ∧ (i a).val < win0_10.index t a * S1024x64.size a + S1024x64.size a := by
  show i ∈ ((View.whole main_v6_1).slice (win0_10.rect t)).set ↔ _
  rw [View.set_slice_whole, Rect.mem_set_unit]
  exact Iff.rfl

/-- Every index of the array is in the block of the point its row block names. -/
theorem cover10 (i : S16384x64.Idx) : ∃ t : Fin cfg0.N, (cfg0.win 10).flush t = true ∧ i ∈ ((cfg0.win 10).blk t).view.set := by
  have hi0 : (i 0).val < 16384 := (i 0).isLt
  have hi1 : (i 1).val < 64 := (i 1).isLt
  obtain ⟨t, ht⟩ := idx_onto ⟨(i 0).val / 1024, by omega⟩
  have ht' : t.val = (i 0).val / 1024 := ht
  obtain ⟨a0, a1, a2, a3, a4, a5, a6, a7, a8, a9, a10, a11, a12, a13, a14, a15, a16, a17, a18, a19, a20, a21, a22, a23⟩ := idx_facts t
  refine ⟨t, flush0_10 t, ?_⟩
  rw [mem_blk10]
  intro a
  match a with
  | ⟨0, _⟩ => show win0_10.index t (0 : Fin 2) * 1024 ≤ (i 0).val ∧ (i 0).val < win0_10.index t (0 : Fin 2) * 1024 + 1024; omega
  | ⟨1, _⟩ => show win0_10.index t (1 : Fin 2) * 64 ≤ (i 1).val ∧ (i 1).val < win0_10.index t (1 : Fin 2) * 64 + 64; omega

/-- The array after the region: the projection of the three arrays as the region finds them. -/
theorem value10 (c : Dev nD) :
    (Reg0.dat (F := Ideal) V c).arrAt 10 cfg0.N = Cert.AttnSpec.proj (V c main_v1) (V c main_arg6) (V c main_v4) :=
  (Reg0.dat (F := Ideal) V c).arrAt_eq_of_cover 10 (Cert.AttnSpec.proj (V c main_v1) (V c main_arg6) (V c main_v4))
    (fun t _ => flushed10_eq V c t) (cover10)

/-! ## Output window 11 -/

/-- What point t writes back is block t of the projection of the arrays as the region finds them. -/
theorem flushed11_eq (c : Dev nD) (t : Fin cfg0.N) :
    (Reg0.dat (F := Ideal) V c).flushed 11 t
      = ((cfg0.win 11).blk t).view.read (Elt Ideal) (Cert.AttnSpec.proj (V c main_v2) (V c main_arg8) (V c main_v5)) := by
  show (cfg0.win 11).cut (grid0.coords t) ((Reg0.dat (F := Ideal) V c).after 11 t) = _
  rw [Reg0.after11]
  unfold Reg0.out11
  rw [View.canon_unit_zero hz]
  simp only [View.ld_unit_zero (S := S1024x1024) hz, View.ld_unit_zero (S := S64x1024) hz, View.ld_unit_zero (S := S1x64) hz]
  obtain ⟨a0, a1, a2, a3, a4, a5, a6, a7, a8, a9, a10, a11, a12, a13, a14, a15, a16, a17, a18, a19, a20, a21, a22, a23⟩ := idx_facts t
  funext j
  have hj0 : (j 0).val < 1024 := (j 0).isLt
  have hj1 : (j 1).val < 64 := (j 1).isLt
  have hj : j = ix2 (⟨(j 0).val, hj0⟩ : Fin 1024) (⟨(j 1).val, hj1⟩ : Fin 64) :=
    funext fun a => Fin.ext (by match a with | ⟨0, _⟩ => rfl | ⟨1, _⟩ => rfl)
  show k0_pay2 (k0_pay4 (Reg0.iblk V c 2 t) (Reg0.iblk V c 7 t) (Reg0.iblk V c 8 t)) j
    = Cert.AttnSpec.proj (V c main_v2) (V c main_arg8) (V c main_v5) (((cfg0.win 11).blk t).view.emb j)
  refine (congrArg (k0_pay2 (k0_pay4 (Reg0.iblk V c 2 t) (Reg0.iblk V c 7 t) (Reg0.iblk V c 8 t))) hj).trans ?_
  refine (pay4_apply (Reg0.iblk V c 2 t) (Reg0.iblk V c 7 t) (Reg0.iblk V c 8 t) ⟨(j 0).val, hj0⟩ ⟨(j 1).val, hj1⟩).trans ?_
  refine lin_eq_proj (V c main_v2) (V c main_arg8) (V c main_v5) (Reg0.iblk V c 2 t) (Reg0.iblk V c 7 t) (Reg0.iblk V c 8 t) ⟨(j 0).val, hj0⟩ ⟨(j 1).val, hj1⟩
    (((cfg0.win 11).blk t).view.emb j) (fun d => ?_) (fun d => ?_) ?_
  · show V c main_v2 (((cfg0.win 2).blk t).view.emb (ix2 (⟨(j 0).val, hj0⟩ : Fin 1024) d))
      = V c main_v2 (ix2 ((((cfg0.win 11).blk t).view.emb j) 0) d)
    refine congrArg (V c main_v2) (funext fun a => Fin.ext ?_)
    match a with
    | ⟨0, _⟩ => show win0_2.index t (0 : Fin 2) * 1024 + 1 * (j 0).val = win0_11.index t (0 : Fin 2) * 1024 + 1 * (j 0).val; omega
    | ⟨1, _⟩ => show win0_2.index t (1 : Fin 2) * 1024 + 1 * d.val = d.val; omega
  · show V c main_arg8 (((cfg0.win 7).blk t).view.emb (ix2 (⟨(j 1).val, hj1⟩ : Fin 64) d))
      = V c main_arg8 (ix2 ((((cfg0.win 11).blk t).view.emb j) 1) d)
    refine congrArg (V c main_arg8) (funext fun a => Fin.ext ?_)
    match a with
    | ⟨0, _⟩ => show win0_7.index t (0 : Fin 2) * 64 + 1 * (j 1).val = win0_11.index t (1 : Fin 2) * 64 + 1 * (j 1).val; omega
    | ⟨1, _⟩ => show win0_7.index t (1 : Fin 2) * 1024 + 1 * d.val = d.val; omega
  · show V c main_v5 (((cfg0.win 8).blk t).view.emb (ix2 (0 : Fin 1) (⟨(j 1).val, hj1⟩ : Fin 64)))
      = V c main_v5 (ix2 (0 : Fin 1) ((((cfg0.win 11).blk t).view.emb j) 1))
    refine congrArg (V c main_v5) (funext fun a => Fin.ext ?_)
    match a with
    | ⟨0, _⟩ => show win0_8.index t (0 : Fin 2) * 1 + 1 * 0 = 0; omega
    | ⟨1, _⟩ => show win0_8.index t (1 : Fin 2) * 64 + 1 * (j 1).val = win0_11.index t (1 : Fin 2) * 64 + 1 * (j 1).val; omega

/-- An index of the array is in point t's block iff each coordinate is in the block's range on its axis. -/
theorem mem_blk11 (t : Fin cfg0.N) (i : S16384x64.Idx) :
    i ∈ ((cfg0.win 11).blk t).view.set ↔ ∀ a : Fin 2, win0_11.index t a * S1024x64.size a ≤ (i a).val ∧ (i a).val < win0_11.index t a * S1024x64.size a + S1024x64.size a := by
  show i ∈ ((View.whole main_v6_2).slice (win0_11.rect t)).set ↔ _
  rw [View.set_slice_whole, Rect.mem_set_unit]
  exact Iff.rfl

/-- Every index of the array is in the block of the point its row block names. -/
theorem cover11 (i : S16384x64.Idx) : ∃ t : Fin cfg0.N, (cfg0.win 11).flush t = true ∧ i ∈ ((cfg0.win 11).blk t).view.set := by
  have hi0 : (i 0).val < 16384 := (i 0).isLt
  have hi1 : (i 1).val < 64 := (i 1).isLt
  obtain ⟨t, ht⟩ := idx_onto ⟨(i 0).val / 1024, by omega⟩
  have ht' : t.val = (i 0).val / 1024 := ht
  obtain ⟨a0, a1, a2, a3, a4, a5, a6, a7, a8, a9, a10, a11, a12, a13, a14, a15, a16, a17, a18, a19, a20, a21, a22, a23⟩ := idx_facts t
  refine ⟨t, flush0_11 t, ?_⟩
  rw [mem_blk11]
  intro a
  match a with
  | ⟨0, _⟩ => show win0_11.index t (0 : Fin 2) * 1024 ≤ (i 0).val ∧ (i 0).val < win0_11.index t (0 : Fin 2) * 1024 + 1024; omega
  | ⟨1, _⟩ => show win0_11.index t (1 : Fin 2) * 64 ≤ (i 1).val ∧ (i 1).val < win0_11.index t (1 : Fin 2) * 64 + 64; omega

/-- The array after the region: the projection of the three arrays as the region finds them. -/
theorem value11 (c : Dev nD) :
    (Reg0.dat (F := Ideal) V c).arrAt 11 cfg0.N = Cert.AttnSpec.proj (V c main_v2) (V c main_arg8) (V c main_v5) :=
  (Reg0.dat (F := Ideal) V c).arrAt_eq_of_cover 11 (Cert.AttnSpec.proj (V c main_v2) (V c main_arg8) (V c main_v5))
    (fun t _ => flushed11_eq V c t) (cover11)

end Cert.KernelIdeal.Val0

end
-- ==== Proof.Val1Pay.lean ====
import proofs.«102296_j40982577938503_1_alg».proof.Proof.Gen.KernelIdeal.Skeleton
import proofs.«102296_j40982577938503_1_alg».proof.Proof.AttnSpec
import proofs.«102296_j40982577938503_1_alg».proof.Proof.LibPlainDot
import Idealize.ShloMosaic.Lib.ValueLayout
import Idealize.ShloMosaic.PureOps.Ideal.Laws

/-!
# The payloads of the running-maximum / running-sum pass, read at an index on the extended reals

A block of 1024 query rows against a block of 1024 key rows gives a 1024 × 1024 matrix of masked, scaled scores; the
pass keeps, per key column, the running maximum and the running exponential sum of the column, and at the end the
maximum plus the log of the sum. Each vector operation of the body is read here at explicit coordinates.
-/

set_option maxRecDepth 16384

noncomputable section

namespace Cert.KernelIdeal.Val1Pay

open Idealize.ShloMosaic Idealize.ShloMosaic.ValueIdx
open Cert.KernelIdeal Cert.KernelIdeal.Gen
open scoped BigOperators

variable {φ : FTy}

/-- The maximum over the first axis of an `[a, b]` matrix, read at column `s`: the fold of `max`, from the
    accumulator's value, over the column's entries. -/
theorem multiReduction_max_col {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (s : Fin b) :
    multiReduction .maximumf [0] ⟨1, ![b]⟩ src acc h hφ hacc (ix1 s)
      = (Finset.univ : Finset (Fin a)).fold max (Ideal.ofBits φ acc) (fun r => src (ix2 r s)) :=
  (Ideal.multiReduction_maximumf_single src acc h hφ hacc (ix1 s)).trans
    (congrArg (fun f => (Finset.univ : Finset (Fin a)).fold max (Ideal.ofBits φ acc) f) (funext fun k =>
      congrArg src (funext fun ax => Fin.ext (by
        match ax with
        | ⟨0, _⟩ => rfl
        | ⟨1, _⟩ => rfl))))

/-- The sum over the first axis of an `[a, b]` matrix, read at column `s`: the sum of the column's entries. -/
theorem multiReduction_add_col {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (s : Fin b) :
    multiReduction .add [0] ⟨1, ![b]⟩ src acc h hφ hacc (ix1 s) = ∑ r : Fin a, src (ix2 r s) :=
  (Ideal.multiReduction_add_single src acc h hφ hacc (ix1 s)).trans
    (Finset.sum_congr rfl fun k _ => congrArg src (funext fun ax => Fin.ext (by
      match ax with
      | ⟨0, _⟩ => rfl
      | ⟨1, _⟩ => rfl)))

/-- The masked, scaled score of row `r` of the query block against row `s` of the key block. -/
def score (x0 x1 : Vec Ideal S1x1024x64 .bf16) (x2 : Vec Ideal S1x1024x1024 .i32) (r s : Fin 1024) : EReal :=
  (∑ k : Fin 64, x0 (ix3 (0 : Fin 1) r k) * x1 (ix3 (0 : Fin 1) s k)) * AttnSpec.c125 + AttnSpec.maskAdd (x2 (ix3 (0 : Fin 1) r s))

/-- The score matrix of the body at (r, s). -/
theorem pay6_apply (x0 x1 : Vec Ideal S1x1024x64 .bf16) (x2 : Vec Ideal S1x1024x1024 .i32) (r s : Fin 1024) :
    k1_pay6 (F := Ideal) x0 x1 x2 (ix2 r s) = score x0 x1 x2 r s := by
  unfold k1_pay6 score
  dsimp only
  refine congrArg₂ (fun a b : EReal => a + b) (congrArg₂ (fun a b : EReal => a * b) ?_ rfl) ?_
  · refine (Cert.Lib.PlainDot.matmul_zero_apply _ rfl none _ _ (ix2 r s)).trans ?_
    unfold Cert.Lib.PlainDot.mm
    refine Finset.sum_congr rfl fun k _ => ?_
    have el : Cert.Lib.PlainDot.rowIdx (R := 1024) (K := 64) (C := 1024) (ix2 r s) k = ix2 r k :=
      funext fun a => Fin.ext (by match a with | ⟨0, _⟩ => rfl | ⟨1, _⟩ => rfl)
    have er : Cert.Lib.PlainDot.colIdx (R := 1024) (K := 64) (C := 1024) (ix2 r s) k = ix2 k s :=
      funext fun a => Fin.ext (by match a with | ⟨0, _⟩ => rfl | ⟨1, _⟩ => rfl)
    rw [el, er]
    refine congrArg₂ (fun a b : EReal => a * b) (shapeCast_1ab_ab_apply x0 _ r k) ?_
    exact (transpose_ix2_apply _ _ k s).trans (shapeCast_1ab_ab_apply x1 _ s k)
  · exact congrArg (fun w => Scalar.select (IntOp.cmpi .eq w 0#32) AttnSpec.negBig AttnSpec.zero32) (shapeCast_1ab_ab_apply x2 _ r s)

/-- The new running maximum at lane `s`: the spec's step on the column of scores. -/
theorem pay7_apply (x0 x1 : Vec Ideal S1x1024x64 .bf16) (x2 : Vec Ideal S1x1024x1024 .i32) (m : Vec Ideal S1x1024 .f32) (s : Fin 1024) :
    k1_pay7 (F := Ideal) x0 x1 x2 m (ix2 (0 : Fin 1) s) = AttnSpec.stepM (m (ix2 (0 : Fin 1) s)) (fun r => score x0 x1 x2 r s) := by
  unfold k1_pay7
  refine congrArg (fun z : EReal => max (m (ix2 (0 : Fin 1) s)) z) ?_
  refine (shapeCast_a_1a_apply _ _ (0 : Fin 1) s).trans ?_
  refine (multiReduction_max_col _ _ _ _ _ s).trans ?_
  exact congrArg (fun f => (Finset.univ : Finset (Fin 1024)).fold max AttnSpec.ninf f) (funext fun r => pay6_apply x0 x1 x2 r s)

/-- The block's exponential sum at lane `s`, against the new maximum. -/
theorem pay9_apply (x0 x1 : Vec Ideal S1x1024x64 .bf16) (x2 : Vec Ideal S1x1024x1024 .i32) (m : Vec Ideal S1x1024 .f32) (s : Fin 1024) :
    k1_pay9 (F := Ideal) x0 x1 x2 m (ix1 s)
      = ∑ r : Fin 1024, Ideal.exp (score x0 x1 x2 r s - AttnSpec.stepM (m (ix2 (0 : Fin 1) s)) (fun r => score x0 x1 x2 r s)) := by
  unfold k1_pay9
  refine (multiReduction_add_col _ _ _ _ _ s).trans ?_
  refine Finset.sum_congr rfl fun r _ => ?_
  refine congrArg Ideal.exp (congrArg₂ (fun a b : EReal => a - b) (pay6_apply x0 x1 x2 r s) ?_)
  exact (broadcastTo_1b_ab_apply _ _ r s).trans (pay7_apply x0 x1 x2 m s)

/-- What the body leaves in the running-maximum buffer, at lane `s`. -/
theorem step0_apply (x0 x1 : Vec Ideal S1x1024x64 .bf16) (x2 : Vec Ideal S1x1024x1024 .i32) (m : Vec Ideal S1x1024 .f32) (s : Fin 1024) :
    k1_pay2 (F := Ideal) (k1_pay7 x0 x1 x2 m) (ix2 (0 : Fin 1) s) = AttnSpec.stepM (m (ix2 (0 : Fin 1) s)) (fun r => score x0 x1 x2 r s) := by
  unfold k1_pay2
  exact (shapeCast_apply _ _ (ix2 (0 : Fin 1) s) (ix2 (0 : Fin 1) s) rfl).trans (pay7_apply x0 x1 x2 m s)

/-- What the body leaves in the running-sum buffer, at lane `s`. -/
theorem step1_apply (x0 x1 : Vec Ideal S1x1024x64 .bf16) (x2 : Vec Ideal S1x1024x1024 .i32) (m l : Vec Ideal S1x1024 .f32) (s : Fin 1024) :
    k1_pay1 (F := Ideal) (k1_pay8 x0 x1 x2 m m l) (k1_pay9 x0 x1 x2 m) (ix2 (0 : Fin 1) s)
      = AttnSpec.stepL (m (ix2 (0 : Fin 1) s)) (l (ix2 (0 : Fin 1) s)) (fun r => score x0 x1 x2 r s) := by
  unfold k1_pay1 k1_pay8
  refine (shapeCast_apply _ _ (ix2 (0 : Fin 1) s) (ix2 (0 : Fin 1) s) rfl).trans ?_
  refine congrArg₂ (fun a b : EReal => a + b) ?_ ?_
  · exact congrArg₂ (fun a b : EReal => a * b)
      (congrArg Ideal.exp (congrArg (fun z : EReal => m (ix2 (0 : Fin 1) s) - z) (pay7_apply x0 x1 x2 m s))) rfl
  · exact (shapeCast_a_1a_apply _ _ (0 : Fin 1) s).trans (pay9_apply x0 x1 x2 m s)

/-- The stored output at lane `s`: the maximum plus the log of the sum. -/
theorem pay3_apply (v43 v44 : Vec Ideal S1x1024 .f32) (s : Fin 1024) :
    k1_pay3 (F := Ideal) v43 v44 (ix3 (0 : Fin 1) (0 : Fin 1) s) = v43 (ix2 (0 : Fin 1) s) + Ideal.log (v44 (ix2 (0 : Fin 1) s)) := by
  unfold k1_pay3
  exact shapeCast_ab_1ab_apply _ _ (0 : Fin 1) (0 : Fin 1) s

/-- The reset values. -/
theorem pay4_apply (s : Fin 1024) : k1_pay4 (F := Ideal) (ix2 (0 : Fin 1) s) = AttnSpec.ninf := by
  unfold k1_pay4
  exact (shapeCast_apply _ _ (ix2 (0 : Fin 1) s) (ix2 (0 : Fin 1) s) rfl).trans rfl
theorem pay5_apply (s : Fin 1024) : k1_pay5 (F := Ideal) (ix2 (0 : Fin 1) s) = AttnSpec.zero32 := by
  unfold k1_pay5
  exact (shapeCast_apply _ _ (ix2 (0 : Fin 1) s) (ix2 (0 : Fin 1) s) rfl).trans rfl

end Cert.KernelIdeal.Val1Pay

end
-- ==== Proof.Val1Lane.lean ====
import proofs.«102296_j40982577938503_1_alg».proof.Proof.Reg1
import proofs.«102296_j40982577938503_1_alg».proof.Proof.Val1Pay
import Idealize.ShloMosaic.Lib.Pipeline.Value

/-!
# The log-sum-exp pass: what each case leaves, the grid, and one step of the recurrence at a lane

Per batch and key column the pass runs over the four blocks of 1024 query rows: it resets a running maximum and a
running exponential sum at the first block, updates both at every block, and at the fourth stores the maximum plus
the log of the sum. Point by point the two scratch buffers hold, lane by lane, the pair the four-block recurrence of the
specification reaches after as many blocks; so the output array ends holding the specification's log-sum-exp.
-/

set_option maxRecDepth 16384

noncomputable section

namespace Cert.KernelIdeal.Val1Lane

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Reg1 Cert.KernelIdeal.Val1Pay
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case leaves, as the body's payloads of the blocks -/

section Pieces
variable {F : FTy → Type} [FloatOps F]

theorem sB0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : ¬cond_1 i)
    (x0 : Vec F S1x1024x64 .bf16) (x1 : Vec F S1x1024x64 .bf16) (x2 : Vec F S1x1024x1024 .i32) (xs0 : Vec F S1x1024 .f32) (xs1 : Vec F S1x1024 .f32) :
    sout_B_0 c i arg3 harg3 arg4 harg4 arg5 harg5 arg6 harg6 arg7 harg7 arg8 harg8 hc0 hc1 x0 x1 x2 xs0 xs1 = k1_pay2 (k1_pay7 x0 x1 x2 xs0) := by
  unfold sout_B_0
  rw [View.read_writes_eq_canon _ _ _ (scover_B_0 c i arg3 harg3 arg4 harg4 arg5 harg5 arg6 harg6 arg7 harg7 arg8 harg8 hc0 hc1 x0 x1 x2 xs0 xs1)]
  unfold kernelRun_B
  dsimp only
  sl_unfold_words
  rw [View.canon_unit_zero (S := S1x1024) hz2]
  simp only [View.readCov_unit_zero (S := S1x1024) _ hz2, View.readAt_eq_ld, harg3.read_unread, harg4.read_unread, harg5.read_unread, harg7.read_unread, harg8.read_unread, View.ld_unit_zero (S := S1x1024x64) hz3, View.ld_unit_zero (S := S1x1024x1024) hz3, View.ld_unit_zero (S := S1x1024) hz2]

theorem sB1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : ¬cond_1 i)
    (x0 : Vec F S1x1024x64 .bf16) (x1 : Vec F S1x1024x64 .bf16) (x2 : Vec F S1x1024x1024 .i32) (xs0 : Vec F S1x1024 .f32) (xs1 : Vec F S1x1024 .f32) :
    sout_B_1 c i arg3 harg3 arg4 harg4 arg5 harg5 arg6 harg6 arg7 harg7 arg8 harg8 hc0 hc1 x0 x1 x2 xs0 xs1 = k1_pay1 (k1_pay8 x0 x1 x2 xs0 xs0 xs1) (k1_pay9 x0 x1 x2 xs0) := by
  unfold sout_B_1
  rw [View.read_writes_eq_canon _ _ _ (scover_B_1 c i arg3 harg3 arg4 harg4 arg5 harg5 arg6 harg6 arg7 harg7 arg8 harg8 hc0 hc1 x0 x1 x2 xs0 xs1)]
  unfold kernelRun_B
  dsimp only
  sl_unfold_words
  rw [View.canon_unit_zero (S := S1x1024) hz2]
  simp only [View.readCov_unit_zero (S := S1x1024) _ hz2, View.readAt_eq_ld, harg3.read_unread, harg4.read_unread, harg5.read_unread, harg7.read_unread, harg8.read_unread, View.ld_unit_zero (S := S1x1024x64) hz3, View.ld_unit_zero (S := S1x1024x1024) hz3, View.ld_unit_zero (S := S1x1024) hz2]

theorem sC0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : cond_1 i)
    (x0 : Vec F S1x1024x64 .bf16) (x1 : Vec F S1x1024x64 .bf16) (x2 : Vec F S1x1024x1024 .i32) (xs0 : Vec F S1x1024 .f32) (xs1 : Vec F S1x1024 .f32) :
    sout_C_0 c i arg3 harg3 arg4 harg4 arg5 harg5 arg6 harg6 arg7 harg7 arg8 harg8 hc0 hc1 x0 x1 x2 xs0 xs1 = k1_pay2 (k1_pay7 x0 x1 x2 xs0) := by
  unfold sout_C_0
  rw [View.read_writes_eq_canon _ _ _ (scover_C_0 c i arg3 harg3 arg4 harg4 arg5 harg5 arg6 harg6 arg7 harg7 arg8 harg8 hc0 hc1 x0 x1 x2 xs0 xs1)]
  unfold kernelRun_C
  dsimp only
  sl_unfold_words
  rw [View.canon_unit_zero (S := S1x1024) hz2]
  simp only [View.readCov_unit_zero (S := S1x1024) _ hz2, View.readAt_eq_ld, harg3.read_unread, harg4.read_unread, harg5.read_unread, harg7.read_unread, harg8.read_unread, View.ld_unit_zero (S := S1x1024x64) hz3, View.ld_unit_zero (S := S1x1024x1024) hz3, View.ld_unit_zero (S := S1x1024) hz2]

theorem sC1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : cond_1 i)
    (x0 : Vec F S1x1024x64 .bf16) (x1 : Vec F S1x1024x64 .bf16) (x2 : Vec F S1x1024x1024 .i32) (xs0 : Vec F S1x1024 .f32) (xs1 : Vec F S1x1024 .f32) :
    sout_C_1 c i arg3 harg3 arg4 harg4 arg5 harg5 arg6 harg6 arg7 harg7 arg8 harg8 hc0 hc1 x0 x1 x2 xs0 xs1 = k1_pay1 (k1_pay8 x0 x1 x2 xs0 xs0 xs1) (k1_pay9 x0 x1 x2 xs0) := by
  unfold sout_C_1
  rw [View.read_writes_eq_canon _ _ _ (scover_C_1 c i arg3 harg3 arg4 harg4 arg5 harg5 arg6 harg6 arg7 harg7 arg8 harg8 hc0 hc1 x0 x1 x2 xs0 xs1)]
  unfold kernelRun_C
  dsimp only
  sl_unfold_words
  rw [View.canon_unit_zero (S := S1x1024) hz2]
  simp only [View.readCov_unit_zero (S := S1x1024) _ hz2, View.readAt_eq_ld, harg3.read_unread, harg4.read_unread, harg5.read_unread, harg7.read_unread, harg8.read_unread, View.ld_unit_zero (S := S1x1024x64) hz3, View.ld_unit_zero (S := S1x1024x1024) hz3, View.ld_unit_zero (S := S1x1024) hz2]

theorem sA0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : cond_0 i) (hc1 : ¬cond_1 i)
    (x0 : Vec F S1x1024x64 .bf16) (x1 : Vec F S1x1024x64 .bf16) (x2 : Vec F S1x1024x1024 .i32) :
    sout_A_0 c i arg3 harg3 arg4 harg4 arg5 harg5 arg6 harg6 arg7 harg7 arg8 harg8 hc0 hc1 x0 x1 x2 = k1_pay2 (k1_pay7 x0 x1 x2 k1_pay4) := by
  unfold sout_A_0
  rw [View.read_writes_eq_canon _ _ _ (scover_A_0 c i arg3 harg3 arg4 harg4 arg5 harg5 arg6 harg6 arg7 harg7 arg8 harg8 hc0 hc1 x0 x1 x2)]
  unfold kernelRun_A
  dsimp only
  sl_unfold_words
  rw [View.canon_cons_unit_zero (S := S1x1024) hz2]
  simp only [View.readCov_unit_zero (S := S1x1024) _ hz2, View.readAt_eq_ld, harg3.read_unread, harg4.read_unread, harg5.read_unread, harg7.read_unread, harg8.read_unread, View.ld_unit_zero (S := S1x1024x64) hz3, View.ld_unit_zero (S := S1x1024x1024) hz3, View.ld_unit_zero (S := S1x1024) hz2]

theorem sA1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : cond_0 i) (hc1 : ¬cond_1 i)
    (x0 : Vec F S1x1024x64 .bf16) (x1 : Vec F S1x1024x64 .bf16) (x2 : Vec F S1x1024x1024 .i32) :
    sout_A_1 c i arg3 harg3 arg4 harg4 arg5 harg5 arg6 harg6 arg7 harg7 arg8 harg8 hc0 hc1 x0 x1 x2 = k1_pay1 (k1_pay8 x0 x1 x2 k1_pay4 k1_pay4 k1_pay5) (k1_pay9 x0 x1 x2 k1_pay4) := by
  unfold sout_A_1
  rw [View.read_writes_eq_canon _ _ _ (scover_A_1 c i arg3 harg3 arg4 harg4 arg5 harg5 arg6 harg6 arg7 harg7 arg8 harg8 hc0 hc1 x0 x1 x2)]
  unfold kernelRun_A
  dsimp only
  sl_unfold_words
  rw [View.canon_cons_unit_zero (S := S1x1024) hz2]
  simp only [View.readCov_unit_zero (S := S1x1024) _ hz2, View.readAt_eq_ld, harg3.read_unread, harg4.read_unread, harg5.read_unread, harg7.read_unread, harg8.read_unread, View.ld_unit_zero (S := S1x1024x64) hz3, View.ld_unit_zero (S := S1x1024x1024) hz3, View.ld_unit_zero (S := S1x1024) hz2]

theorem oC3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x1024 .i32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1024 .f32) (harg8 : arg8.IsWhole) (hc0 : ¬cond_0 i) (hc1 : cond_1 i)
    (x0 : Vec F S1x1024x64 .bf16) (x1 : Vec F S1x1024x64 .bf16) (x2 : Vec F S1x1024x1024 .i32) (xs0 : Vec F S1x1024 .f32) (xs1 : Vec F S1x1024 .f32) :
    out_C_3 c i arg3 harg3 arg4 harg4 arg5 harg5 arg6 harg6 arg7 harg7 arg8 harg8 hc0 hc1 x0 x1 x2 xs0 xs1 = k1_pay3 (k1_pay2 (k1_pay7 x0 x1 x2 xs0)) (k1_pay1 (k1_pay8 x0 x1 x2 xs0 xs0 xs1) (k1_pay9 x0 x1 x2 xs0)) := by
  unfold out_C_3
  rw [View.read_writes_eq_canon _ _ _ (cover_C_3 c i arg3 harg3 arg4 harg4 arg5 harg5 arg6 harg6 arg7 harg7 arg8 harg8 hc0 hc1 x0 x1 x2 xs0 xs1)]
  unfold kernelRun_C
  dsimp only
  sl_unfold_words
  rw [View.canon_unit_zero (S := S1x1x1024) hz3]
  simp only [View.readCov_unit_zero (S := S1x1024) _ hz2, View.readAt_eq_ld, harg3.read_unread, harg4.read_unread, harg5.read_unread, harg7.read_unread, harg8.read_unread, View.ld_unit_zero (S := S1x1024x64) hz3, View.ld_unit_zero (S := S1x1024x1024) hz3, View.ld_unit_zero (S := S1x1024) hz2]

end Pieces

/-! ## The grid: which blocks a point reads and writes -/

variable (V : (c : Dev nD) → (b : Ref sig .tc) → Buf (Elt Ideal) ((c : Thread nD τ).loc b))

/-- The printed index maps, decided over the grid: point t = 16·b + 4·s + j reads query block (b, j), key block (b, s),
    mask block (b, j, s) and writes output block (b, 0, s). -/
theorem idx_facts : ∀ t : Fin cfg1.N,
    win1_0.index t (0 : Fin 3) = t.val / 16 ∧ win1_0.index t (1 : Fin 3) = t.val % 4 ∧ win1_0.index t (2 : Fin 3) = 0
    ∧ win1_1.index t (0 : Fin 3) = t.val / 16 ∧ win1_1.index t (1 : Fin 3) = t.val / 4 % 4 ∧ win1_1.index t (2 : Fin 3) = 0
    ∧ win1_2.index t (0 : Fin 3) = t.val / 16 ∧ win1_2.index t (1 : Fin 3) = t.val % 4 ∧ win1_2.index t (2 : Fin 3) = t.val / 4 % 4
    ∧ win1_3.index t (0 : Fin 3) = t.val / 16 ∧ win1_3.index t (1 : Fin 3) = 0 ∧ win1_3.index t (2 : Fin 3) = t.val / 4 % 4 :=
  (by decide +kernel : ∀ t : Fin grid1.N, _)

/-- The batch, the key block and the query block of a point. -/
def bOf (t : Fin cfg1.N) : Fin 4 := ⟨t.val / 16, by have := lt_of_lt_of_eq t.isLt N_1; omega⟩
def sOf (t : Fin cfg1.N) : Fin 4 := ⟨t.val / 4 % 4, by omega⟩
def jOf (t : Fin cfg1.N) : Fin 4 := ⟨t.val % 4, by omega⟩

/-- The query block at a point, entry (r, k): the query array at row r of block j of batch b. -/
theorem blk0 (c : Dev nD) (t : Fin cfg1.N) (r : Fin 1024) (k : Fin 64) :
    (iblk V c 0 t : Vec Ideal S1x1024x64 .bf16) (ix3 (0 : Fin 1) r k)
      = (V c main_v7 : AttnSpec.Sq.Idx → EReal) (ix3 (bOf t) (AttnSpec.row (jOf t) r) k) := by
  obtain ⟨e0, e1, e2, -⟩ := idx_facts t
  show V c main_v7 (((cfg1.win 0).blk t).view.emb (ix3 (0 : Fin 1) r k)) = _
  refine congrArg (V c main_v7) (funext fun a => Fin.ext ?_)
  match a with
  | ⟨0, _⟩ => show win1_0.index t (0 : Fin 3) * 1 + 1 * 0 = t.val / 16; omega
  | ⟨1, _⟩ => show win1_0.index t (1 : Fin 3) * 1024 + 1 * r.val = 1024 * (t.val % 4) + r.val; omega
  | ⟨2, _⟩ => show win1_0.index t (2 : Fin 3) * 64 + 1 * k.val = k.val; omega

/-- The key block at a point, entry (s, k): the key array at row s of block s' of batch b. -/
theorem blk1 (c : Dev nD) (t : Fin cfg1.N) (s : Fin 1024) (k : Fin 64) :
    (iblk V c 1 t : Vec Ideal S1x1024x64 .bf16) (ix3 (0 : Fin 1) s k)
      = (V c main_v8 : AttnSpec.Sq.Idx → EReal) (ix3 (bOf t) (AttnSpec.row (sOf t) s) k) := by
  obtain ⟨-, -, -, e0, e1, e2, -⟩ := idx_facts t
  show V c main_v8 (((cfg1.win 1).blk t).view.emb (ix3 (0 : Fin 1) s k)) = _
  refine congrArg (V c main_v8) (funext fun a => Fin.ext ?_)
  match a with
  | ⟨0, _⟩ => show win1_1.index t (0 : Fin 3) * 1 + 1 * 0 = t.val / 16; omega
  | ⟨1, _⟩ => show win1_1.index t (1 : Fin 3) * 1024 + 1 * s.val = 1024 * (t.val / 4 % 4) + s.val; omega
  | ⟨2, _⟩ => show win1_1.index t (2 : Fin 3) * 64 + 1 * k.val = k.val; omega

/-- The mask block at a point, entry (r, s). -/
theorem blk2 (c : Dev nD) (t : Fin cfg1.N) (r s : Fin 1024) :
    (iblk V c 2 t : Vec Ideal S1x1024x1024 .i32) (ix3 (0 : Fin 1) r s)
      = (V c main_arg3 : AttnSpec.Sm.Idx → BitVec 32) (ix3 (bOf t) (AttnSpec.row (jOf t) r) (AttnSpec.row (sOf t) s)) := by
  obtain ⟨-, -, -, -, -, -, e0, e1, e2, -⟩ := idx_facts t
  show V c main_arg3 (((cfg1.win 2).blk t).view.emb (ix3 (0 : Fin 1) r s)) = _
  refine congrArg (V c main_arg3) (funext fun a => Fin.ext ?_)
  match a with
  | ⟨0, _⟩ => show win1_2.index t (0 : Fin 3) * 1 + 1 * 0 = t.val / 16; omega
  | ⟨1, _⟩ => show win1_2.index t (1 : Fin 3) * 1024 + 1 * r.val = 1024 * (t.val % 4) + r.val; omega
  | ⟨2, _⟩ => show win1_2.index t (2 : Fin 3) * 1024 + 1 * s.val = 1024 * (t.val / 4 % 4) + s.val; omega

/-- The column of scores a point's lane s belongs to: under key row s of the point's key block, in its batch. -/
def colAt (c : Dev nD) (t : Fin cfg1.N) (s : Fin 1024) : Fin 4 → Fin 1024 → EReal :=
  AttnSpec.col (V c main_v7) (V c main_v8) (V c main_arg3) (bOf t) (AttnSpec.row (sOf t) s)

/-- The block's score at (r, s) is the specification's, at the rows the blocks hold. -/
theorem score_at (c : Dev nD) (t : Fin cfg1.N) (r s : Fin 1024) :
    score (iblk V c 0 t) (iblk V c 1 t) (iblk V c 2 t) r s = AttnSpec.sc (V c main_v7) (V c main_v8) (V c main_arg3) (bOf t) (AttnSpec.row (jOf t) r) (AttnSpec.row (sOf t) s) := by
  unfold score AttnSpec.sc
  exact congrArg₂ (fun a b : EReal => a + b)
    (congrArg (fun z : EReal => z * AttnSpec.c125)
      (Finset.sum_congr rfl fun k _ => congrArg₂ (fun a b : EReal => a * b) (blk0 V c t r k) (blk1 V c t s k)))
    (congrArg AttnSpec.maskAdd (blk2 V c t r s))

/-- So lane s of the block's score matrix is block j of the column, j the point's query block. -/
theorem score_col (c : Dev nD) (t : Fin cfg1.N) (s : Fin 1024) (j : Fin 4) (hj : j.val = t.val % 4) :
    (fun r => score (iblk V c 0 t) (iblk V c 1 t) (iblk V c 2 t) r s) = colAt V c t s j := by
  funext r
  refine (score_at V c t r s).trans ?_
  have e : jOf t = j := Fin.ext hj.symm
  rw [e]; rfl

/-! ## The four-block recurrence, total in the number of blocks -/

/-- The specification's running pair after n blocks, for any n (past four blocks: a value nothing reads). -/
def RM (a : Fin 4 → Fin 1024 → EReal) (n : ℕ) : EReal × EReal := if h : n ≤ 4 then AttnSpec.runML a n h else (0, 0)

theorem RM_zero (a : Fin 4 → Fin 1024 → EReal) : RM a 0 = (AttnSpec.ninf, AttnSpec.zero32) := by
  have h0 : RM a 0 = AttnSpec.runML a 0 (Nat.zero_le 4) := dif_pos _
  rw [h0]; rfl

theorem RM_succ (a : Fin 4 → Fin 1024 → EReal) (k : ℕ) (hk : k < 4) :
    RM a (k + 1) = (AttnSpec.stepM (RM a k).1 (a ⟨k, hk⟩), AttnSpec.stepL (RM a k).1 (RM a k).2 (a ⟨k, hk⟩)) := by
  have h1 : RM a (k + 1) = AttnSpec.runML a (k + 1) hk := dif_pos _
  have h0 : RM a k = AttnSpec.runML a k (Nat.le_of_lt hk) := dif_pos _
  rw [h1, h0]; rfl

theorem RM_four (a : Fin 4 → Fin 1024 → EReal) : RM a 4 = AttnSpec.runML a 4 (Nat.le_refl 4) := dif_pos _

/-- ONE STEP, at lane s of a point: from scratch contents holding the pair after k blocks, k the point's query block,
    the body leaves the pair after k + 1 blocks. -/
theorem lane_step (c : Dev nD) (t : Fin cfg1.N) (s : Fin 1024) (m l : Vec Ideal S1x1024 .f32) (k : ℕ) (hk : k < 4)
    (hkt : k = t.val % 4)
    (hm : m (ix2 (0 : Fin 1) s) = (RM (colAt V c t s) k).1) (hl : l (ix2 (0 : Fin 1) s) = (RM (colAt V c t s) k).2) :
    k1_pay2 (F := Ideal) (k1_pay7 (iblk V c 0 t) (iblk V c 1 t) (iblk V c 2 t) m) (ix2 (0 : Fin 1) s) = (RM (colAt V c t s) (k + 1)).1
    ∧ k1_pay1 (F := Ideal) (k1_pay8 (iblk V c 0 t) (iblk V c 1 t) (iblk V c 2 t) m m l) (k1_pay9 (iblk V c 0 t) (iblk V c 1 t) (iblk V c 2 t) m) (ix2 (0 : Fin 1) s) = (RM (colAt V c t s) (k + 1)).2 := by
  rw [RM_succ _ k hk, ← hm, ← hl, ← score_col V c t s ⟨k, hk⟩ hkt]
  exact ⟨step0_apply _ _ _ m s, step1_apply _ _ _ m l s⟩

/-- Within a run of four points the column does not change. -/
theorem colAt_succ (c : Dev nD) (n : ℕ) (h : n + 1 < cfg1.N) (hne : ¬(n + 1) % 4 = 0) (s : Fin 1024) :
    colAt V c ⟨n, Nat.lt_of_succ_lt h⟩ s = colAt V c ⟨n + 1, h⟩ s := by
  have hb : bOf ⟨n, Nat.lt_of_succ_lt h⟩ = bOf ⟨n + 1, h⟩ := Fin.ext (by show n / 16 = (n + 1) / 16; omega)
  have hs : sOf ⟨n, Nat.lt_of_succ_lt h⟩ = sOf ⟨n + 1, h⟩ := Fin.ext (by show n / 4 % 4 = (n + 1) / 4 % 4; omega)
  unfold colAt; rw [hb, hs]

end Cert.KernelIdeal.Val1Lane

end
-- ==== Proof.Val1.lean ====
import proofs.«102296_j40982577938503_1_alg».proof.Proof.Val1Lane
import Idealize.ShloMosaic.Lib.Pipeline.Value

/-!
# The value of the log-sum-exp pass

Per batch and key column the pass runs over the four blocks of 1024 query rows: it resets a running maximum and a
running exponential sum at the first block, updates both at every block, and at the fourth stores the maximum plus
the log of the sum. Point by point the two scratch buffers hold, lane by lane, the pair the four-block recurrence of the
specification reaches after as many blocks; so the output array ends holding the specification's log-sum-exp.
-/

set_option maxRecDepth 16384

noncomputable section

namespace Cert.KernelIdeal.Val1

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Reg1 Cert.KernelIdeal.Val1Pay Cert.KernelIdeal.Val1Lane
open scoped BigOperators

variable (V : (c : Dev nD) → (b : Ref sig .tc) → Buf (Elt Ideal) ((c : Thread nD τ).loc b))

/-! ## The invariant: what the two scratch buffers hold after each point -/

/-- After point n, at every lane, the running maximum and the running sum are the recurrence's pair after
    (n mod 4) + 1 blocks of the lane's column. -/
theorem inv (c : Dev nD) : ∀ (n : ℕ) (h : n < cfg1.N) (s : Fin 1024),
    (outsAt V c n h).2.1 (ix2 (0 : Fin 1) s) = (RM (colAt V c ⟨n, h⟩ s) (n % 4 + 1)).1
    ∧ (outsAt V c n h).2.2 (ix2 (0 : Fin 1) s) = (RM (colAt V c ⟨n, h⟩ s) (n % 4 + 1)).2 := by
  -- the first point of a run: the reset values are the pair after no block
  have caseA : ∀ (t : Fin cfg1.N) (h0 : t.val % 4 = 0) (h1 : ¬t.val % 4 = 3) (s : Fin 1024),
      (outsAt V c t.val t.isLt).2.1 (ix2 (0 : Fin 1) s) = (RM (colAt V c t s) (t.val % 4 + 1)).1
      ∧ (outsAt V c t.val t.isLt).2.2 (ix2 (0 : Fin 1) s) = (RM (colAt V c t s) (t.val % 4 + 1)).2 := by
    intro t h0 h1 s
    have key := lane_step V c t s (k1_pay4 (F := Ideal)) (k1_pay5 (F := Ideal)) 0 (by decide) h0.symm
      (by rw [RM_zero]; exact pay4_apply s) (by rw [RM_zero]; exact pay5_apply s)
    have e0 := sA0 (F := Ideal) c (grid1.coords t) (ms_0 t) (hs_0 t) (ms_1 t) (hs_1 t) (ms_2 t) (hs_2 t) (ms_3 t) (hs_3 t) scM_0 (Memref.isWhole_whole _) scM_1 (Memref.isWhole_whole _) ((hcond_0 t).mpr h0) (fun h => h1 ((hcond_1 t).mp h)) (iblk V c 0 t) (iblk V c 1 t) (iblk V c 2 t)
    have e1 := sA1 (F := Ideal) c (grid1.coords t) (ms_0 t) (hs_0 t) (ms_1 t) (hs_1 t) (ms_2 t) (hs_2 t) (ms_3 t) (hs_3 t) scM_0 (Memref.isWhole_whole _) scM_1 (Memref.isWhole_whole _) ((hcond_0 t).mpr h0) (fun h => h1 ((hcond_1 t).mp h)) (iblk V c 0 t) (iblk V c 1 t) (iblk V c 2 t)
    rw [show t.val % 4 + 1 = 0 + 1 from by omega, outsAt_A V c t h0 h1]
    dsimp only
    rw [e0, e1]
    exact key
  intro n
  induction n with
  | zero => intro hn s; exact caseA ⟨0, hn⟩ (Nat.zero_mod 4) (by show ¬(0 : ℕ) % 4 = 3; omega) s
  | succ n ih =>
    intro hn s
    by_cases h0 : (n + 1) % 4 = 0
    · exact caseA ⟨n + 1, hn⟩ h0 (by show ¬(n + 1) % 4 = 3; omega) s
    · obtain ⟨ihm, ihl⟩ := ih (Nat.lt_of_succ_lt hn) s
      have hcol := colAt_succ V c n hn h0 s
      have hk : (n + 1) % 4 = n % 4 + 1 := by omega
      have key := lane_step V c ⟨n + 1, hn⟩ s (outsAt V c n (Nat.lt_of_succ_lt hn)).2.1 (outsAt V c n (Nat.lt_of_succ_lt hn)).2.2
        ((n + 1) % 4) (Nat.mod_lt _ (by decide)) rfl
        (by rw [← hcol, hk]; exact ihm) (by rw [← hcol, hk]; exact ihl)
      by_cases h1 : (n + 1) % 4 = 3
      ·
        have e0 := sC0 (F := Ideal) c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (outsAt V c (n + 1 - 1) (by omega)).2.1 (outsAt V c (n + 1 - 1) (by omega)).2.2
        have e1 := sC1 (F := Ideal) c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (outsAt V c (n + 1 - 1) (by omega)).2.1 (outsAt V c (n + 1 - 1) (by omega)).2.2
        rw [outsAt_C V c ⟨n + 1, hn⟩ h0 h1]
        dsimp only
        rw [e0, e1]
        exact key
      ·
        have e0 := sB0 (F := Ideal) c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (outsAt V c (n + 1 - 1) (by omega)).2.1 (outsAt V c (n + 1 - 1) (by omega)).2.2
        have e1 := sB1 (F := Ideal) c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (outsAt V c (n + 1 - 1) (by omega)).2.1 (outsAt V c (n + 1 - 1) (by omega)).2.2
        rw [outsAt_B V c ⟨n + 1, hn⟩ h0 h1]
        dsimp only
        rw [e0, e1]
        exact key

/-- At the last point of a run the stored output block is, lane by lane, the log-sum-exp of the lane's column. -/
theorem out_at (c : Dev nD) (t : Fin cfg1.N) (h3 : t.val % 4 = 3) (s : Fin 1024) :
    (outsAt V c t.val t.isLt).1 (ix3 (0 : Fin 1) (0 : Fin 1) s) = AttnSpec.lseOf (colAt V c t s) := by
  obtain ⟨n, hn⟩ := t
  cases n with
  | zero => exfalso; have h30 : (0 : ℕ) % 4 = 3 := h3; omega
  | succ n =>
    have h1 : (n + 1) % 4 = 3 := h3
    have h0 : ¬(n + 1) % 4 = 0 := by omega
    obtain ⟨ihm, ihl⟩ := inv V c n (Nat.lt_of_succ_lt hn) s
    have hcol := colAt_succ V c n hn h0 s
    have hk : (n + 1) % 4 = n % 4 + 1 := by omega
    have key := lane_step V c ⟨n + 1, hn⟩ s (outsAt V c n (Nat.lt_of_succ_lt hn)).2.1 (outsAt V c n (Nat.lt_of_succ_lt hn)).2.2
      ((n + 1) % 4) (Nat.mod_lt _ (by decide)) rfl
      (by rw [← hcol, hk]; exact ihm) (by rw [← hcol, hk]; exact ihl)
    rw [show (n + 1) % 4 + 1 = 4 from by omega, RM_four] at key
    have e3 := oC3 (F := Ideal) c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (outsAt V c (n + 1 - 1) (by omega)).2.1 (outsAt V c (n + 1 - 1) (by omega)).2.2
    rw [outsAt_C V c ⟨n + 1, hn⟩ h0 h1]
    dsimp only
    rw [e3]
    refine (pay3_apply _ _ s).trans ?_
    exact congrArg₂ (fun a b : EReal => a + Ideal.log b) key.1 key.2

/-! ## From the blocks to the array -/

/-- What a writing point writes back is its block of the specification's log-sum-exp array. -/
theorem flushed_eq (c : Dev nD) (t : Fin cfg1.N) (hf : (cfg1.win 3).flush t = true) :
    (dat (F := Ideal) V c).flushed 3 t
      = ((cfg1.win 3).blk t).view.read (Elt Ideal) (AttnSpec.lse (V c main_v7) (V c main_v8) (V c main_arg3)) := by
  have h3 : t.val % 4 = 3 := (flush1_3 t).mp hf
  obtain ⟨-, -, -, -, -, -, -, -, -, e0, e1, e2⟩ := idx_facts t
  show (cfg1.win 3).cut (grid1.coords t) ((dat (F := Ideal) V c).after 3 t) = _
  rw [after_3]
  refine funext fun (j : S1x1x1024.Idx) => ?_
  obtain ⟨s, rfl⟩ : ∃ s : Fin 1024, j = ix3 (0 : Fin 1) (0 : Fin 1) s :=
    ⟨⟨(j 2).val, (j 2).isLt⟩, funext fun a => Fin.ext (by
      match a with
      | ⟨0, _⟩ => (have h : (j 0).val < 1 := (j 0).isLt); show (j 0).val = 0; omega
      | ⟨1, _⟩ => (have h : (j 1).val < 1 := (j 1).isLt); show (j 1).val = 0; omega
      | ⟨2, _⟩ => rfl)⟩
  show (outsAt V c t.val t.isLt).1 (ix3 (0 : Fin 1) (0 : Fin 1) s)
    = AttnSpec.lse (V c main_v7) (V c main_v8) (V c main_arg3) (((cfg1.win 3).blk t).view.emb (ix3 (0 : Fin 1) (0 : Fin 1) s))
  refine (out_at V c t h3 s).trans ?_
  have hb : bOf t = ((((cfg1.win 3).blk t).view.emb (ix3 (0 : Fin 1) (0 : Fin 1) s)) 0 : Fin 4) :=
    Fin.ext (by show t.val / 16 = win1_3.index t (0 : Fin 3) * 1 + 1 * 0; omega)
  have hs : AttnSpec.row (sOf t) s = ((((cfg1.win 3).blk t).view.emb (ix3 (0 : Fin 1) (0 : Fin 1) s)) 2 : Fin 4096) :=
    Fin.ext (by show 1024 * (t.val / 4 % 4) + s.val = win1_3.index t (2 : Fin 3) * 1024 + 1 * s.val; omega)
  exact congrArg₂ (fun (b : Fin 4) (s' : Fin 4096) => AttnSpec.lseOf (AttnSpec.col (V c main_v7) (V c main_v8) (V c main_arg3) b s')) hb hs

/-- Every entry (b, 0, s) of the output array is in the block the point 16·b + 4·(s / 1024) + 3 writes back. -/
theorem cover (i : AttnSpec.Sl.Idx) :
    ∃ t : Fin cfg1.N, (cfg1.win 3).flush t = true ∧ i ∈ ((cfg1.win 3).blk t).view.set := by
  have h0 : (i 0).val < 4 := (i 0).isLt
  have h1 : (i 1).val < 1 := (i 1).isLt
  have h2 : (i 2).val < 4096 := (i 2).isLt
  have hN : cfg1.N = 64 := N_1
  obtain ⟨t, ht⟩ : ∃ t : Fin cfg1.N, t.val = 16 * (i 0).val + 4 * ((i 2).val / 1024) + 3 := ⟨⟨_, by omega⟩, rfl⟩
  obtain ⟨-, -, -, -, -, -, -, -, -, e0, e1, e2⟩ := idx_facts t
  refine ⟨t, (flush1_3 t).mpr (by omega), ?_⟩
  show i ∈ ((View.whole main_v10).slice (win1_3.rect t)).set
  rw [View.set_slice_whole, Rect.mem_set_unit]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1 ≤ (i 1).val ∧ (i 1).val < win1_3.index t (1 : Fin 3) * 1 + 1; omega
  | ⟨2, _⟩ => show win1_3.index t (2 : Fin 3) * 1024 ≤ (i 2).val ∧ (i 2).val < win1_3.index t (2 : Fin 3) * 1024 + 1024; omega

/-- THE VALUE: the output array of the pass ends holding the specification's log-sum-exp of the three arrays the pass reads. -/
theorem value3 (c : Dev nD) :
    (Reg1.dat (F := Ideal) V c).arrAt 3 cfg1.N = Cert.AttnSpec.lse (V c main_v7) (V c main_v8) (V c main_arg3) :=
  (dat (F := Ideal) V c).arrAt_eq_of_cover 3 (AttnSpec.lse (V c main_v7) (V c main_v8) (V c main_arg3)) (flushed_eq V c) (fun i => cover i)

end Cert.KernelIdeal.Val1

end
-- ==== Proof.Val2Pay.lean ====
/- The arithmetic of the third kernel call's body read at an index, at the ideal values: one block step adds to the
   accumulator, at row r and column c, the sum over the block's 1024 key rows s of exp (score (r, s) - lse (s)) times the
   value entry (s, c), the score being the scaled product of query row r with key row s plus what the mask word adds. -/
import proofs.«102296_j40982577938503_1_alg».proof.Proof.Gen.KernelIdeal.Skeleton
import proofs.«102296_j40982577938503_1_alg».proof.Proof.AttnSpec
import proofs.«102296_j40982577938503_1_alg».proof.Proof.LibPlainDot
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.Val2

open Idealize.ShloMosaic Idealize.ShloMosaic.ValueIdx
open Cert.KernelIdeal Cert.KernelIdeal.Gen
open scoped BigOperators

/-- A plain product of an [R, K] array and a [K, C] array at coordinates: the sum over k of left (r, k) times right (k, c). -/
theorem mm_ix2 {R K C : Nat} (x : (⟨2, ![R, K]⟩ : Shape).Idx → EReal) (w : (⟨2, ![K, C]⟩ : Shape).Idx → EReal) (r : Fin R) (c : Fin C) :
    Cert.Lib.PlainDot.mm x w (ix2 r c) = ∑ k : Fin K, x (ix2 r k) * w (ix2 k c) := by
  unfold Cert.Lib.PlainDot.mm
  refine Finset.sum_congr rfl fun k _ => ?_
  have el : Cert.Lib.PlainDot.rowIdx (K := K) (ix2 r c) k = ix2 r k := funext fun a => Fin.ext (by match a with | ⟨0, _⟩ => rfl | ⟨1, _⟩ => rfl)
  have er : Cert.Lib.PlainDot.colIdx (K := K) (ix2 r c) k = ix2 k c := funext fun a => Fin.ext (by match a with | ⟨0, _⟩ => rfl | ⟨1, _⟩ => rfl)
  rw [el, er]

/-- The masked, scaled score of a query block's row r against a key block's row s: the blocks carry a leading unit axis. -/
def bsc (q k : S1x1024x64.Idx → EReal) (mk : S1x1024x1024.Idx → BitVec 32) (r s : Fin 1024) : EReal :=
  (∑ d : Fin 64, q (ix3 (0 : Fin 1) r d) * k (ix3 (0 : Fin 1) s d)) * Cert.AttnSpec.c125 + Cert.AttnSpec.maskAdd (mk (ix3 (0 : Fin 1) r s))

/-- One block's contribution at row r, column c: the sum over the block's key rows of exp (score - lse) times the value entry. -/
def bdot (q k v : S1x1024x64.Idx → EReal) (mk : S1x1024x1024.Idx → BitVec 32) (ls : S1x1x1024.Idx → EReal) (r : Fin 1024) (c : Fin 64) : EReal :=
  ∑ s : Fin 1024, Ideal.exp (bsc q k mk r s - ls (ix3 (0 : Fin 1) (0 : Fin 1) s)) * v (ix3 (0 : Fin 1) s c)

/-- The query block times the transposed key block, at (r, s): the sum over the 64 features of the two rows' products. -/
theorem qk_apply (v3 v5 : Vec Ideal S1x1024x64 .bf16) (r s : Fin 1024) :
    FloatOps.matmul dot_S1024x64_S64x1024_S1024x1024_1_0_0_1_n_n none
        (shapeCast S1024x64 v3 shapeCasts_S1x1024x64_S1024x64 : FVec Ideal S1024x64 .bf16)
        (transpose S64x1024 [1, 0] (shapeCast S1024x64 v5 shapeCasts_S1x1024x64_S1024x64 : FVec Ideal S1024x64 .bf16) transposes_S1024x64_p1_0_S64x1024 : FVec Ideal S64x1024 .bf16)
        (constant S1024x1024 .f32 0x00000000#32) (ix2 r s)
      = ∑ d : Fin 64, v3 (ix3 (0 : Fin 1) r d) * v5 (ix3 (0 : Fin 1) s d) :=
  (Cert.Lib.PlainDot.matmul_zero_apply (R := 1024) (K := 64) (C := 1024) dot_S1024x64_S64x1024_S1024x1024_1_0_0_1_n_n rfl none _ _ (ix2 r s)).trans
    ((mm_ix2 _ _ r s).trans (Finset.sum_congr rfl fun d _ =>
      congrArg₂ (· * ·) (shapeCast_1ab_ab_apply v3 shapeCasts_S1x1024x64_S1024x64 r d)
        ((transpose_ix2_apply _ transposes_S1024x64_p1_0_S64x1024 d s).trans (shapeCast_1ab_ab_apply v5 shapeCasts_S1x1024x64_S1024x64 s d))))

/-- What a mask word adds, read off the block at (r, s). -/
theorem mask_apply (v13 : Vec Ideal S1x1024x1024 .i32) (r s : Fin 1024) :
    (select (cmpi .eq (shapeCast S1024x1024 v13 shapeCasts_S1x1024x1024_S1024x1024 : IVec S1024x1024 32) (broadcast S1024x1024 0#32))
        (broadcast S1024x1024 (Scalar.ofBits .f32 0xCE6E6B28#32 : Ideal .f32)) (broadcast S1024x1024 (Scalar.ofBits .f32 0x00000000#32 : Ideal .f32)) : FVec Ideal S1024x1024 .f32) (ix2 r s)
      = Cert.AttnSpec.maskAdd (v13 (ix3 (0 : Fin 1) r s)) :=
  congrArg Cert.AttnSpec.maskAdd (shapeCast_1ab_ab_apply v13 shapeCasts_S1x1024x1024_S1024x1024 r s)

/-- The log-sum-exp row broadcast over the query rows, at (r, s): the row's entry s. -/
theorem lse_apply (v21 : Vec Ideal S1x1x1024 .f32) (r s : Fin 1024) :
    (broadcastTo S1024x1024 (shapeCast S1x1024 v21 shapeCasts_S1x1x1024_S1x1024 : FVec Ideal S1x1024 .f32) broadcasts_S1x1024_S1024x1024 : FVec Ideal S1024x1024 .f32) (ix2 r s)
      = v21 (ix3 (0 : Fin 1) (0 : Fin 1) s) :=
  (broadcastTo_1b_ab_apply _ broadcasts_S1x1024_S1024x1024 r s).trans (shapeCast_1ab_ab_apply v21 shapeCasts_S1x1x1024_S1x1024 (0 : Fin 1) s)

/-- One block step at an index: the accumulator's entry plus the block's contribution. -/
theorem pay4_apply (v3 v5 v7 : Vec Ideal S1x1024x64 .bf16) (v13 : Vec Ideal S1x1024x1024 .i32) (v21 : Vec Ideal S1x1x1024 .f32)
    (v27 : Vec Ideal S1024x64 .f32) (r : Fin 1024) (c : Fin 64) :
    k2_pay4 (F := Ideal) v3 v5 v7 v13 v21 v27 (ix2 r c) = v27 (ix2 r c) + bdot v3 v5 v7 v13 v21 r c := by
  unfold k2_pay4 bdot
  refine congrArg (fun z => v27 (ix2 r c) + z) ?_
  refine (Cert.Lib.PlainDot.matmul_zero_apply (R := 1024) (K := 1024) (C := 64) dot_S1024x1024_S1024x64_S1024x64_1_0_0_1_n_n rfl none _ _ (ix2 r c)).trans
    ((mm_ix2 _ _ r c).trans (Finset.sum_congr rfl fun s _ => ?_))
  refine congrArg₂ (· * ·) ?_ (shapeCast_1ab_ab_apply v7 shapeCasts_S1x1024x64_S1024x64 s c)
  unfold bsc
  exact congrArg Ideal.exp (congrArg₂ (· - ·)
    (congrArg₂ (· + ·) (congrArg (· * Cert.AttnSpec.c125) (qk_apply v3 v5 r s)) (mask_apply v13 r s))
    (lse_apply v21 r s))

/-- The store into the accumulator writes the step's value as it is. -/
theorem pay1_eq (v29 : FVec Ideal S1024x64 .f32) : k2_pay1 (F := Ideal) v29 = v29 := by
  unfold k2_pay1; exact shapeCast_self _ _

/-- The store into the output block adds the leading unit axis. -/
theorem pay2_apply (v36 : Vec Ideal S1024x64 .f32) (u : Fin 1) (r : Fin 1024) (c : Fin 64) :
    k2_pay2 (F := Ideal) v36 (ix3 u r c) = v36 (ix2 r c) := by
  unfold k2_pay2; exact shapeCast_ab_1ab_apply v36 shapeCasts_S1024x64_S1x1024x64 u r c

/-- The reset stores zero everywhere. -/
theorem pay3_apply (r : Fin 1024) (c : Fin 64) : k2_pay3 (F := Ideal) (ix2 r c) = Cert.AttnSpec.zero32 := by
  unfold k2_pay3; rw [shapeCast_self]; rfl

end Cert.KernelIdeal.Val2

end
-- ==== Proof.Val2Pieces.lean ====
/- What each control case of the third kernel call's body leaves in the accumulator and in the output block, as the body's
   payloads of the blocks it is handed: the first case the step from the zero accumulator, the other two the step from the
   accumulator the point before left, the last case also the accumulator's new contents with a leading unit axis in the
   output block. Generic in the float instance. -/
import proofs.«102296_j40982577938503_1_alg».proof.Proof.Reg2
import Idealize.ShloMosaic.Lib.Pipeline.Value

set_option maxRecDepth 16384

noncomputable section

namespace Cert.KernelIdeal.Val2

open Idealize.ShloMosaic Idealize.ShloMosaic.TcCoe Idealize.ShloMosaic.Tactic
open Idealize.SL Idealize.SL.Sem
open Idealize.ShloMosaic.Pipeline (Dat)
open Cert.KernelIdeal Cert.KernelIdeal.Gen Cert.KernelIdeal.Reg2

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The middle case leaves in the accumulator the block step from what the point before left: its one covering store's
    payload, whose loads read the whole buffers. -/
theorem sout_B_eq (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : ¬cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) :
    sout_B c i arg3 harg3 arg4 harg4 arg5 harg5 arg6 harg6 arg7 harg7 arg8 harg8 arg9 harg9 hc0 hc1 x0 x1 x2 x3 x4 xs0 = k2_pay1 (k2_pay4 x0 x1 x2 x3 x4 xs0) := by
  unfold sout_B
  rw [View.read_writes_eq_canon _ _ _ (scover_B c i arg3 harg3 arg4 harg4 arg5 harg5 arg6 harg6 arg7 harg7 arg8 harg8 arg9 harg9 hc0 hc1 x0 x1 x2 x3 x4 xs0)]
  unfold kernelRun_B
  dsimp only
  rw [View.canon_unit_zero hz2]
  simp only [View.readAt_eq_ld, harg3.read_unread, harg4.read_unread, harg5.read_unread, harg6.read_unread, harg7.read_unread, harg9.read_unread, View.ld_unit_zero (S := S1x1024x64) hz3, View.ld_unit_zero (S := S1x1024x1024) hz3, View.ld_unit_zero (S := S1x1x1024) hz3, View.ld_unit_zero (S := S1024x64) hz2]

/-- The first case stores the zero block, reads it back, and leaves the block step from it. -/
theorem sout_A_eq (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : cond0 i) (hc1 : ¬cond1 i)
    (x0 : Vec F S1x1024x64 .bf16) (x1 : Vec F S1x1024x64 .bf16) (x2 : Vec F S1x1024x64 .bf16) (x3 : Vec F S1x1024x1024 .i32) (x4 : Vec F S1x1x1024 .f32) :
    sout_A c i arg3 harg3 arg4 harg4 arg5 harg5 arg6 harg6 arg7 harg7 arg8 harg8 arg9 harg9 hc0 hc1 x0 x1 x2 x3 x4 = k2_pay1 (k2_pay4 x0 x1 x2 x3 x4 (k2_pay3 (F := F))) := by
  unfold sout_A
  rw [View.read_writes_eq_canon _ _ _ (scover_A c i arg3 harg3 arg4 harg4 arg5 harg5 arg6 harg6 arg7 harg7 arg8 harg8 arg9 harg9 hc0 hc1 x0 x1 x2 x3 x4)]
  unfold kernelRun_A
  dsimp only
  sl_unfold_words
  rw [View.canon_cons_unit_zero (S := S1024x64) hz2, View.readCov_unit_zero (S := S1024x64) _ hz2]
  simp only [View.readAt_eq_ld, harg3.read_unread, harg4.read_unread, harg5.read_unread, harg6.read_unread, harg7.read_unread, harg9.read_unread, View.ld_unit_zero (S := S1x1024x64) hz3, View.ld_unit_zero (S := S1x1024x1024) hz3, View.ld_unit_zero (S := S1x1x1024) hz3, View.ld_unit_zero (S := S1024x64) hz2]

/-- The last case leaves in the accumulator the block step from what the point before left, -/
theorem sout_C_eq (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) :
    sout_C c i arg3 harg3 arg4 harg4 arg5 harg5 arg6 harg6 arg7 harg7 arg8 harg8 arg9 harg9 hc0 hc1 x0 x1 x2 x3 x4 xs0 = k2_pay1 (k2_pay4 x0 x1 x2 x3 x4 xs0) := by
  unfold sout_C
  rw [View.read_writes_eq_canon _ _ _ (scover_C c i arg3 harg3 arg4 harg4 arg5 harg5 arg6 harg6 arg7 harg7 arg8 harg8 arg9 harg9 hc0 hc1 x0 x1 x2 x3 x4 xs0)]
  unfold kernelRun_C
  dsimp only
  sl_unfold_words
  rw [View.canon_unit_zero hz2]
  simp only [View.readAt_eq_ld, harg3.read_unread, harg4.read_unread, harg5.read_unread, harg6.read_unread, harg7.read_unread, harg9.read_unread, View.ld_unit_zero (S := S1x1024x64) hz3, View.ld_unit_zero (S := S1x1024x1024) hz3, View.ld_unit_zero (S := S1x1x1024) hz3, View.ld_unit_zero (S := S1024x64) hz2]

/-- and in the output block the same, read back from the accumulator, with the leading unit axis added. -/
theorem out_C_eq (c : Dev nD) (i : grid2.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .i32) (harg6 : arg6.IsWhole) (arg7 : Memref sig .tc .vmem S1x1x1024 .f32) (harg7 : arg7.IsWhole) (arg8 : Memref sig .tc .vmem S1x1024x64 .f32) (harg8 : arg8.IsWhole) (arg9 : Memref sig .tc .vmem S1024x64 .f32) (harg9 : arg9.IsWhole) (hc0 : ¬cond0 i) (hc1 : cond1 i)
    (x0 : Vec F S1x1024x64 .bf16) (x1 : Vec F S1x1024x64 .bf16) (x2 : Vec F S1x1024x64 .bf16) (x3 : Vec F S1x1024x1024 .i32) (x4 : Vec F S1x1x1024 .f32) (xs0 : Vec F S1024x64 .f32) :
    out_C c i arg3 harg3 arg4 harg4 arg5 harg5 arg6 harg6 arg7 harg7 arg8 harg8 arg9 harg9 hc0 hc1 x0 x1 x2 x3 x4 xs0 = k2_pay2 (k2_pay1 (k2_pay4 x0 x1 x2 x3 x4 xs0)) := by
  unfold out_C
  rw [View.read_writes_eq_canon _ _ _ (cover_C c i arg3 harg3 arg4 harg4 arg5 harg5 arg6 harg6 arg7 harg7 arg8 harg8 arg9 harg9 hc0 hc1 x0 x1 x2 x3 x4 xs0)]
  unfold kernelRun_C
  dsimp only
  sl_unfold_words
  rw [View.canon_unit_zero hz3, View.readCov_unit_zero (S := S1024x64) _ hz2]
  simp only [View.readAt_eq_ld, harg3.read_unread, harg4.read_unread, harg5.read_unread, harg6.read_unread, harg7.read_unread, harg9.read_unread, View.ld_unit_zero (S := S1x1024x64) hz3, View.ld_unit_zero (S := S1x1024x1024) hz3, View.ld_unit_zero (S := S1x1x1024) hz3, View.ld_unit_zero (S := S1024x64) hz2]

/-! ## The same along the grid: what the accumulator and the output block hold after a point, as payloads of the point's blocks -/

variable (V : (c : Dev nD) → (b : Ref sig .tc) → Buf (Elt F) ((c : Thread nD τ).loc b))

/-- After a first point of a run the accumulator holds the block step from zero of the point's blocks. -/
theorem outsAt_snd_A (c : Dev nD) (t : Fin cfg2.N) (h0 : t.val % 4 = 0) (h1 : ¬t.val % 4 = 3) :
    (outsAt V c t.val t.isLt).2 = k2_pay1 (k2_pay4 (iblk V c 0 t) (iblk V c 1 t) (iblk V c 2 t) (iblk V c 3 t) (iblk V c 4 t) (k2_pay3 (F := F))) := by
  rw [outsAt_A V c t h0 h1]
  unfold atA
  dsimp only
  exact sout_A_eq c (grid2.coords t) (ms0 t) (hs0 t) (ms1 t) (hs1 t) (ms2 t) (hs2 t) (ms3 t) (hs3 t) (ms4 t) (hs4 t) (ms5 t) (hs5 t) scM (Memref.isWhole_whole _) ((hcond0 t).mpr h0) (fun h => h1 ((hcond1 t).mp h)) (iblk V c 0 t) (iblk V c 1 t) (iblk V c 2 t) (iblk V c 3 t) (iblk V c 4 t)

/-- After a middle point the accumulator holds the block step from what the point before left. -/
theorem outsAt_snd_B (c : Dev nD) (t : Fin cfg2.N) (h0 : ¬t.val % 4 = 0) (h1 : ¬t.val % 4 = 3) :
    (outsAt V c t.val t.isLt).2 = k2_pay1 (k2_pay4 (iblk V c 0 t) (iblk V c 1 t) (iblk V c 2 t) (iblk V c 3 t) (iblk V c 4 t) (outsAt V c (t.val - 1) (Nat.lt_of_le_of_lt (Nat.sub_le _ _) t.isLt)).2) := by
  rw [outsAt_B V c t h0 h1]
  unfold atB
  dsimp only
  exact sout_B_eq c (grid2.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) (fun h => h1 ((hcond1 t).mp h)) (iblk V c 0 t) (iblk V c 1 t) (iblk V c 2 t) (iblk V c 3 t) (iblk V c 4 t) (outsAt V c (t.val - 1) (Nat.lt_of_le_of_lt (Nat.sub_le _ _) t.isLt)).2

/-- After a last point the accumulator holds the block step from what the point before left, -/
theorem outsAt_snd_C (c : Dev nD) (t : Fin cfg2.N) (h0 : ¬t.val % 4 = 0) (h1 : t.val % 4 = 3) :
    (outsAt V c t.val t.isLt).2 = k2_pay1 (k2_pay4 (iblk V c 0 t) (iblk V c 1 t) (iblk V c 2 t) (iblk V c 3 t) (iblk V c 4 t) (outsAt V c (t.val - 1) (Nat.lt_of_le_of_lt (Nat.sub_le _ _) t.isLt)).2) := by
  rw [outsAt_C V c t h0 h1]
  unfold atC
  dsimp only
  exact sout_C_eq c (grid2.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) ((hcond1 t).mpr h1) (iblk V c 0 t) (iblk V c 1 t) (iblk V c 2 t) (iblk V c 3 t) (iblk V c 4 t) (outsAt V c (t.val - 1) (Nat.lt_of_le_of_lt (Nat.sub_le _ _) t.isLt)).2

/-- and the output block the same with a leading unit axis. -/
theorem outsAt_fst_C (c : Dev nD) (t : Fin cfg2.N) (h0 : ¬t.val % 4 = 0) (h1 : t.val % 4 = 3) :
    (outsAt V c t.val t.isLt).1 = k2_pay2 (k2_pay1 (k2_pay4 (iblk V c 0 t) (iblk V c 1 t) (iblk V c 2 t) (iblk V c 3 t) (iblk V c 4 t) (outsAt V c (t.val - 1) (Nat.lt_of_le_of_lt (Nat.sub_le _ _) t.isLt)).2)) := by
  rw [outsAt_C V c t h0 h1]
  unfold atC
  dsimp only
  exact out_C_eq c (grid2.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) ((hcond1 t).mpr h1) (iblk V c 0 t) (iblk V c 1 t) (iblk V c 2 t) (iblk V c 3 t) (iblk V c 4 t) (outsAt V c (t.val - 1) (Nat.lt_of_le_of_lt (Nat.sub_le _ _) t.isLt)).2

end Cert.KernelIdeal.Val2

end
-- ==== Proof.Val2.lean ====
/- The value of the third kernel call: after its 64 points the output array holds, at (b, q, c), the four key blocks'
   contributions exp (score - lse) * value added to zero in order. Each window's block at a point is read off the
   entry arrays by the point's block indices (batch t / 16, query block t / 4 % 4, key block t % 4); along each run of four points the
   accumulator holds zero plus the first blocks' contributions; the points 4 n + 3 write the finished blocks back, and
   they cover the array. -/
import proofs.«102296_j40982577938503_1_alg».proof.Proof.Reg2
import proofs.«102296_j40982577938503_1_alg».proof.Proof.Val2Pay
import proofs.«102296_j40982577938503_1_alg».proof.Proof.Val2Pieces
import proofs.«102296_j40982577938503_1_alg».proof.Proof.AttnSpec
import Idealize.ShloMosaic.Lib.Pipeline.Value
import Idealize.ShloMosaic.Lib.ValueIdx

set_option maxRecDepth 16384

noncomputable section

namespace Cert.KernelIdeal.Val2

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Reg2
open scoped BigOperators

/-! ## The block indices at a point -/

theorem index_0 : ∀ t : Fin cfg2.N, win2_0.index t 0 = t.val / 16 ∧ win2_0.index t 1 = t.val / 4 % 4 ∧ win2_0.index t 2 = 0 :=
  (by decide +kernel : ∀ t : Fin grid2.N, win2_0.index t 0 = t.val / 16 ∧ win2_0.index t 1 = t.val / 4 % 4 ∧ win2_0.index t 2 = 0)
theorem index_1 : ∀ t : Fin cfg2.N, win2_1.index t 0 = t.val / 16 ∧ win2_1.index t 1 = t.val % 4 ∧ win2_1.index t 2 = 0 :=
  (by decide +kernel : ∀ t : Fin grid2.N, win2_1.index t 0 = t.val / 16 ∧ win2_1.index t 1 = t.val % 4 ∧ win2_1.index t 2 = 0)
theorem index_2 : ∀ t : Fin cfg2.N, win2_2.index t 0 = t.val / 16 ∧ win2_2.index t 1 = t.val % 4 ∧ win2_2.index t 2 = 0 :=
  (by decide +kernel : ∀ t : Fin grid2.N, win2_2.index t 0 = t.val / 16 ∧ win2_2.index t 1 = t.val % 4 ∧ win2_2.index t 2 = 0)
theorem index_3 : ∀ t : Fin cfg2.N, win2_3.index t 0 = t.val / 16 ∧ win2_3.index t 1 = t.val / 4 % 4 ∧ win2_3.index t 2 = t.val % 4 :=
  (by decide +kernel : ∀ t : Fin grid2.N, win2_3.index t 0 = t.val / 16 ∧ win2_3.index t 1 = t.val / 4 % 4 ∧ win2_3.index t 2 = t.val % 4)
theorem index_4 : ∀ t : Fin cfg2.N, win2_4.index t 0 = t.val / 16 ∧ win2_4.index t 1 = 0 ∧ win2_4.index t 2 = t.val % 4 :=
  (by decide +kernel : ∀ t : Fin grid2.N, win2_4.index t 0 = t.val / 16 ∧ win2_4.index t 1 = 0 ∧ win2_4.index t 2 = t.val % 4)
theorem index_5 : ∀ t : Fin cfg2.N, win2_5.index t 0 = t.val / 16 ∧ win2_5.index t 1 = t.val / 4 % 4 ∧ win2_5.index t 2 = 0 :=
  (by decide +kernel : ∀ t : Fin grid2.N, win2_5.index t 0 = t.val / 16 ∧ win2_5.index t 1 = t.val / 4 % 4 ∧ win2_5.index t 2 = 0)

theorem lt64 (t : Fin cfg2.N) : t.val < 64 := lt_of_lt_of_eq t.isLt (show cfg2.N = 64 from N_2)

/-- The batch, the query block and the key block of point `t`. -/
def pb (t : Fin cfg2.N) : Fin 4 := ⟨t.val / 16, by have := lt64 t; omega⟩
def pq (t : Fin cfg2.N) : Fin 4 := ⟨t.val / 4 % 4, by omega⟩
def pj (t : Fin cfg2.N) : Fin 4 := ⟨t.val % 4, by omega⟩

variable {F : FTy → Type} [FloatOps F]
variable (V : (c : Dev nD) → (b : Ref sig .tc) → Buf (Elt F) ((c : Thread nD τ).loc b))

/-! ## The windows' blocks at an index -/

/-- The query block at a point: rows 1024 * (query block) + r of batch b. -/
theorem iblk0_apply (c : Dev nD) (t : Fin cfg2.N) (r : Fin 1024) (d : Fin 64) :
    (iblk V c 0 t : Vec F S1x1024x64 .bf16) (ix3 (0 : Fin 1) r d) = V c main_v7 (ix3 (pb t) (Cert.AttnSpec.row (pq t) r) d) := by
  obtain ⟨h0, h1, h2⟩ := index_0 t
  unfold iblk
  rw [View.read_apply]
  show V c main_v7 _ = V c main_v7 _
  congr 1
  funext a
  apply Fin.ext
  match a with
  | ⟨0, _⟩ => show win2_0.index t 0 * 1 + 1 * 0 = t.val / 16; rw [h0]; omega
  | ⟨1, _⟩ => show win2_0.index t 1 * 1024 + 1 * r.val = 1024 * (t.val / 4 % 4) + r.val; rw [h1]; omega
  | ⟨2, _⟩ => show win2_0.index t 2 * 64 + 1 * d.val = d.val; rw [h2]; omega

/-- The key block at a point: rows 1024 * (key block) + s of batch b. -/
theorem iblk1_apply (c : Dev nD) (t : Fin cfg2.N) (s : Fin 1024) (d : Fin 64) :
    (iblk V c 1 t : Vec F S1x1024x64 .bf16) (ix3 (0 : Fin 1) s d) = V c main_v8 (ix3 (pb t) (Cert.AttnSpec.row (pj t) s) d) := by
  obtain ⟨h0, h1, h2⟩ := index_1 t
  unfold iblk
  rw [View.read_apply]
  show V c main_v8 _ = V c main_v8 _
  congr 1
  funext a
  apply Fin.ext
  match a with
  | ⟨0, _⟩ => show win2_1.index t 0 * 1 + 1 * 0 = t.val / 16; rw [h0]; omega
  | ⟨1, _⟩ => show win2_1.index t 1 * 1024 + 1 * s.val = 1024 * (t.val % 4) + s.val; rw [h1]; omega
  | ⟨2, _⟩ => show win2_1.index t 2 * 64 + 1 * d.val = d.val; rw [h2]; omega

/-- The value block at a point: rows 1024 * (key block) + s of batch b. -/
theorem iblk2_apply (c : Dev nD) (t : Fin cfg2.N) (s : Fin 1024) (d : Fin 64) :
    (iblk V c 2 t : Vec F S1x1024x64 .bf16) (ix3 (0 : Fin 1) s d) = V c main_v9 (ix3 (pb t) (Cert.AttnSpec.row (pj t) s) d) := by
  obtain ⟨h0, h1, h2⟩ := index_2 t
  unfold iblk
  rw [View.read_apply]
  show V c main_v9 _ = V c main_v9 _
  congr 1
  funext a
  apply Fin.ext
  match a with
  | ⟨0, _⟩ => show win2_2.index t 0 * 1 + 1 * 0 = t.val / 16; rw [h0]; omega
  | ⟨1, _⟩ => show win2_2.index t 1 * 1024 + 1 * s.val = 1024 * (t.val % 4) + s.val; rw [h1]; omega
  | ⟨2, _⟩ => show win2_2.index t 2 * 64 + 1 * d.val = d.val; rw [h2]; omega

/-- The mask block at a point: query rows against key rows of batch b. -/
theorem iblk3_apply (c : Dev nD) (t : Fin cfg2.N) (r s : Fin 1024) :
    (iblk V c 3 t : Vec F S1x1024x1024 .i32) (ix3 (0 : Fin 1) r s) = V c main_arg3 (ix3 (pb t) (Cert.AttnSpec.row (pq t) r) (Cert.AttnSpec.row (pj t) s)) := by
  obtain ⟨h0, h1, h2⟩ := index_3 t
  unfold iblk
  rw [View.read_apply]
  show V c main_arg3 _ = V c main_arg3 _
  congr 1
  funext a
  apply Fin.ext
  match a with
  | ⟨0, _⟩ => show win2_3.index t 0 * 1 + 1 * 0 = t.val / 16; rw [h0]; omega
  | ⟨1, _⟩ => show win2_3.index t 1 * 1024 + 1 * r.val = 1024 * (t.val / 4 % 4) + r.val; rw [h1]; omega
  | ⟨2, _⟩ => show win2_3.index t 2 * 1024 + 1 * s.val = 1024 * (t.val % 4) + s.val; rw [h2]; omega

/-- The log-sum-exp block at a point: key rows 1024 * (key block) + s of batch b. -/
theorem iblk4_apply (c : Dev nD) (t : Fin cfg2.N) (s : Fin 1024) :
    (iblk V c 4 t : Vec F S1x1x1024 .f32) (ix3 (0 : Fin 1) (0 : Fin 1) s) = V c main_v10 (ix3 (pb t) (0 : Fin 1) (Cert.AttnSpec.row (pj t) s)) := by
  obtain ⟨h0, h1, h2⟩ := index_4 t
  unfold iblk
  rw [View.read_apply]
  show V c main_v10 _ = V c main_v10 _
  congr 1
  funext a
  apply Fin.ext
  match a with
  | ⟨0, _⟩ => show win2_4.index t 0 * 1 + 1 * 0 = t.val / 16; rw [h0]; omega
  | ⟨1, _⟩ => show win2_4.index t 1 * 1 + 1 * 0 = 0; rw [h1]
  | ⟨2, _⟩ => show win2_4.index t 2 * 1024 + 1 * s.val = 1024 * (t.val % 4) + s.val; rw [h2]; omega

end Cert.KernelIdeal.Val2

namespace Cert.KernelIdeal.Val2

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Reg2
open scoped BigOperators

variable (V : (c : Dev nD) → (b : Ref sig .tc) → Buf (Elt Ideal) ((c : Thread nD τ).loc b))

/-! ## One block step at a point, over the entry arrays -/

/-- Key block j's contribution to the output at (b, q, k), over the entry arrays. -/
abbrev BD (c : Dev nD) (b : Fin 4) (q : Fin 4096) (k : Fin 64) (j : Fin 4) : EReal :=
  Cert.AttnSpec.blockDot (V c main_v7) (V c main_v8) (V c main_v9) (V c main_arg3) (V c main_v10) b q k j

/-- The block score at a point is the score of the entry arrays' rows. -/
theorem bsc_at (c : Dev nD) (t : Fin cfg2.N) (r s : Fin 1024) :
    bsc (iblk V c 0 t) (iblk V c 1 t) (iblk V c 3 t) r s
      = Cert.AttnSpec.sc (V c main_v7) (V c main_v8) (V c main_arg3) (pb t) (Cert.AttnSpec.row (pq t) r) (Cert.AttnSpec.row (pj t) s) := by
  unfold bsc Cert.AttnSpec.sc
  refine congrArg₂ (· + ·) (congrArg (· * Cert.AttnSpec.c125) (Finset.sum_congr rfl fun d _ => ?_)) (congrArg Cert.AttnSpec.maskAdd (iblk3_apply V c t r s))
  exact congrArg₂ (· * ·) (iblk0_apply V c t r d) (iblk1_apply V c t s d)

/-- The block's contribution at a point is the key block's contribution over the entry arrays. -/
theorem bdot_at (c : Dev nD) (t : Fin cfg2.N) (r : Fin 1024) (k : Fin 64) :
    bdot (iblk V c 0 t) (iblk V c 1 t) (iblk V c 2 t) (iblk V c 3 t) (iblk V c 4 t) r k
      = BD V c (pb t) (Cert.AttnSpec.row (pq t) r) k (pj t) := by
  unfold bdot BD Cert.AttnSpec.blockDot
  refine Finset.sum_congr rfl fun s _ => ?_
  exact congrArg₂ (· * ·) (congrArg Ideal.exp (congrArg₂ (· - ·) (bsc_at V c t r s) (iblk4_apply V c t s))) (iblk2_apply V c t s k)

/-! ## The accumulator along a run of four points -/

/-- At the first point of a run the accumulator ends at zero plus the first key block's contribution. -/
theorem sacc_A (c : Dev nD) (t : Fin cfg2.N) (h0 : t.val % 4 = 0) (h1 : ¬t.val % 4 = 3) (r : Fin 1024) (k : Fin 64) :
    (outsAt V c t.val t.isLt).2 (ix2 r k) = Cert.AttnSpec.zero32 + BD V c (pb t) (Cert.AttnSpec.row (pq t) r) k (pj t) := by
  refine (congrFun (outsAt_snd_A V c t h0 h1) (ix2 r k)).trans ?_
  refine (congrFun (pay1_eq _) (ix2 r k)).trans ?_
  refine (pay4_apply (iblk V c 0 t) (iblk V c 1 t) (iblk V c 2 t) (iblk V c 3 t) (iblk V c 4 t) _ r k).trans ?_
  exact congrArg₂ (· + ·) (pay3_apply r k) (bdot_at V c t r k)

/-- At every other point the accumulator ends at what the point before left plus the point's key block's contribution. -/
theorem sacc_BC (c : Dev nD) (t : Fin cfg2.N) (h0 : ¬t.val % 4 = 0) (r : Fin 1024) (k : Fin 64) :
    (outsAt V c t.val t.isLt).2 (ix2 r k)
      = (outsAt V c (t.val - 1) (Nat.lt_of_le_of_lt (Nat.sub_le _ _) t.isLt)).2 (ix2 r k) + BD V c (pb t) (Cert.AttnSpec.row (pq t) r) k (pj t) := by
  by_cases h1 : t.val % 4 = 3
  · refine (congrFun (outsAt_snd_C V c t h0 h1) (ix2 r k)).trans ?_
    refine (congrFun (pay1_eq _) (ix2 r k)).trans ?_
    refine (pay4_apply (iblk V c 0 t) (iblk V c 1 t) (iblk V c 2 t) (iblk V c 3 t) (iblk V c 4 t) _ r k).trans ?_
    exact congrArg (_ + ·) (bdot_at V c t r k)
  · refine (congrFun (outsAt_snd_B V c t h0 h1) (ix2 r k)).trans ?_
    refine (congrFun (pay1_eq _) (ix2 r k)).trans ?_
    refine (pay4_apply (iblk V c 0 t) (iblk V c 1 t) (iblk V c 2 t) (iblk V c 3 t) (iblk V c 4 t) _ r k).trans ?_
    exact congrArg (_ + ·) (bdot_at V c t r k)

/-- At the last point of a run the output block holds the accumulator's new contents, with a leading unit axis. -/
theorem out_at_C (c : Dev nD) (t : Fin cfg2.N) (h0 : ¬t.val % 4 = 0) (h1 : t.val % 4 = 3) (u : Fin 1) (r : Fin 1024) (k : Fin 64) :
    (outsAt V c t.val t.isLt).1 (ix3 u r k) = (outsAt V c t.val t.isLt).2 (ix2 r k) := by
  refine (congrFun (outsAt_fst_C V c t h0 h1) (ix3 u r k)).trans ?_
  refine (pay2_apply _ u r k).trans ?_
  exact (congrFun (outsAt_snd_C V c t h0 h1) (ix2 r k)).symm

/-- Zero plus the first j + 1 key blocks' contributions to the output at (b, q, k), added in order. -/
def accN (c : Dev nD) (b : Fin 4) (q : Fin 4096) (k : Fin 64) : (j : ℕ) → j < 4 → EReal
  | 0, _ => Cert.AttnSpec.zero32 + BD V c b q k 0
  | j + 1, h => accN c b q k j (Nat.lt_of_succ_lt h) + BD V c b q k ⟨j + 1, h⟩

/-- The point of batch B, query block Q, key block j. -/
def pt (B Q : Fin 4) (j : ℕ) (hj : j < 4) : Fin cfg2.N := ⟨16 * B.val + 4 * Q.val + j, by rw [show cfg2.N = 64 from N_2]; omega⟩

theorem pb_pt (B Q : Fin 4) (j : ℕ) (hj : j < 4) : pb (pt B Q j hj) = B := Fin.ext (by show (16 * B.val + 4 * Q.val + j) / 16 = B.val; omega)
theorem pq_pt (B Q : Fin 4) (j : ℕ) (hj : j < 4) : pq (pt B Q j hj) = Q := Fin.ext (by show (16 * B.val + 4 * Q.val + j) / 4 % 4 = Q.val; omega)
theorem pj_pt (B Q : Fin 4) (j : ℕ) (hj : j < 4) : pj (pt B Q j hj) = ⟨j, hj⟩ := Fin.ext (by show (16 * B.val + 4 * Q.val + j) % 4 = j; omega)

/-- The invariant along a run: after the point of key block j the accumulator holds, at (r, k), zero plus the first j + 1
    contributions to the output at (B, 1024 Q + r, k), added in order: by induction on j. -/
theorem sacc (c : Dev nD) (B Q : Fin 4) (r : Fin 1024) (k : Fin 64) : ∀ (j : ℕ) (hj : j < 4),
    (outsAt V c (pt B Q j hj).val (pt B Q j hj).isLt).2 (ix2 r k) = accN V c B (Cert.AttnSpec.row Q r) k j hj
  | 0, hj => by
    refine (sacc_A V c (pt B Q 0 hj) (by show (16 * B.val + 4 * Q.val + 0) % 4 = 0; omega) (by show ¬(16 * B.val + 4 * Q.val + 0) % 4 = 3; omega) r k).trans ?_
    rw [pb_pt, pq_pt, pj_pt]; rfl
  | j + 1, hj => by
    refine (sacc_BC V c (pt B Q (j + 1) hj) (by show ¬(16 * B.val + 4 * Q.val + (j + 1)) % 4 = 0; omega) r k).trans ?_
    rw [pb_pt, pq_pt, pj_pt]
    exact congrArg (· + _) (sacc c B Q r k j (Nat.lt_of_succ_lt hj))

/-! ## The finished blocks and the output array -/

/-- After the last key block the accumulated value is the output's entry. -/
theorem accN_three (c : Dev nD) (b : Fin 4) (q : Fin 4096) (k : Fin 64) :
    accN V c b q k 3 (by decide)
      = Cert.AttnSpec.out (V c main_v7) (V c main_v8) (V c main_v9) (V c main_arg3) (V c main_v10) (ix3 b q k) := rfl

/-- The array the region leaves in the output: the four key blocks' contributions added to zero in order. -/
abbrev G (c : Dev nD) : Buf (Elt Ideal) ((c : Thread nD τ).loc main_v11) :=
  Cert.AttnSpec.out (V c main_v7) (V c main_v8) (V c main_v9) (V c main_arg3) (V c main_v10)

/-- The last point of the run of batch B and query block Q writes back the block (B, Q) of that array. -/
theorem flushed_pt (c : Dev nD) (B Q : Fin 4) :
    (dat V c).flushed 5 (pt B Q 3 (by decide)) = ((cfg2.win 5).blk (pt B Q 3 (by decide))).view.read (Elt Ideal) (G V c) := by
  have h3 : (pt B Q 3 (by decide)).val % 4 = 3 := by show (16 * B.val + 4 * Q.val + 3) % 4 = 3; omega
  have h0 : ¬(pt B Q 3 (by decide)).val % 4 = 0 := by omega
  obtain ⟨e0, e1, e2⟩ := index_5 (pt B Q 3 (by decide))
  have hv : (pt B Q 3 (by decide)).val = 16 * B.val + 4 * Q.val + 3 := rfl
  show (cfg2.win 5).cut (grid2.coords (pt B Q 3 (by decide))) ((dat V c).after 5 (pt B Q 3 (by decide))) = _
  rw [after_5]
  funext y
  obtain ⟨u, r, k, rfl⟩ : ∃ (u : Fin 1) (r : Fin 1024) (k : Fin 64), y = ix3 u r k :=
    ⟨_, _, _, eq_ix3 (n0 := 1) (n1 := 1024) (n2 := 64) y⟩
  rw [View.read_apply]
  show (outsAt V c (pt B Q 3 (by decide)).val (pt B Q 3 (by decide)).isLt).1 (ix3 u r k) = G V c _
  refine (out_at_C V c (pt B Q 3 (by decide)) h0 h3 u r k).trans ((sacc V c B Q r k 3 (by decide)).trans ?_)
  refine (accN_three V c B (Cert.AttnSpec.row Q r) k).trans ?_
  show G V c (ix3 B (Cert.AttnSpec.row Q r) k) = G V c _
  congr 1
  funext a
  apply Fin.ext
  have hu : u.val = 0 := by omega
  match a with
  | ⟨0, _⟩ => show B.val = win2_5.index (pt B Q 3 (by decide)) 0 * 1 + 1 * u.val; rw [e0, hv]; omega
  | ⟨1, _⟩ => show 1024 * Q.val + r.val = win2_5.index (pt B Q 3 (by decide)) 1 * 1024 + 1 * r.val; rw [e1, hv]; omega
  | ⟨2, _⟩ => show k.val = win2_5.index (pt B Q 3 (by decide)) 2 * 64 + 1 * k.val; rw [e2]; omega

/-- Every point that writes the output back writes the block of that array. -/
theorem flushed_eq (c : Dev nD) (t : Fin cfg2.N) (hf : (cfg2.win 5).flush t = true) :
    (dat V c).flushed 5 t = ((cfg2.win 5).blk t).view.read (Elt Ideal) (G V c) := by
  have h3 : t.val % 4 = 3 := (flush2_5 t).mp hf
  have hl := lt64 t
  obtain ⟨B, Q, rfl⟩ : ∃ B Q : Fin 4, t = pt B Q 3 (by decide) :=
    ⟨pb t, pq t, Fin.ext (by show t.val = 16 * (t.val / 16) + 4 * (t.val / 4 % 4) + 3; omega)⟩
  exact flushed_pt V c B Q

/-- Every index (b, q, k) of the output lies in the block written back at the last point of the run of batch b and query
    block q / 1024. -/
theorem cover (c : Dev nD) (i : ((cfg2.win 5).arr.view.loc (c.tc : Thread nD τ)).2.ty.Idx) :
    ∃ t : Fin cfg2.N, (cfg2.win 5).flush t = true ∧ i ∈ ((cfg2.win 5).blk t).view.set := by
  have hi0 : (i 0 : Nat) < 4 := (i 0).isLt
  have hi1 : (i 1 : Nat) < 4096 := (i 1).isLt
  have hi2 : (i 2 : Nat) < 64 := (i 2).isLt
  obtain ⟨T, hT⟩ : ∃ T : Fin cfg2.N, T.val = 16 * (i 0 : Nat) + 4 * ((i 1 : Nat) / 1024) + 3 :=
    ⟨⟨16 * (i 0 : Nat) + 4 * ((i 1 : Nat) / 1024) + 3, by rw [show cfg2.N = 64 from N_2]; omega⟩, rfl⟩
  obtain ⟨e0, e1, e2⟩ := index_5 T
  refine ⟨T, (flush2_5 T).mpr (by omega), ?_⟩
  show i ∈ ((View.whole main_v11).slice (win2_5.rect T)).set
  rw [View.set_slice_whole, Rect.mem_set_unit]
  intro a
  match a with
  | ⟨0, _⟩ =>
    show win2_5.index T 0 * win2_5.size 0 ≤ (i 0 : Nat) ∧ (i 0 : Nat) < win2_5.index T 0 * win2_5.size 0 + win2_5.xsize (grid2.coords T) 0
    rw [e0, show win2_5.size 0 = 1 from rfl, show win2_5.xsize (grid2.coords T) 0 = 1 from rfl]; omega
  | ⟨1, _⟩ =>
    show win2_5.index T 1 * win2_5.size 1 ≤ (i 1 : Nat) ∧ (i 1 : Nat) < win2_5.index T 1 * win2_5.size 1 + win2_5.xsize (grid2.coords T) 1
    rw [e1, show win2_5.size 1 = 1024 from rfl, show win2_5.xsize (grid2.coords T) 1 = 1024 from rfl]; omega
  | ⟨2, _⟩ =>
    show win2_5.index T 2 * win2_5.size 2 ≤ (i 2 : Nat) ∧ (i 2 : Nat) < win2_5.index T 2 * win2_5.size 2 + win2_5.xsize (grid2.coords T) 2
    rw [e2, show win2_5.size 2 = 64 from rfl, show win2_5.xsize (grid2.coords T) 2 = 64 from rfl]; omega

/-- THE VALUE: after the region's last point the output array holds, at (b, q, k), the four key blocks' contributions
    exp (score - lse) * value added to zero in order. -/
theorem value5 (c : Dev nD) :
    (Reg2.dat (F := Ideal) V c).arrAt 5 cfg2.N
      = Cert.AttnSpec.out (V c main_v7) (V c main_v8) (V c main_v9) (V c main_arg3) (V c main_v10) :=
  (dat V c).arrAt_eq_of_cover 5 (G V c) (flushed_eq V c) (cover c)

end Cert.KernelIdeal.Val2

end
-- ==== Proof.RefSpec.lean ====
import proofs.«102296_j40982577938503_1_alg».proof.Proof.AttnSpec

/-!
# What the reference computes, index by index, on the extended reals

The three projections as functions of the three-axis inputs; the score as the key-query dot divided by sqrt 64 plus the
mask's addend; the softmax over the QUERY axis (the maximum over all 4096 query rows from -inf, the exponentials, their
sum from zero, the quotient); the output as the sum over the key rows of the weights times the value rows.
-/

noncomputable section

open scoped BigOperators

namespace Cert.RefSpec

open Idealize.ShloMosaic Idealize.ShloMosaic.ValueIdx Cert.AttnSpec

abbrev Sx3 : Shape := ⟨3, ![4, 4096, 1024]⟩
abbrev Sb1 : Shape := ⟨1, ![64]⟩

/-- A projection on the three-axis input: row (b, s) of x against row k of W, plus the bias at k. -/
def proj3 (X : Sx3.Idx → EReal) (W : Sw.Idx → EReal) (B : Sb1.Idx → EReal) : Sq.Idx → EReal :=
  fun i => (∑ d : Fin 1024, X (ix3 (i 0) (i 1) d) * W (ix2 (i 2) d)) + B (ix1 (i 2))

/-- sqrt 64, as the reference computes it from the word of 64. -/
def sqrt64 : EReal := Ideal.sqrt (Ideal.ofBits .f32 0x42800000#32)

/-- The reference's score: the dot divided by sqrt 64, plus the mask's addend. -/
def scR (Q K : Sq.Idx → EReal) (Mk : Sm.Idx → BitVec 32) (b : Fin 4) (q s : Fin 4096) : EReal :=
  Ideal.div (∑ k : Fin 64, Q (ix3 b q k) * K (ix3 b s k)) sqrt64 + maskAdd (Mk (ix3 b q s))

/-- The column maximum over all query rows, from -inf (and once more against -inf, as the reference writes it). -/
def mxR (Q K : Sq.Idx → EReal) (Mk : Sm.Idx → BitVec 32) (b : Fin 4) (s : Fin 4096) : EReal :=
  max ninf ((Finset.univ : Finset (Fin 4096)).fold max ninf (fun q => scR Q K Mk b q s))

/-- The exponential of a score less its column maximum. -/
def eR (Q K : Sq.Idx → EReal) (Mk : Sm.Idx → BitVec 32) (b : Fin 4) (q s : Fin 4096) : EReal :=
  Ideal.exp (scR Q K Mk b q s - mxR Q K Mk b s)

/-- The column's sum of exponentials, from zero. -/
def zR (Q K : Sq.Idx → EReal) (Mk : Sm.Idx → BitVec 32) (b : Fin 4) (s : Fin 4096) : EReal :=
  zero32 + ∑ q : Fin 4096, eR Q K Mk b q s

/-- The reference's output: the softmax weights (over the query axis) against the value rows. -/
def refOut (Q K V : Sq.Idx → EReal) (Mk : Sm.Idx → BitVec 32) : Sq.Idx → EReal :=
  fun i => ∑ s : Fin 4096, Ideal.div (eR Q K Mk (i 0) (i 1) s) (zR Q K Mk (i 0) s) * V (ix3 (i 0) s (i 2))

end Cert.RefSpec

end
-- ==== Proof.Glue.lean ====
import proofs.«102296_j40982577938503_1_alg».proof.Proof.Asm
import proofs.«102296_j40982577938503_1_alg».proof.Proof.Val0
import proofs.«102296_j40982577938503_1_alg».proof.Proof.Val1
import proofs.«102296_j40982577938503_1_alg».proof.Proof.Val2
import proofs.«102296_j40982577938503_1_alg».proof.Proof.AttnSpec
import proofs.«102296_j40982577938503_1_alg».proof.Proof.RefSpec
import Idealize.ShloMosaic.Lib.Pipeline.Value
import Idealize.ShloMosaic.Lib.StableHlo.Run

/-!
# From the regions' values to one function of the inputs

At the extended reals: each reshape read at an index; the three projections, as the attention regions find them, are
the projections of the three-axis inputs; the mask reaches those regions as launched; so the result buffer ends at the
output function of the projections, the mask and the log-sum-exp the first pass leaves.
-/

set_option maxRecDepth 16384

noncomputable section

open Idealize.ShloMosaic Idealize.ShloMosaic.TcCoe
open Idealize.SL Idealize.SL.Sem
open Idealize.ShloMosaic.StableHlo
open Cert.KernelIdeal Cert.KernelIdeal.Gen

namespace Cert.KernelIdeal.Glue

open Cert.KernelIdeal.Asm Cert.AttnSpec Cert.RefSpec Idealize.ShloMosaic.ValueIdx

/-! ## A projection computed on the flattened rows and folded back is the projection on the three-axis input -/

/-- Rows flattened ([4,4096,1024] as [16384,1024]), the bias as a row ([64] as [1,64]), the projection on the flat rows,
    the result folded back ([16384,64] as [4,4096,64]): entry (b, s, k) is row (b, s) of x against row k of W plus the
    bias at k. -/
theorem folded_proj (X3 : Sx3.Idx → EReal) (Wt : Sw.Idx → EReal) (B1 : Sb1.Idx → EReal)
    (h1 : Sx3.ShapeCasts Sx) (h2 : Sb1.ShapeCasts Sb) (h3 : Sp.ShapeCasts Sq) :
    shapeCast Sq (proj (shapeCast Sx X3 h1) Wt (shapeCast Sb B1 h2)) h3 = proj3 X3 Wt B1 := by
  funext i
  obtain ⟨b, s, k, rfl⟩ : ∃ (b : Fin 4) (s : Fin 4096) (k : Fin 64), i = ix3 b s k := ⟨i 0, i 1, i 2, eq_ix3 i⟩
  have hr : 4096 * b.val + s.val < 16384 := by omega
  rw [shapeCast_apply _ h3 (ix3 b s k) (ix2 (⟨4096 * b.val + s.val, hr⟩ : Fin 16384) k) (by
    rw [Shape.rowMajor_val_two, Shape.rowMajor_val_three]; show (4096 * b.val + s.val) * 64 + k.val = (b.val * 4096 + s.val) * 64 + k.val; omega)]
  unfold proj proj3
  refine congrArg₂ (· + ·) (Finset.sum_congr rfl fun d _ => congrArg₂ (· * ·) ?_ rfl) ?_
  · exact shapeCast_apply _ h1 (ix2 (⟨4096 * b.val + s.val, hr⟩ : Fin 16384) d) (ix3 b s d) (by
      rw [Shape.rowMajor_val_two, Shape.rowMajor_val_three]; show (b.val * 4096 + s.val) * 1024 + d.val = (4096 * b.val + s.val) * 1024 + d.val; omega)
  · exact shapeCast_apply _ h2 (ix2 (0 : Fin 1) k) (ix1 k) (by
      rw [Shape.rowMajor_val_two, Shape.rowMajor_val_one]; show k.val = 0 * 64 + k.val; omega)

variable (m : (ℓ : Loc nD τ sig) → Buf (Elt Ideal) ℓ) (ρ : Dev nD → PrngReg)

/-! ## The host reshapes -/

theorem W1_v0 (c : Dev nD) : W1 m ρ c (Proc.devRef .tc main_v0) = shapeCast S16384x1024 (W0 m ρ c (Proc.devRef .tc main_arg0)) shapeCasts_S4x4096x1024_S16384x1024 := by
  dsimp only [W1]; after_results; rfl
theorem W1_v1 (c : Dev nD) : W1 m ρ c (Proc.devRef .tc main_v1) = shapeCast S16384x1024 (W0 m ρ c (Proc.devRef .tc main_arg1)) shapeCasts_S4x4096x1024_S16384x1024 := by
  dsimp only [W1]; after_results; rfl
theorem W1_v2 (c : Dev nD) : W1 m ρ c (Proc.devRef .tc main_v2) = shapeCast S16384x1024 (W0 m ρ c (Proc.devRef .tc main_arg2)) shapeCasts_S4x4096x1024_S16384x1024 := by
  dsimp only [W1]; after_results; rfl
theorem W1_v3 (c : Dev nD) : W1 m ρ c (Proc.devRef .tc main_v3) = shapeCast S1x64 (W0 m ρ c (Proc.devRef .tc main_arg5)) shapeCasts_S64_S1x64 := by
  dsimp only [W1]; after_results; rfl
theorem W1_v4 (c : Dev nD) : W1 m ρ c (Proc.devRef .tc main_v4) = shapeCast S1x64 (W0 m ρ c (Proc.devRef .tc main_arg7)) shapeCasts_S64_S1x64 := by
  dsimp only [W1]; after_results; rfl
theorem W1_v5 (c : Dev nD) : W1 m ρ c (Proc.devRef .tc main_v5) = shapeCast S1x64 (W0 m ρ c (Proc.devRef .tc main_arg9)) shapeCasts_S64_S1x64 := by
  dsimp only [W1]; after_results; rfl
theorem W3_v7 (c : Dev nD) : W3 m ρ c (Proc.devRef .tc main_v7) = shapeCast S4x4096x64 (W2 m ρ c (Proc.devRef .tc main_v6_0)) shapeCasts_S16384x64_S4x4096x64 := by
  dsimp only [W3]; after_results; rfl
theorem W3_v8 (c : Dev nD) : W3 m ρ c (Proc.devRef .tc main_v8) = shapeCast S4x4096x64 (W2 m ρ c (Proc.devRef .tc main_v6_1)) shapeCasts_S16384x64_S4x4096x64 := by
  dsimp only [W3]; after_results; rfl
theorem W3_v9 (c : Dev nD) : W3 m ρ c (Proc.devRef .tc main_v9) = shapeCast S4x4096x64 (W2 m ρ c (Proc.devRef .tc main_v6_2)) shapeCasts_S16384x64_S4x4096x64 := by
  dsimp only [W3]; after_results; rfl

/-! ## The three projections as the second and third regions find them -/

/-- The weights pass the first host stretch unchanged. -/
theorem W1_arg (c : Dev nD) (r : Ref sig .tc) (h : r ∉ (hostOps0_W : List (Ref sig .tc))) :
    W1 m ρ c (Proc.devRef .tc r) = m ((c : Thread nD τ).loc r) := (W1_of m ρ c r h).trans rfl

theorem q_eq (c : Dev nD) : (V3 m ρ c main_v7 : Sq.Idx → EReal)
    = proj3 (m ((c : Thread nD τ).loc main_arg0)) (m ((c : Thread nD τ).loc main_arg4)) (m ((c : Thread nD τ).loc main_arg5)) := by
  show W3 m ρ c (Proc.devRef .tc main_v7) = _
  rw [W3_v7, show W2 m ρ c (Proc.devRef .tc main_v6_0) = _ from W2_arr m ρ c 9, Val0.value9]
  show shapeCast Sq (proj (W1 m ρ c (Proc.devRef .tc main_v0)) (W1 m ρ c (Proc.devRef .tc main_arg4)) (W1 m ρ c (Proc.devRef .tc main_v3))) _ = _
  rw [W1_v0, W1_v3, W1_arg m ρ c main_arg4 (by decide)]
  exact folded_proj _ _ _ _ _ _
theorem k_eq (c : Dev nD) : (V3 m ρ c main_v8 : Sq.Idx → EReal)
    = proj3 (m ((c : Thread nD τ).loc main_arg1)) (m ((c : Thread nD τ).loc main_arg6)) (m ((c : Thread nD τ).loc main_arg7)) := by
  show W3 m ρ c (Proc.devRef .tc main_v8) = _
  rw [W3_v8, show W2 m ρ c (Proc.devRef .tc main_v6_1) = _ from W2_arr m ρ c 10, Val0.value10]
  show shapeCast Sq (proj (W1 m ρ c (Proc.devRef .tc main_v1)) (W1 m ρ c (Proc.devRef .tc main_arg6)) (W1 m ρ c (Proc.devRef .tc main_v4))) _ = _
  rw [W1_v1, W1_v4, W1_arg m ρ c main_arg6 (by decide)]
  exact folded_proj _ _ _ _ _ _
theorem v_eq (c : Dev nD) : (V3 m ρ c main_v9 : Sq.Idx → EReal)
    = proj3 (m ((c : Thread nD τ).loc main_arg2)) (m ((c : Thread nD τ).loc main_arg8)) (m ((c : Thread nD τ).loc main_arg9)) := by
  show W3 m ρ c (Proc.devRef .tc main_v9) = _
  rw [W3_v9, show W2 m ρ c (Proc.devRef .tc main_v6_2) = _ from W2_arr m ρ c 11, Val0.value11]
  show shapeCast Sq (proj (W1 m ρ c (Proc.devRef .tc main_v2)) (W1 m ρ c (Proc.devRef .tc main_arg8)) (W1 m ρ c (Proc.devRef .tc main_v5))) _ = _
  rw [W1_v2, W1_v5, W1_arg m ρ c main_arg8 (by decide)]
  exact folded_proj _ _ _ _ _ _

/-- The mask reaches the second and third regions as launched. -/
theorem mask3 (c : Dev nD) : V3 m ρ c main_arg3 = m ((c : Thread nD τ).loc main_arg3) :=
  (W3_of m ρ c main_arg3 (by decide)).trans <| (W2_of_ne m ρ c main_arg3 (by decide)).trans <| W1_arg m ρ c main_arg3 (by decide)

/-! ## The result buffer at the end -/

/-- The result is the output function of the three projections, the mask, and the log-sum-exp of the first pass. -/
theorem result_eq (c : Dev nD) : (W5 m ρ c (Proc.devRef .tc main_v11) : Sq.Idx → EReal)
    = out (V3 m ρ c main_v7) (V3 m ρ c main_v8) (V3 m ρ c main_v9) (V3 m ρ c main_arg3)
        (lse (V3 m ρ c main_v7) (V3 m ρ c main_v8) (V3 m ρ c main_arg3)) := by
  rw [show W5 m ρ c (Proc.devRef .tc main_v11) = _ from W5_arr m ρ c 5, Val2.value5]
  show out (W4 m ρ c (Proc.devRef .tc main_v7)) (W4 m ρ c (Proc.devRef .tc main_v8)) (W4 m ρ c (Proc.devRef .tc main_v9))
      (W4 m ρ c (Proc.devRef .tc main_arg3)) (W4 m ρ c (Proc.devRef .tc main_v10)) = _
  rw [show W4 m ρ c (Proc.devRef .tc main_v7) = W3 m ρ c (Proc.devRef .tc main_v7) from W4_in m ρ c 0 rfl,
    show W4 m ρ c (Proc.devRef .tc main_v8) = W3 m ρ c (Proc.devRef .tc main_v8) from W4_in m ρ c 1 rfl,
    show W4 m ρ c (Proc.devRef .tc main_arg3) = W3 m ρ c (Proc.devRef .tc main_arg3) from W4_in m ρ c 2 rfl,
    show W4 m ρ c (Proc.devRef .tc main_v9) = W3 m ρ c (Proc.devRef .tc main_v9) from W4_of_ne m ρ c main_v9 (by decide),
    show W4 m ρ c (Proc.devRef .tc main_v10) = _ from W4_arr m ρ c 3, Val1.value3]

end Cert.KernelIdeal.Glue

end
-- ==== Proof.LibRealSums.lean ====
/-
  Sums of products on the extended reals when every entry is a real number.

  On the extended reals a product does not distribute over a sum in general (an infinite factor meets
  a sum of opposite infinities), but it does when the entries are real: then every partial sum and
  every product is the image of the real one. This file states what a matrix product against a SUM of
  two matrices needs, entry by entry, and the three regroupings of a contraction sum that a product
  accumulated block by block uses: a sum over n·b indices as n sums over b indices, a sum padded with
  zeros past its length, and an accumulator that adds one block's sum per step.
-/
import Mathlib.Data.EReal.Operations
import Mathlib.Algebra.BigOperators.Intervals
import Mathlib.Algebra.BigOperators.Fin

namespace Cert.Lib.RealSums

open Finset

/-- An extended real that is neither infinity is a real number. -/
theorem exists_real {x : EReal} (h₁ : x ≠ ⊤) (h₂ : x ≠ ⊥) : ∃ r : ℝ, x = (r : EReal) :=
  ⟨x.toReal, (EReal.coe_toReal h₁ h₂).symm⟩

/-- An extended real whose absolute value, max x (-x), is below +∞ is a real number. -/
theorem exists_real_of_max_neg_lt_top {x : EReal} (h : max x (-x) < ⊤) : ∃ r : ℝ, x = (r : EReal) := by
  induction x using EReal.rec with
  | bot => simp at h
  | top => simp at h
  | coe r => exact ⟨r, rfl⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of reals, computed on the extended reals, is the image of the real sum. -/
theorem sum_coe_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

/-- Real entries: the contraction against a sum of two rows is the sum of the two contractions. -/
theorem sum_add_mul {ι : Type*} (s : Finset ι) (a b w : ι → ℝ) :
    ∑ k ∈ s, ((a k : EReal) + (b k : EReal)) * (w k : EReal)
      = ∑ k ∈ s, (a k : EReal) * (w k : EReal) + ∑ k ∈ s, (b k : EReal) * (w k : EReal) := by
  rw [sum_coe_mul_coe, sum_coe_mul_coe, ← EReal.coe_add, ← sum_add_distrib]
  have : ∀ k ∈ s, ((a k : EReal) + (b k : EReal)) * (w k : EReal) = ((a k * w k + b k * w k : ℝ) : EReal) := by
    intro k _; rw [← EReal.coe_add, ← EReal.coe_mul, add_mul]
  rw [sum_congr rfl this, coe_sum]

/-- The same for extended-real rows KNOWN to be real entry by entry. -/
theorem sum_add_mul_of_real {ι : Type*} (s : Finset ι) (a b w : ι → EReal)
    (ha : ∀ k, ∃ r : ℝ, a k = r) (hb : ∀ k, ∃ r : ℝ, b k = r) (hw : ∀ k, ∃ r : ℝ, w k = r) :
    ∑ k ∈ s, (a k + b k) * w k = ∑ k ∈ s, a k * w k + ∑ k ∈ s, b k * w k := by
  choose a' ha' using ha; choose b' hb' using hb; choose w' hw' using hw
  simp only [ha', hb', hw']
  exact sum_add_mul s a' b' w'

/-- A contraction of real rows is real. -/
theorem sum_mul_real {ι : Type*} (s : Finset ι) (a w : ι → EReal)
    (ha : ∀ k, ∃ r : ℝ, a k = r) (hw : ∀ k, ∃ r : ℝ, w k = r) : ∃ r : ℝ, ∑ k ∈ s, a k * w k = r := by
  choose a' ha' using ha; choose w' hw' using hw
  exact ⟨∑ k ∈ s, a' k * w' k, by simp only [ha', hw']; exact sum_coe_mul_coe s a' w'⟩

/-- Sums, and the larger of a real and zero, stay real. -/
theorem add_real {x y : EReal} (hx : ∃ r : ℝ, x = r) (hy : ∃ r : ℝ, y = r) : ∃ r : ℝ, x + y = r := by
  obtain ⟨r, rfl⟩ := hx; obtain ⟨q, rfl⟩ := hy; exact ⟨r + q, (EReal.coe_add r q).symm⟩
theorem max_zero_real {x : EReal} (hx : ∃ r : ℝ, x = r) : ∃ r : ℝ, max x 0 = r := by
  obtain ⟨r, rfl⟩ := hx
  exact ⟨max r 0, by rw [← EReal.coe_zero]; exact (EReal.coe_strictMono.monotone.map_max).symm⟩

/-! ## Regrouping a contraction sum -/

/-- A sum over the first n·b naturals is n consecutive sums over b naturals. -/
theorem sum_range_mul {M : Type*} [AddCommMonoid M] (n b : ℕ) (f : ℕ → M) :
    ∑ k ∈ range (n * b), f k = ∑ j ∈ range n, ∑ i ∈ range b, f (j * b + i) := by
  induction n with
  | zero => simp
  | succ n ih => rw [Nat.succ_mul, sum_range_add, ih, sum_range_succ]

/-- Padding the summand with zeros past position N does not change the sum of the first M ≥ N terms. -/
theorem sum_range_pad {M : Type*} [AddCommMonoid M] {N L : ℕ} (h : N ≤ L) (f : ℕ → M) :
    ∑ k ∈ range L, (if k < N then f k else 0) = ∑ k ∈ range N, f k := by
  rw [← sum_subset (range_mono h) (fun k _ hk => by rw [if_neg (by simpa using hk)])]
  exact sum_congr rfl fun k hk => if_pos (mem_range.mp hk)

/-- An accumulator that starts at zero and adds one term per step holds the sum of the terms so far. -/
theorem acc_eq_sum {M : Type*} [AddCommMonoid M] (g : ℕ → M) (acc : ℕ → M) (h0 : acc 0 = 0)
    (hs : ∀ k, acc (k + 1) = acc k + g k) (n : ℕ) : acc n = ∑ j ∈ range n, g j := by
  induction n with
  | zero => simpa using h0
  | succ n ih => rw [hs, ih, sum_range_succ]

/-- A sum over `Fin n` of a function of the underlying natural is the sum over the first n naturals. -/
theorem sum_fin_eq_range {M : Type*} [AddCommMonoid M] (n : ℕ) (f : ℕ → M) :
    ∑ k : Fin n, f k.val = ∑ k ∈ range n, f k := Fin.sum_univ_eq_sum_range f n

end Cert.Lib.RealSums
-- ==== Proof.Softmax1.lean ====
import proofs.«102296_j40982577938503_1_alg».proof.Proof.RefSpec
import proofs.«102296_j40982577938503_1_alg».proof.Proof.LibRealSums

/-!
# The float words as extended reals, the two spellings of the score, and which values stay real

The kernel scales the key-query dot by the word of 1/8 and the reference divides it by the square root of the word of
64: the same product, for every extended real. The mask's addend is one of two real numbers, so with real queries and
keys every score is a real number; a projection of real rows is real.
-/

noncomputable section

open scoped BigOperators

namespace Cert.Softmax

open Idealize.ShloMosaic Idealize.ShloMosaic.ValueIdx Cert.AttnSpec Cert.RefSpec

/-- The word of 0.125 denotes the real 1/8. -/
theorem c125_eq : c125 = ((1 / 8 : ℝ) : EReal) := by
  unfold c125; simp [Ideal.ofBits, Ideal.ieee, -EReal.coe_mul]; norm_num

/-- The word of -inf denotes -∞. -/
theorem ninf_eq : ninf = ⊥ := by
  unfold ninf; simp [Ideal.ofBits, Ideal.ieee]

/-- The word of zero denotes 0. -/
theorem zero32_eq : zero32 = 0 := Ideal.ofBits_zero_f32

/-- The word of -1e9 denotes the real -1000000000. -/
theorem negBig_eq : negBig = ((-1000000000 : ℝ) : EReal) := by
  unfold negBig; simp [Ideal.ofBits, Ideal.ieee, -EReal.coe_mul]; norm_num

/-- The word of 64 denotes the real 64. -/
theorem w64_eq : Ideal.ofBits .f32 0x42800000#32 = ((64 : ℝ) : EReal) := by
  simp [Ideal.ofBits, Ideal.ieee, -EReal.coe_mul]; norm_num

/-- The square root of the word of 64 is the real 8. -/
theorem sqrt64_eq : sqrt64 = ((8 : ℝ) : EReal) := by
  unfold sqrt64
  rw [w64_eq, Ideal.sqrt_coe, if_neg (by norm_num)]
  congr 1
  rw [show (64 : ℝ) = 8 ^ 2 by norm_num]
  exact Real.sqrt_sq (by norm_num)

/-- Dividing by the square root of 64 is multiplying by 1/8, whatever the extended real. -/
theorem div_sqrt64 (x : EReal) : Ideal.div x sqrt64 = x * c125 := by
  rw [sqrt64_eq, c125_eq, Ideal.div_coe (by norm_num : (8 : ℝ) ≠ 0)]

/-- The kernel's score is the reference's, entry by entry. -/
theorem sc_eq_scR (Q K : Sq.Idx → EReal) (Mk : Sm.Idx → BitVec 32) (b : Fin 4) (q s : Fin 4096) :
    sc Q K Mk b q s = scR Q K Mk b q s := by
  unfold sc scR; rw [div_sqrt64]

/-- The mask's addend is a real number: -1e9 or zero. -/
theorem maskAdd_real (w : BitVec 32) : ∃ r : ℝ, maskAdd w = (r : EReal) := by
  unfold maskAdd Scalar.select
  split
  · exact ⟨_, negBig_eq⟩
  · exact ⟨0, by rw [zero32_eq]; rfl⟩

/-- With real queries and keys every score is a real number. -/
theorem sc_real (Q K : Sq.Idx → EReal) (Mk : Sm.Idx → BitVec 32)
    (hQ : ∀ i, ∃ r : ℝ, Q i = (r : EReal)) (hK : ∀ i, ∃ r : ℝ, K i = (r : EReal)) (b : Fin 4) (q s : Fin 4096) :
    ∃ r : ℝ, sc Q K Mk b q s = (r : EReal) := by
  obtain ⟨d, hd⟩ := Cert.Lib.RealSums.sum_mul_real Finset.univ (fun k : Fin 64 => Q (ix3 b q k))
    (fun k => K (ix3 b s k)) (fun _ => hQ _) (fun _ => hK _)
  have hd' : ∑ k : Fin 64, Q (ix3 b q k) * K (ix3 b s k) = (d : EReal) := hd
  obtain ⟨m, hm⟩ := maskAdd_real (Mk (ix3 b q s))
  refine ⟨d * (1 / 8) + m, ?_⟩
  unfold sc
  rw [hd', hm, c125_eq, ← EReal.coe_mul, ← EReal.coe_add]

/-- A projection of real rows against real rows plus a real bias is real. -/
theorem proj3_real (X : Sx3.Idx → EReal) (W : Sw.Idx → EReal) (B : Sb1.Idx → EReal)
    (hX : ∀ i, ∃ r : ℝ, X i = (r : EReal)) (hW : ∀ i, ∃ r : ℝ, W i = (r : EReal))
    (hB : ∀ i, ∃ r : ℝ, B i = (r : EReal)) : ∀ i, ∃ r : ℝ, proj3 X W B i = (r : EReal) := by
  intro i
  exact Cert.Lib.RealSums.add_real
    (Cert.Lib.RealSums.sum_mul_real Finset.univ (fun d : Fin 1024 => X (ix3 (i 0) (i 1) d))
      (fun d => W (ix2 (i 2) d)) (fun _ => hX _) (fun _ => hW _)) (hB _)

end Cert.Softmax

end
-- ==== Proof.Softmax2.lean ====
import proofs.«102296_j40982577938503_1_alg».proof.Proof.Softmax1

/-!
# The running maximum and the running exponential sum of a real column

A column of scores is read in four consecutive blocks. From (-∞, 0) each block replaces the running maximum M by the
larger M' of M and the block's maximum, and the running sum L by exp (M - M') · L plus the block's sum of
exp (entry - M'). With real entries, after the first block the maximum is a real number m, and the sum is the sum over
the blocks read so far of exp (entry - m): the factor exp (m - m') turns each earlier term exp (x - m) into
exp (x - m'), and at the first block the factor meets the sum 0. The running maximum is below a bound exactly when every
entry read so far is.
-/

noncomputable section

open scoped BigOperators

namespace Cert.Softmax

open Idealize.ShloMosaic Cert.AttnSpec

/-- The exponential at a difference of two reals is the real exponential. -/
theorem exp_sub_coe (x m : ℝ) : Ideal.exp ((x : EReal) - (m : EReal)) = ((Real.exp (x - m) : ℝ) : EReal) := by
  rw [← EReal.coe_sub]; rfl

/-- The maximum from -∞ over a finite family of reals is -∞ or a real. -/
theorem fold_max_bot_or_real {ι : Type} (s : Finset ι) (f : ι → ℝ) :
    s.fold max (⊥ : EReal) (fun i => (f i : EReal)) = ⊥
      ∨ ∃ m : ℝ, s.fold max (⊥ : EReal) (fun i => (f i : EReal)) = (m : EReal) := by
  classical
  induction s using Finset.induction_on with
  | empty => left; rfl
  | insert a s ha ih =>
    right
    rw [Finset.fold_insert ha]
    rcases ih with h | ⟨m, h⟩
    · exact ⟨f a, by rw [h]; exact max_eq_left bot_le⟩
    · exact ⟨max (f a) m, by rw [h]; exact (EReal.coe_strictMono.monotone.map_max).symm⟩

/-- Over a nonempty family it is a real. -/
theorem fold_max_real {ι : Type} (s : Finset ι) (hs : s.Nonempty) (f : ι → ℝ) :
    ∃ m : ℝ, s.fold max (⊥ : EReal) (fun i => (f i : EReal)) = (m : EReal) := by
  rcases fold_max_bot_or_real s f with h | h
  · exfalso
    obtain ⟨i, hi⟩ := hs
    have hle : ((f i : ℝ) : EReal) ≤ s.fold max (⊥ : EReal) (fun i => (f i : EReal)) :=
      (Finset.le_fold_max _).mpr (Or.inr ⟨i, hi, le_rfl⟩)
    rw [h] at hle
    exact EReal.coe_ne_bot _ (le_bot_iff.mp hle)
  · exact h

/-- A block's maximum from the word of -inf is a real when the block's entries are. -/
theorem blockMax_real (x : Fin 1024 → EReal) (x' : Fin 1024 → ℝ) (hx : ∀ r, x r = (x' r : EReal)) :
    ∃ b : ℝ, (Finset.univ : Finset (Fin 1024)).fold max ninf x = (b : EReal) := by
  obtain rfl : x = fun r => (x' r : EReal) := funext hx
  rw [ninf_eq]
  exact fold_max_real Finset.univ ⟨0, Finset.mem_univ _⟩ x'

/-- The first block's new maximum is real. -/
theorem stepM_bot (x : Fin 1024 → EReal) (x' : Fin 1024 → ℝ) (hx : ∀ r, x r = (x' r : EReal)) :
    ∃ m' : ℝ, stepM ninf x = (m' : EReal) := by
  obtain ⟨b, hb⟩ := blockMax_real x x' hx
  exact ⟨b, by unfold stepM; rw [hb, ninf_eq]; exact max_eq_right bot_le⟩

/-- A later block's new maximum is real. -/
theorem stepM_coe (m : ℝ) (x : Fin 1024 → EReal) (x' : Fin 1024 → ℝ) (hx : ∀ r, x r = (x' r : EReal)) :
    ∃ m' : ℝ, stepM (m : EReal) x = (m' : EReal) := by
  obtain ⟨b, hb⟩ := blockMax_real x x' hx
  exact ⟨max m b, by unfold stepM; rw [hb]; exact (EReal.coe_strictMono.monotone.map_max).symm⟩

/-- One block's new sum, once the new maximum is the real m' and the rescaled old sum is the real ℓ. -/
theorem stepL_real (M L : EReal) (x : Fin 1024 → EReal) (x' : Fin 1024 → ℝ) (hx : ∀ r, x r = (x' r : EReal))
    (m' ℓ : ℝ) (hM' : stepM M x = (m' : EReal)) (he : Ideal.exp (M - (m' : EReal)) * L = (ℓ : EReal)) :
    stepL M L x = ((ℓ + ∑ r : Fin 1024, Real.exp (x' r - m') : ℝ) : EReal) := by
  unfold stepL
  rw [hM', he, EReal.coe_add, Cert.Lib.RealSums.coe_sum]
  congr 1
  exact Finset.sum_congr rfl fun r _ => by rw [hx r, exp_sub_coe]

/-- The sum, over the blocks before block n, of the exponentials of the entries less m. -/
def partSum (a' : Fin 4 → Fin 1024 → ℝ) (n : ℕ) (m : ℝ) : ℝ :=
  ∑ j ∈ (Finset.univ : Finset (Fin 4)).filter (fun j => j.val < n), ∑ r : Fin 1024, Real.exp (a' j r - m)

theorem partSum_zero (a' : Fin 4 → Fin 1024 → ℝ) (m : ℝ) : partSum a' 0 m = 0 := by
  unfold partSum
  rw [Finset.filter_false_of_mem (fun j _ => Nat.not_lt_zero _), Finset.sum_empty]

theorem partSum_succ (a' : Fin 4 → Fin 1024 → ℝ) (n : ℕ) (h : n < 4) (m : ℝ) :
    partSum a' (n + 1) m = partSum a' n m + ∑ r : Fin 1024, Real.exp (a' ⟨n, h⟩ r - m) := by
  unfold partSum
  have hf : ((Finset.univ : Finset (Fin 4)).filter fun j => j.val < n + 1)
      = insert ⟨n, h⟩ ((Finset.univ : Finset (Fin 4)).filter fun j => j.val < n) := by
    ext j
    simp only [Finset.mem_filter, Finset.mem_univ, true_and, Finset.mem_insert, Fin.ext_iff]
    omega
  have hn : (⟨n, h⟩ : Fin 4) ∉ (Finset.univ : Finset (Fin 4)).filter fun j => j.val < n := by
    simp only [Finset.mem_filter, Finset.mem_univ, true_and]
    exact Nat.lt_irrefl n
  rw [hf, Finset.sum_insert hn, add_comm]

/-- Moving the reference point from m to m' multiplies every term by exp (m - m'). -/
theorem partSum_rescale (a' : Fin 4 → Fin 1024 → ℝ) (n : ℕ) (m m' : ℝ) :
    Real.exp (m - m') * partSum a' n m = partSum a' n m' := by
  unfold partSum
  rw [Finset.mul_sum]
  refine Finset.sum_congr rfl fun j _ => ?_
  rw [Finset.mul_sum]
  refine Finset.sum_congr rfl fun r _ => ?_
  rw [← Real.exp_add]
  congr 1
  ring

theorem partSum_four (a' : Fin 4 → Fin 1024 → ℝ) (m : ℝ) :
    partSum a' 4 m = ∑ j : Fin 4, ∑ r : Fin 1024, Real.exp (a' j r - m) := by
  unfold partSum
  rw [Finset.filter_true_of_mem (fun j _ => j.isLt)]

theorem runML_zero (a : Fin 4 → Fin 1024 → EReal) (h : 0 ≤ 4) : runML a 0 h = (ninf, zero32) := rfl

theorem runML_succ (a : Fin 4 → Fin 1024 → EReal) (n : ℕ) (h : n + 1 ≤ 4) :
    runML a (n + 1) h = (stepM (runML a n (Nat.le_of_succ_le h)).1 (a ⟨n, h⟩),
      stepL (runML a n (Nat.le_of_succ_le h)).1 (runML a n (Nat.le_of_succ_le h)).2 (a ⟨n, h⟩)) := rfl

/-- After n + 1 blocks of a real column the running maximum is a real m and the running sum is the sum over those
    blocks of exp (entry - m). -/
theorem runML_real (a : Fin 4 → Fin 1024 → EReal) (a' : Fin 4 → Fin 1024 → ℝ) (ha : ∀ j r, a j r = (a' j r : EReal)) :
    ∀ (n : ℕ) (h : n + 1 ≤ 4), ∃ m : ℝ, (runML a (n + 1) h).1 = (m : EReal)
      ∧ (runML a (n + 1) h).2 = ((partSum a' (n + 1) m : ℝ) : EReal) := by
  intro n
  induction n with
  | zero =>
    intro h
    obtain ⟨m', hm'⟩ := stepM_bot (a ⟨0, h⟩) (a' ⟨0, h⟩) (ha _)
    refine ⟨m', ?_, ?_⟩
    · rw [runML_succ, runML_zero]; exact hm'
    · rw [runML_succ, runML_zero]
      show stepL ninf zero32 (a ⟨0, h⟩) = _
      rw [stepL_real ninf zero32 _ _ (ha _) m' 0 hm' (by rw [zero32_eq, mul_zero, EReal.coe_zero]),
        partSum_succ a' 0 h, partSum_zero]
  | succ n ih =>
    intro h
    obtain ⟨m, hm, hL⟩ := ih (Nat.le_of_succ_le h)
    obtain ⟨m', hm'⟩ := stepM_coe m (a ⟨n + 1, h⟩) (a' ⟨n + 1, h⟩) (ha _)
    refine ⟨m', ?_, ?_⟩
    · rw [runML_succ]
      show stepM (runML a (n + 1) _).1 _ = _
      rw [hm]; exact hm'
    · rw [runML_succ]
      show stepL (runML a (n + 1) _).1 (runML a (n + 1) _).2 _ = _
      rw [hm, hL, stepL_real (m : EReal) _ _ _ (ha _) m' (partSum a' (n + 1) m') hm'
        (by rw [exp_sub_coe, ← EReal.coe_mul, partSum_rescale]), partSum_succ a' (n + 1) h]

/-- The running maximum is below a bound exactly when every entry of the blocks read so far is. -/
theorem runML_fst_le_iff (a : Fin 4 → Fin 1024 → EReal) (c : EReal) :
    ∀ (n : ℕ) (h : n ≤ 4), (runML a n h).1 ≤ c ↔ ∀ j : Fin 4, j.val < n → ∀ r, a j r ≤ c := by
  intro n
  induction n with
  | zero =>
    intro h
    rw [runML_zero]
    show ninf ≤ c ↔ _
    rw [ninf_eq]
    exact ⟨fun _ j hj => absurd hj (Nat.not_lt_zero _), fun _ => bot_le⟩
  | succ n ih =>
    intro h
    rw [runML_succ]
    show stepM _ _ ≤ c ↔ _
    unfold stepM
    rw [max_le_iff, ih, Finset.fold_max_le]
    constructor
    · rintro ⟨h1, _, h2⟩ j hj r
      rcases Nat.lt_succ_iff_lt_or_eq.mp hj with hlt | heq
      · exact h1 j hlt r
      · obtain rfl : j = ⟨n, h⟩ := Fin.ext heq
        exact h2 r (Finset.mem_univ _)
    · intro H
      exact ⟨fun j hj r => H j (Nat.lt_succ_of_lt hj) r, by rw [ninf_eq]; exact bot_le,
        fun r _ => H ⟨n, h⟩ (Nat.lt_succ_self n) r⟩

end Cert.Softmax

end
-- ==== Proof.LibBlockSum.lean ====
/-
  A sum over n · d consecutive indices, cut into n consecutive blocks of d.

  The whole sum is the sum over the blocks of each block's sum, in any additive commutative monoid — in particular on
  the extended reals, where nothing needs to be finite: only commutativity and associativity of addition are used.
  Position j of block b is the index b · d + j.
-/
import Mathlib.Algebra.BigOperators.Fin
import Mathlib.Algebra.BigOperators.Intervals
import Mathlib.Logic.Equiv.Fin.Basic

namespace Cert.Lib.BlockSum

open Finset

/-- Position `j` of block `b`, as an index below `n * d`. -/
def pos (n d : Nat) (b : Fin n) (j : Fin d) : Fin (n * d) :=
  ⟨b.val * d + j.val, by
    have hj := j.isLt
    have h : (b.val + 1) * d ≤ n * d := Nat.mul_le_mul_right d b.isLt
    rw [Nat.succ_mul] at h
    omega⟩

@[simp] theorem pos_val (n d : Nat) (b : Fin n) (j : Fin d) : (pos n d b j).val = b.val * d + j.val := rfl

/-- The whole sum is the sum of the block sums. -/
theorem sum_blocks {M : Type*} [AddCommMonoid M] (n d : Nat) (f : Fin (n * d) → M) :
    ∑ k : Fin (n * d), f k = ∑ b : Fin n, ∑ j : Fin d, f (pos n d b j) := by
  rw [← Fintype.sum_prod_type']
  refine (Fintype.sum_equiv finProdFinEquiv _ _ (fun p => ?_)).symm
  congr 1
  apply Fin.ext
  simp [finProdFinEquiv, pos_val, Nat.mul_comm, Nat.add_comm]

end Cert.Lib.BlockSum
-- ==== Proof.Softmax3.lean ====
import proofs.«102296_j40982577938503_1_alg».proof.Proof.Softmax2
import proofs.«102296_j40982577938503_1_alg».proof.Proof.LibBlockSum

/-!
# A real column's softmax weight, by the four-block recurrence and by the whole column

For a column f of 4096 real scores, read as four blocks of 1024 rows: the recurrence's final maximum is the maximum m
over all rows, its final sum is Z = Σ exp (f p - m) over all rows, so the log-sum-exp is m + log Z and
exp (f q - (m + log Z)) = exp (f q - m) / Z: the exponential of the entry less the column maximum, divided by the
column's sum of such exponentials, as the whole-column softmax writes it.
-/

noncomputable section

open scoped BigOperators

namespace Cert.Softmax

open Idealize.ShloMosaic Cert.AttnSpec

/-- Position r of block j among four blocks of 1024 is row 1024·j + r. -/
theorem pos_eq_row (j : Fin 4) (r : Fin 1024) : (Cert.Lib.BlockSum.pos 4 1024 j r : Fin 4096) = row j r :=
  Fin.ext (by show j.val * 1024 + r.val = 1024 * j.val + r.val; omega)

/-- A sum over the 4096 rows is the sum over the four blocks of each block's sum. -/
theorem sum_rows {M : Type} [AddCommMonoid M] (F : Fin 4096 → M) :
    ∑ q : Fin 4096, F q = ∑ j : Fin 4, ∑ r : Fin 1024, F (row j r) := by
  refine (Cert.Lib.BlockSum.sum_blocks 4 1024 (fun q : Fin (4 * 1024) => F q)).trans ?_
  exact Finset.sum_congr rfl fun j _ => Finset.sum_congr rfl fun r _ => congrArg F (pos_eq_row j r)

/-- Every row is a row of one of the four blocks. -/
theorem row_div_mod (q : Fin 4096) :
    row ⟨q.val / 1024, by omega⟩ ⟨q.val % 1024, Nat.mod_lt _ (by norm_num)⟩ = q :=
  Fin.ext (Nat.div_add_mod q.val 1024)

/-- The recurrence's final maximum is the maximum over all 4096 rows. -/
theorem run_fst_eq_fold (f : Fin 4096 → EReal) :
    (runML (fun j r => f (row j r)) 4 (Nat.le_refl 4)).1 = (Finset.univ : Finset (Fin 4096)).fold max ninf f := by
  refine eq_of_forall_ge_iff fun c => ?_
  rw [runML_fst_le_iff, Finset.fold_max_le]
  constructor
  · intro H
    refine ⟨by rw [ninf_eq]; exact bot_le, fun q _ => ?_⟩
    have h := H ⟨q.val / 1024, by omega⟩ (by show q.val / 1024 < 4; omega) ⟨q.val % 1024, Nat.mod_lt _ (by norm_num)⟩
    rw [row_div_mod] at h
    exact h
  · rintro ⟨_, H⟩ j _ r
    exact H _ (Finset.mem_univ _)

/-- After the four blocks of a real column: a real maximum m, and the sum over all blocks of exp (entry - m). -/
theorem runML_four_real (a : Fin 4 → Fin 1024 → EReal) (a' : Fin 4 → Fin 1024 → ℝ)
    (ha : ∀ j r, a j r = (a' j r : EReal)) :
    ∃ m : ℝ, (runML a 4 (Nat.le_refl 4)).1 = (m : EReal)
      ∧ (runML a 4 (Nat.le_refl 4)).2 = ((∑ j : Fin 4, ∑ r : Fin 1024, Real.exp (a' j r - m) : ℝ) : EReal) := by
  obtain ⟨m, hm, hL⟩ := runML_real a a' ha 3 (Nat.le_refl 4)
  exact ⟨m, hm, by rw [← partSum_four]; exact hL⟩

/-- The weight of row q in a real column: the recurrence's spelling is the whole column's. -/
theorem column (f : Fin 4096 → EReal) (hf : ∀ q, ∃ r : ℝ, f q = (r : EReal)) (q : Fin 4096) :
    Ideal.exp (f q - lseOf (fun j r => f (row j r)))
      = Ideal.div (Ideal.exp (f q - max ninf ((Finset.univ : Finset (Fin 4096)).fold max ninf f)))
          (zero32 + ∑ p : Fin 4096,
            Ideal.exp (f p - max ninf ((Finset.univ : Finset (Fin 4096)).fold max ninf f))) := by
  choose g hg using hf
  obtain ⟨m, hm, hL⟩ := runML_four_real (fun j r => f (row j r)) (fun j r => g (row j r)) (fun j r => hg _)
  have hfold : (Finset.univ : Finset (Fin 4096)).fold max ninf f = (m : EReal) := by
    rw [← run_fst_eq_fold, hm]
  have hmax : max ninf ((Finset.univ : Finset (Fin 4096)).fold max ninf f) = (m : EReal) := by
    rw [hfold, ninf_eq]; exact max_eq_right bot_le
  have hZ : ∑ j : Fin 4, ∑ r : Fin 1024, Real.exp (g (row j r) - m) = ∑ p : Fin 4096, Real.exp (g p - m) :=
    (sum_rows fun p => Real.exp (g p - m)).symm
  have hZpos : 0 < ∑ p : Fin 4096, Real.exp (g p - m) :=
    Finset.sum_pos (fun p _ => Real.exp_pos _) ⟨0, Finset.mem_univ _⟩
  have hlse : lseOf (fun j r => f (row j r))
      = ((m + Real.log (∑ p : Fin 4096, Real.exp (g p - m)) : ℝ) : EReal) := by
    unfold lseOf
    rw [hm, hL, hZ, Ideal.log_coe, if_neg (not_le.mpr hZpos), ← EReal.coe_add]
  have hsum : zero32 + ∑ p : Fin 4096, Ideal.exp (f p - (m : EReal))
      = ((∑ p : Fin 4096, Real.exp (g p - m) : ℝ) : EReal) := by
    rw [zero32_eq, zero_add, Cert.Lib.RealSums.coe_sum]
    exact Finset.sum_congr rfl fun p _ => by rw [hg p, exp_sub_coe]
  rw [hmax, hsum, hlse, hg q, exp_sub_coe, exp_sub_coe, Ideal.div_coe hZpos.ne', ← EReal.coe_mul]
  congr 1
  rw [show g q - (m + Real.log (∑ p : Fin 4096, Real.exp (g p - m)))
      = (g q - m) - Real.log (∑ p : Fin 4096, Real.exp (g p - m)) by ring,
    Real.exp_sub, Real.exp_log hZpos, div_eq_mul_one_div]

end Cert.Softmax

end
-- ==== Proof.Softmax.lean ====
import proofs.«102296_j40982577938503_1_alg».proof.Proof.Softmax3

/-!
# The blockwise two-pass softmax over the query axis is the reference's, on real data

Per batch and key row the kernel's log-sum-exp comes from the four-block recurrence over the column of scores; the
weight exp (score - log-sum-exp) is then the reference's exp (score - column maximum) divided by the column's sum of
such exponentials. The output adds, from zero, the four key blocks' sums of weight times value: the sum over all 4096
key rows regrouped by blocks, which uses only that addition on the extended reals is commutative and associative.
-/

noncomputable section

open scoped BigOperators

namespace Cert.Softmax

open Idealize.ShloMosaic Idealize.ShloMosaic.ValueIdx Cert.AttnSpec Cert.RefSpec

/-- The weight of query row q under key row s in batch b: the kernel's spelling is the reference's. -/
theorem weight_eq (Q K : Sq.Idx → EReal) (Mk : Sm.Idx → BitVec 32)
    (hQ : ∀ i, ∃ r : ℝ, Q i = (r : EReal)) (hK : ∀ i, ∃ r : ℝ, K i = (r : EReal)) (b : Fin 4) (q s : Fin 4096) :
    Ideal.exp (sc Q K Mk b q s - lse Q K Mk (ix3 b (0 : Fin 1) s))
      = Ideal.div (eR Q K Mk b q s) (zR Q K Mk b s) := by
  show Ideal.exp (sc Q K Mk b q s - lseOf (fun j r => sc Q K Mk b (row j r) s)) = _
  unfold zR eR mxR
  simp only [← sc_eq_scR]
  exact column (fun p => sc Q K Mk b p s) (fun p => sc_real Q K Mk hQ hK b p s) q

/-- One key block's contribution to the output, with the reference's weights. -/
theorem blockDot_eq (Q K V : Sq.Idx → EReal) (Mk : Sm.Idx → BitVec 32)
    (hQ : ∀ i, ∃ r : ℝ, Q i = (r : EReal)) (hK : ∀ i, ∃ r : ℝ, K i = (r : EReal)) (b : Fin 4) (q : Fin 4096)
    (k : Fin 64) (j : Fin 4) :
    blockDot Q K V Mk (lse Q K Mk) b q k j
      = ∑ s : Fin 1024, Ideal.div (eR Q K Mk b q (row j s)) (zR Q K Mk b (row j s)) * V (ix3 b (row j s) k) := by
  unfold blockDot
  exact Finset.sum_congr rfl fun s _ => by rw [weight_eq Q K Mk hQ hK]

/-- On real queries, keys and values the kernel's output, computed with the kernel's own log-sum-exp, is the
    reference's. -/
theorem out_eq_refOut (Q K V : Sq.Idx → EReal) (Mk : Sm.Idx → BitVec 32)
    (hQ : ∀ i, ∃ r : ℝ, Q i = (r : EReal)) (hK : ∀ i, ∃ r : ℝ, K i = (r : EReal))
    (hV : ∀ i, ∃ r : ℝ, V i = (r : EReal)) :
    out Q K V Mk (lse Q K Mk) = refOut Q K V Mk := by
  funext i
  obtain ⟨b, q, k, rfl⟩ : ∃ (b : Fin 4) (q : Fin 4096) (k : Fin 64), i = ix3 b q k := ⟨i 0, i 1, i 2, eq_ix3 i⟩
  show (((zero32 + blockDot Q K V Mk (lse Q K Mk) b q k 0) + blockDot Q K V Mk (lse Q K Mk) b q k 1)
      + blockDot Q K V Mk (lse Q K Mk) b q k 2) + blockDot Q K V Mk (lse Q K Mk) b q k 3
    = ∑ s : Fin 4096, Ideal.div (eR Q K Mk b q s) (zR Q K Mk b s) * V (ix3 b s k)
  rw [blockDot_eq Q K V Mk hQ hK, blockDot_eq Q K V Mk hQ hK, blockDot_eq Q K V Mk hQ hK,
    blockDot_eq Q K V Mk hQ hK, zero32_eq, zero_add,
    sum_rows (fun s => Ideal.div (eR Q K Mk b q s) (zR Q K Mk b s) * V (ix3 b s k)), Fin.sum_univ_four]

end Cert.Softmax

end
-- ==== Proof.RefRead.lean ====
import proofs.«102296_j40982577938503_1_alg».proof.Defs
import proofs.«102296_j40982577938503_1_alg».proof.Proof.Gen.ReferenceIdeal.Read
import proofs.«102296_j40982577938503_1_alg».proof.Proof.RefSpec
import Idealize.ShloMosaic.PureOps.Reduce
import Idealize.ShloMosaic.PureOps.Ideal.Laws

/-!
# The reference's result, index by index

Each stage of the reference is read at an index and identified with the closed form: the three projections, the
masked score, the column maximum over the query rows (a fold of max), the exponentials and their column sums, the
quotient, and the final sum over the key rows.
-/

noncomputable section

open scoped BigOperators

namespace Cert.RefRead

open Cert.ReferenceIdeal Cert.ReferenceIdeal.Gen Cert.ReferenceIdeal.Read Idealize.ShloMosaic Idealize.ShloMosaic.ValueIdx
open Cert.AttnSpec Cert.RefSpec

/-- The first projection, read at an index: the row of the input against the row of the weights, plus the bias. -/
theorem proj_q (x0 : (⟨S4x4096x1024, .f32⟩ : BufTy).Contents (Elt Ideal)) (x4 : (⟨S64x1024, .f32⟩ : BufTy).Contents (Elt Ideal))
    (x5 : (⟨S64, .f32⟩ : BufTy).Contents (Elt Ideal)) :
    val_main_v3 (F := Ideal) x0 x4 x5 = proj3 x0 x4 x5 := by
  funext i
  obtain ⟨b, q, k, rfl⟩ : ∃ (b : Fin 4) (q : Fin 4096) (k : Fin 64), i = ix3 b q k := ⟨i 0, i 1, i 2, eq_ix3 i⟩
  rw [val_main_v3_apply, val_main_v0_apply, val_main_v2_apply, val_main_v1_apply]
  have e1 : ∀ d : Fin 1024, lidx_main_v0 (ix3 b q k) d = ix3 b q d := fun d => funext fun a => by
    match a with | ⟨0, _⟩ => rfl | ⟨1, _⟩ => rfl | ⟨2, _⟩ => rfl
  have e2 : ∀ d : Fin 1024, ridx_main_v0 (ix3 b q k) d = ix2 k d := fun d => funext fun a => by
    match a with | ⟨0, _⟩ => rfl | ⟨1, _⟩ => rfl
  have e3 : idx_main_v1 (idx_main_v2 (ix3 b q k)) = ix1 k := funext fun a => by
    match a with | ⟨0, _⟩ => rfl
  simp only [e1, e2, e3, Ideal.addf_def]
  rfl

/-- The second projection. -/
theorem proj_k (x1 : (⟨S4x4096x1024, .f32⟩ : BufTy).Contents (Elt Ideal)) (x6 : (⟨S64x1024, .f32⟩ : BufTy).Contents (Elt Ideal))
    (x7 : (⟨S64, .f32⟩ : BufTy).Contents (Elt Ideal)) :
    val_main_v7 (F := Ideal) x1 x6 x7 = proj3 x1 x6 x7 := by
  funext i
  obtain ⟨b, q, k, rfl⟩ : ∃ (b : Fin 4) (q : Fin 4096) (k : Fin 64), i = ix3 b q k := ⟨i 0, i 1, i 2, eq_ix3 i⟩
  rw [val_main_v7_apply, val_main_v4_apply, val_main_v6_apply, val_main_v5_apply]
  have e1 : ∀ d : Fin 1024, lidx_main_v4 (ix3 b q k) d = ix3 b q d := fun d => funext fun a => by
    match a with | ⟨0, _⟩ => rfl | ⟨1, _⟩ => rfl | ⟨2, _⟩ => rfl
  have e2 : ∀ d : Fin 1024, ridx_main_v4 (ix3 b q k) d = ix2 k d := fun d => funext fun a => by
    match a with | ⟨0, _⟩ => rfl | ⟨1, _⟩ => rfl
  have e3 : idx_main_v5 (idx_main_v6 (ix3 b q k)) = ix1 k := funext fun a => by
    match a with | ⟨0, _⟩ => rfl
  simp only [e1, e2, e3, Ideal.addf_def]
  rfl

/-- The third projection. -/
theorem proj_v (x2 : (⟨S4x4096x1024, .f32⟩ : BufTy).Contents (Elt Ideal)) (x8 : (⟨S64x1024, .f32⟩ : BufTy).Contents (Elt Ideal))
    (x9 : (⟨S64, .f32⟩ : BufTy).Contents (Elt Ideal)) :
    val_main_v11 (F := Ideal) x2 x8 x9 = proj3 x2 x8 x9 := by
  funext i
  obtain ⟨b, q, k, rfl⟩ : ∃ (b : Fin 4) (q : Fin 4096) (k : Fin 64), i = ix3 b q k := ⟨i 0, i 1, i 2, eq_ix3 i⟩
  rw [val_main_v11_apply, val_main_v8_apply, val_main_v10_apply, val_main_v9_apply]
  have e1 : ∀ d : Fin 1024, lidx_main_v8 (ix3 b q k) d = ix3 b q d := fun d => funext fun a => by
    match a with | ⟨0, _⟩ => rfl | ⟨1, _⟩ => rfl | ⟨2, _⟩ => rfl
  have e2 : ∀ d : Fin 1024, ridx_main_v8 (ix3 b q k) d = ix2 k d := fun d => funext fun a => by
    match a with | ⟨0, _⟩ => rfl | ⟨1, _⟩ => rfl
  have e3 : idx_main_v9 (idx_main_v10 (ix3 b q k)) = ix1 k := funext fun a => by
    match a with | ⟨0, _⟩ => rfl
  simp only [e1, e2, e3, Ideal.addf_def]
  rfl

/-- The masked score at (b, q, s): the dot of the query and key rows over sqrt 64, plus the mask's addend. -/
theorem score_apply (x0 x1 : (⟨S4x4096x1024, .f32⟩ : BufTy).Contents (Elt Ideal)) (x3 : (⟨S4x4096x4096, .i32⟩ : BufTy).Contents (Elt Ideal))
    (x4 : (⟨S64x1024, .f32⟩ : BufTy).Contents (Elt Ideal)) (x5 : (⟨S64, .f32⟩ : BufTy).Contents (Elt Ideal))
    (x6 : (⟨S64x1024, .f32⟩ : BufTy).Contents (Elt Ideal)) (x7 : (⟨S64, .f32⟩ : BufTy).Contents (Elt Ideal))
    (b : Fin 4) (q s : Fin 4096) :
    val_main_v19 (F := Ideal) x0 x1 x3 x4 x5 x6 x7 (ix3 b q s)
      = scR (proj3 x0 x4 x5) (proj3 x1 x6 x7) x3 b q s := by
  rw [val_main_v19_apply, val_main_v15_apply, val_main_v13_apply, val_main_v14_apply, val_main_v12_apply, val_main_cst_apply,
    val_main_v18_apply, val_main_v17_apply, val_main_v16_apply, val_main_c_apply, val_main_call0_v0_apply, val_main_cst_0_apply,
    val_main_call0_v1_apply, val_main_cst_1_apply, proj_q, proj_k]
  have e1 : ∀ k : Fin 64, lidx_main_v13 (ix3 b q s) k = ix3 b q k := fun k => funext fun a => by
    match a with | ⟨0, _⟩ => rfl | ⟨1, _⟩ => rfl | ⟨2, _⟩ => rfl
  have e2 : ∀ k : Fin 64, ridx_main_v13 (ix3 b q s) k = ix3 b s k := fun k => funext fun a => by
    match a with | ⟨0, _⟩ => rfl | ⟨1, _⟩ => rfl | ⟨2, _⟩ => rfl
  simp only [e1, e2, Ideal.addf_def, Ideal.hostDivf_def, Ideal.hostUnary_sqrt_def, Ideal.ofBits_def]
  rfl

/-- The column maximum over the query rows, read at (b, s): the fold of max from -inf over the 4096 scores of the column. -/
theorem colmax_apply (x0 x1 : (⟨S4x4096x1024, .f32⟩ : BufTy).Contents (Elt Ideal)) (x3 : (⟨S4x4096x4096, .i32⟩ : BufTy).Contents (Elt Ideal))
    (x4 : (⟨S64x1024, .f32⟩ : BufTy).Contents (Elt Ideal)) (x5 : (⟨S64, .f32⟩ : BufTy).Contents (Elt Ideal))
    (x6 : (⟨S64x1024, .f32⟩ : BufTy).Contents (Elt Ideal)) (x7 : (⟨S64, .f32⟩ : BufTy).Contents (Elt Ideal))
    (b : Fin 4) (s : Fin 4096) :
    val_main_v20 (F := Ideal) x0 x1 x3 x4 x5 x6 x7 (ix2 b s)
      = (Finset.univ : Finset (Fin 4096)).fold max ninf
          (fun q => val_main_v19 (F := Ideal) x0 x1 x3 x4 x5 x6 x7 (ix3 b q s)) := by
  unfold val_main_v20
  generalize val_main_v19 (F := Ideal) x0 x1 x3 x4 x5 x6 x7 = y
  have hr : S4x4096x4096.Reduces [1] S4x4096 := by decide
  refine (Host.reduce_eq_fold_single (FloatOps.maximumf (F := Ideal) (φ := .f32)) y (val_main_cst_2 (F := Ideal))
    reducesTo_S4x4096x4096_S4x4096_d1 hr h_S_ (ix2 b s)).trans ?_
  have hf : (y ∘ hr.lift (ix2 b s)) = fun q : Fin 4096 => y (ix3 b q s) := funext fun k => congrArg y (funext fun a => Fin.ext (by
    match a with | ⟨0, _⟩ => rfl | ⟨1, _⟩ => rfl | ⟨2, _⟩ => rfl))
  rw [hf]
  rfl

/-- The column maximum as the reference uses it: once more against -inf. -/
theorem mx_apply (x0 x1 : (⟨S4x4096x1024, .f32⟩ : BufTy).Contents (Elt Ideal)) (x3 : (⟨S4x4096x4096, .i32⟩ : BufTy).Contents (Elt Ideal))
    (x4 : (⟨S64x1024, .f32⟩ : BufTy).Contents (Elt Ideal)) (x5 : (⟨S64, .f32⟩ : BufTy).Contents (Elt Ideal))
    (x6 : (⟨S64x1024, .f32⟩ : BufTy).Contents (Elt Ideal)) (x7 : (⟨S64, .f32⟩ : BufTy).Contents (Elt Ideal))
    (b : Fin 4) (s : Fin 4096) :
    val_main_v22 (F := Ideal) x0 x1 x3 x4 x5 x6 x7 (ix2 b s)
      = mxR (proj3 x0 x4 x5) (proj3 x1 x6 x7) x3 b s := by
  rw [val_main_v22_apply, val_main_v21_apply, val_main_cst_3_apply, colmax_apply]
  simp only [score_apply, Ideal.maximumf_def, Ideal.ofBits_def]
  rfl

/-- The exponential of a score less its column maximum. -/
theorem exp_apply (x0 x1 : (⟨S4x4096x1024, .f32⟩ : BufTy).Contents (Elt Ideal)) (x3 : (⟨S4x4096x4096, .i32⟩ : BufTy).Contents (Elt Ideal))
    (x4 : (⟨S64x1024, .f32⟩ : BufTy).Contents (Elt Ideal)) (x5 : (⟨S64, .f32⟩ : BufTy).Contents (Elt Ideal))
    (x6 : (⟨S64x1024, .f32⟩ : BufTy).Contents (Elt Ideal)) (x7 : (⟨S64, .f32⟩ : BufTy).Contents (Elt Ideal))
    (b : Fin 4) (q s : Fin 4096) :
    val_main_v26 (F := Ideal) x0 x1 x3 x4 x5 x6 x7 (ix3 b q s)
      = eR (proj3 x0 x4 x5) (proj3 x1 x6 x7) x3 b q s := by
  rw [val_main_v26_apply, val_main_v25_apply, val_main_v24_apply, val_main_v23_apply]
  have e : idx_main_v23 (idx_main_v24 (ix3 b q s)) = ix2 b s := funext fun a => by
    match a with | ⟨0, _⟩ => rfl | ⟨1, _⟩ => rfl
  rw [e, mx_apply, score_apply]
  rfl

/-- The column's sum of exponentials over the query rows, from zero. -/
theorem colsum_apply (x0 x1 : (⟨S4x4096x1024, .f32⟩ : BufTy).Contents (Elt Ideal)) (x3 : (⟨S4x4096x4096, .i32⟩ : BufTy).Contents (Elt Ideal))
    (x4 : (⟨S64x1024, .f32⟩ : BufTy).Contents (Elt Ideal)) (x5 : (⟨S64, .f32⟩ : BufTy).Contents (Elt Ideal))
    (x6 : (⟨S64x1024, .f32⟩ : BufTy).Contents (Elt Ideal)) (x7 : (⟨S64, .f32⟩ : BufTy).Contents (Elt Ideal))
    (b : Fin 4) (s : Fin 4096) :
    val_main_v27 (F := Ideal) x0 x1 x3 x4 x5 x6 x7 (ix2 b s)
      = zR (proj3 x0 x4 x5) (proj3 x1 x6 x7) x3 b s := by
  rw [val_main_v27_apply, val_main_cst_4_apply]
  have e : ∀ k : Fin 4096, idx_main_v27 (ix2 b s) k = ix3 b k s := fun k => funext fun a => by
    match a with | ⟨0, _⟩ => rfl | ⟨1, _⟩ => rfl | ⟨2, _⟩ => rfl
  simp only [e, exp_apply, Ideal.ofBits_def]
  rfl

/-- The reference's result is the closed form: the softmax weights over the query axis against the value rows. -/
theorem ref_eq (x0 x1 x2 : (⟨S4x4096x1024, .f32⟩ : BufTy).Contents (Elt Ideal)) (x3 : (⟨S4x4096x4096, .i32⟩ : BufTy).Contents (Elt Ideal))
    (x4 : (⟨S64x1024, .f32⟩ : BufTy).Contents (Elt Ideal)) (x5 : (⟨S64, .f32⟩ : BufTy).Contents (Elt Ideal))
    (x6 : (⟨S64x1024, .f32⟩ : BufTy).Contents (Elt Ideal)) (x7 : (⟨S64, .f32⟩ : BufTy).Contents (Elt Ideal))
    (x8 : (⟨S64x1024, .f32⟩ : BufTy).Contents (Elt Ideal)) (x9 : (⟨S64, .f32⟩ : BufTy).Contents (Elt Ideal)) :
    Cert.ReferenceIdeal.Read.val_main_v31 (F := Ideal) x0 x1 x2 x3 x4 x5 x6 x7 x8 x9
      = Cert.RefSpec.refOut (Cert.RefSpec.proj3 x0 x4 x5) (Cert.RefSpec.proj3 x1 x6 x7) (Cert.RefSpec.proj3 x2 x8 x9) x3 := by
  funext i
  obtain ⟨b, q, k, rfl⟩ : ∃ (b : Fin 4) (q : Fin 4096) (k : Fin 64), i = ix3 b q k := ⟨i 0, i 1, i 2, eq_ix3 i⟩
  rw [val_main_v31_apply]
  have e1 : ∀ s : Fin 4096, lidx_main_v31 (ix3 b q k) s = ix3 b q s := fun s => funext fun a => by
    match a with | ⟨0, _⟩ => rfl | ⟨1, _⟩ => rfl | ⟨2, _⟩ => rfl
  have e2 : ∀ s : Fin 4096, ridx_main_v31 (ix3 b q k) s = ix3 b s k := fun s => funext fun a => by
    match a with | ⟨0, _⟩ => rfl | ⟨1, _⟩ => rfl | ⟨2, _⟩ => rfl
  have e3 : ∀ s : Fin 4096, idx_main_v28 (idx_main_v29 (ix3 b q s)) = ix2 b s := fun s => funext fun a => by
    match a with | ⟨0, _⟩ => rfl | ⟨1, _⟩ => rfl
  simp only [e1, e2, val_main_v30_apply, val_main_v29_apply, val_main_v28_apply, e3, exp_apply, colsum_apply, proj_v,
    Ideal.hostDivf_def]
  rfl

end Cert.RefRead

end
-- ==== Proof.LibRealScalars.lean ====
/-
  Scalar facts on the extended reals at real arguments.

  What a few float words denote (1.0, -0.5, +inf); the reciprocal square root and the power -1/2 of a positive real,
  which are the same number 1/√x; a comparison's one-bit answer read back as the inequality it tested; and the two
  readings a finiteness-and-sign precondition needs entry by entry: an extended real whose absolute value max x (-x)
  tests below +∞ is a real number, and one that tests at least the zero word is nonnegative.
-/
import Idealize.ShloMosaic.PureOps.Ideal
import Idealize.ShloMosaic.PureOps.Ideal.Laws
import proofs.«102296_j40982577938503_1_alg».proof.Proof.LibRealSums

noncomputable section

namespace Cert.Lib.RealScalars

open Idealize.ShloMosaic Cert.Lib

/-- The word of 1.0 denotes the real 1. -/
theorem ofBits_one : Ideal.ofBits .f32 0x3F800000#32 = ((1 : ℝ) : EReal) := by
  simp [Ideal.ofBits, Ideal.ieee, -EReal.coe_mul]; norm_num

/-- The word of -0.5 denotes the real -1/2. -/
theorem ofBits_neg_half : Ideal.ofBits .f32 0xBF000000#32 = ((-(1 / 2) : ℝ) : EReal) := by
  simp [Ideal.ofBits, Ideal.ieee, -EReal.coe_mul]; norm_num

/-- The word of +inf denotes +∞. -/
theorem ofBits_inf : Ideal.ofBits .f32 0x7F800000#32 = ⊤ := by
  simp [Ideal.ofBits, Ideal.ieee]

/-- The reciprocal square root of a positive real. -/
theorem rsqrt_pos (x : ℝ) (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- A positive real to the power -1/2 is the reciprocal of its square root. -/
theorem pow_neg_half (x : ℝ) (hx : 0 < x) :
    Ideal.pow (x : EReal) ((-(1 / 2) : ℝ) : EReal) = (((Real.sqrt x)⁻¹ : ℝ) : EReal) := by
  show ((Real.rpow x (-(1 / 2)) : ℝ) : EReal) = _
  congr 1
  show x ^ (-(1 / 2) : ℝ) = _
  rw [Real.rpow_neg hx.le, Real.sqrt_eq_rpow]

/-- A positive real is greater than zero, as the one-bit answer of the comparison. -/
theorem cmp_ogt_pos (x : ℝ) (hx : 0 < x) : Ideal.cmp .ogt (x : EReal) 0 = 1#1 := by
  show BitVec.ofBool (decide ((0 : EReal) < (x : EReal))) = 1#1
  rw [decide_eq_true (by exact_mod_cast hx)]
  rfl

/-- A one-bit answer that is 1 came from a true test. -/
theorem of_ofBool_eq_one {b : Bool} (h : BitVec.ofBool b = 1#1) : b = true := by
  cases b
  · exact absurd h (by decide)
  · rfl

/-- An entry whose absolute value tests below +∞ is a real number. -/
theorem real_of_abs_lt (x : EReal) (h : Ideal.cmp .olt (max x (-x)) (Ideal.ofBits .f32 0x7F800000#32) = 1#1) :
    ∃ r : ℝ, x = (r : EReal) := by
  have h1 : decide (max x (-x) < Ideal.ofBits .f32 0x7F800000#32) = true := of_ofBool_eq_one h
  rw [ofBits_inf] at h1
  exact RealSums.exists_real_of_max_neg_lt_top (of_decide_eq_true h1)

/-- An entry that tests at least zero is nonnegative. -/
theorem nonneg_of_ge (x : EReal) (h : Ideal.cmp .oge x (Ideal.ofBits .f32 0x00000000#32) = 1#1) : 0 ≤ x := by
  have h1 : decide (Ideal.ofBits .f32 0x00000000#32 ≤ x) = true := of_ofBool_eq_one h
  rw [Ideal.ofBits_zero_f32] at h1
  exact of_decide_eq_true h1

end Cert.Lib.RealScalars

end
-- ==== Proof.Finite.lean ====
import proofs.«102296_j40982577938503_1_alg».proof.Pre_finite_inputs
import Idealize.ShloMosaic.Lib.ReduceAll
import Idealize.ShloMosaic.Lib.ValueIdx
import proofs.«102296_j40982577938503_1_alg».proof.Proof.LibRealScalars

/-!
# The precondition decoded

The precondition is the conjunction, over the nine float arguments, of "every entry's absolute value is below +inf".
Read back: every entry of each of the nine arrays is a real number.
-/

noncomputable section

namespace Cert.Finite

open Idealize.ShloMosaic Idealize.SL.Sem Idealize.ShloMosaic.ValueIdx Cert.Pre_finite_inputs

/-- The scalar shape has one index. -/
instance : Subsingleton S_.Idx := ⟨fun a b => funext fun d => d.elim0⟩

/-- A conjunction of two one-bit scalars that is 1 has both conjuncts 1. -/
theorem andi_split {a b : IVec S_ 1} (h : andi a b ix0 = 1#1) : a ix0 = 1#1 ∧ b ix0 = 1#1 :=
  IntOp.andi_eq_one.1 h

/-- An entry whose absolute value compares below the broadcast +inf is a real number. -/
theorem elt_real {S : Shape} (hb : S_.BroadcastsInDim S (![] : Fin 0 → Fin S.rank)) (x : FVec Ideal S .f32) (i : S.Idx)
    (h : cmpf .olt (Host.absf x) (broadcastInDim S ![] hb (constant S_ .f32 0x7F800000#32)) i = 1#1) :
    ∃ r : ℝ, x i = (r : EReal) :=
  Cert.Lib.RealScalars.real_of_abs_lt (x i) h

/-- An array all of whose entries pass the test, as the reduction by "and" over all axes says, has only real entries. -/
theorem all_real {S : Shape} {axes : List (Fin S.rank)} (hb : S_.BroadcastsInDim S (![] : Fin 0 → Fin S.rank))
    (hr : S.ReducesTo axes S_) (hu : 0 < S_.numel) (x : FVec Ideal S .f32)
    (h : Host.reduce IntOp.andi (cmpf .olt (Host.absf x) (broadcastInDim S ![] hb (constant S_ .f32 0x7F800000#32)))
      (constantI S_ 1 1#1) hr hu ix0 = 1#1) (i : S.Idx) : ∃ r : ℝ, x i = (r : EReal) :=
  elt_real hb x i (Host.reduce_andi_all _ _ hr hu ix0 h i)

/-- Under the precondition every entry of the nine float arguments is a real number. -/
theorem real_of_pre [Cert.Pre_finite_inputs.Facts]
    (x0 x1 x2 : (⟨S4x4096x1024, .f32⟩ : BufTy).Contents (Elt Ideal)) (x3 : (⟨S4x4096x4096, .i32⟩ : BufTy).Contents (Elt Ideal))
    (x4 : (⟨S64x1024, .f32⟩ : BufTy).Contents (Elt Ideal)) (x5 : (⟨S64, .f32⟩ : BufTy).Contents (Elt Ideal))
    (x6 : (⟨S64x1024, .f32⟩ : BufTy).Contents (Elt Ideal)) (x7 : (⟨S64, .f32⟩ : BufTy).Contents (Elt Ideal))
    (x8 : (⟨S64x1024, .f32⟩ : BufTy).Contents (Elt Ideal)) (x9 : (⟨S64, .f32⟩ : BufTy).Contents (Elt Ideal))
    (h : Cert.Pre_finite_inputs.fn (F := Ideal) x0 x1 x2 x3 x4 x5 x6 x7 x8 x9 = fun _ => 1#1) :
    (∀ i, ∃ r : ℝ, x0 i = (r : EReal)) ∧ (∀ i, ∃ r : ℝ, x1 i = (r : EReal)) ∧ (∀ i, ∃ r : ℝ, x2 i = (r : EReal)) ∧
    (∀ i, ∃ r : ℝ, x4 i = (r : EReal)) ∧ (∀ i, ∃ r : ℝ, x5 i = (r : EReal)) ∧ (∀ i, ∃ r : ℝ, x6 i = (r : EReal)) ∧
    (∀ i, ∃ r : ℝ, x7 i = (r : EReal)) ∧ (∀ i, ∃ r : ℝ, x8 i = (r : EReal)) ∧ (∀ i, ∃ r : ℝ, x9 i = (r : EReal)) := by
  have h0 := congrFun h ix0
  dsimp only [fn, fn_part1, fn_part2] at h0
  obtain ⟨h8, r9⟩ := andi_split h0
  obtain ⟨h7, r8⟩ := andi_split h8
  obtain ⟨h6, r7⟩ := andi_split h7
  obtain ⟨h5, r6⟩ := andi_split h6
  obtain ⟨h4, r5⟩ := andi_split h5
  obtain ⟨h2, r4⟩ := andi_split h4
  obtain ⟨h1, r2⟩ := andi_split h2
  obtain ⟨r0, r1⟩ := andi_split h1
  exact ⟨all_real _ _ _ x0 r0, all_real _ _ _ x1 r1, all_real _ _ _ x2 r2, all_real _ _ _ x4 r4, all_real _ _ _ x5 r5,
    all_real _ _ _ x6 r6, all_real _ _ _ x7 r7, all_real _ _ _ x8 r8, all_real _ _ _ x9 r9⟩

end Cert.Finite

end
-- ==== Proof.lean ====
/-
  An attention layer whose softmax runs over the QUERY axis, computed blockwise in three kernel regions, against its
  plain reference, on the extended reals.

  The kernel projects the three inputs (rows against rows of the weights, plus a bias), then, per batch and key row,
  walks the 4096 query rows in four blocks of 1024 keeping a running maximum and a running sum of exponentials rescaled
  to it, and ends at the log-sum-exp; a second pass forms exp (score − log-sum-exp) and accumulates its products with
  the value rows over four blocks of key rows. The reference takes the maximum and the sum over all 4096 query rows at
  once and divides. The scores agree without any hypothesis (a division by sqrt 64 is a product with 1/8). On real
  scores the running pair ends at the maximum and at the sum of exponentials against it, so exp (x − (M + log Z)) is
  exp (x − M) / Z; block sums regroup to the whole sum in any additive commutative monoid. The inputs are real by the
  precondition, and sums, products and maxima of reals are real.

  The three frames: each region's body is run once per case of its two conditionals, the contents of the scratch
  buffers carried from point to point; the regions are chained through the contents of the unscoped buffers between
  them. The word-level program and its idealization are one text, so the same argument serves both.
-/
import proofs.«102296_j40982577938503_1_alg».proof.Defs
import proofs.«102296_j40982577938503_1_alg».proof.Proof.Gen.Kernel
import proofs.«102296_j40982577938503_1_alg».proof.Proof.Gen.KernelIdeal
import proofs.«102296_j40982577938503_1_alg».proof.Proof.Gen.ReferenceIdeal
import proofs.«102296_j40982577938503_1_alg».proof.Proof.Gen.Pre_finite_inputs
import proofs.«102296_j40982577938503_1_alg».proof.Proof.Gen.ReferenceIdeal.Run
import proofs.«102296_j40982577938503_1_alg».proof.Proof.Gen.ReferenceIdeal.Read
import proofs.«102296_j40982577938503_1_alg».proof.Proof.KAsm
import proofs.«102296_j40982577938503_1_alg».proof.Proof.Asm
import proofs.«102296_j40982577938503_1_alg».proof.Proof.Glue
import proofs.«102296_j40982577938503_1_alg».proof.Proof.Softmax
import proofs.«102296_j40982577938503_1_alg».proof.Proof.RefRead
import proofs.«102296_j40982577938503_1_alg».proof.Proof.Finite

noncomputable section

namespace Cert.Proof

open Idealize.ShloMosaic Idealize.ShloMosaic.TcCoe Idealize.SL.Sem

/-- The word-level program runs to its end and leaves its arguments as launched. -/
theorem frame_p : Cert.frame_Kernel := fun m ρ _ => Cert.Kernel.Asm.frame m ρ

/-- So does its idealization. -/
theorem frame_pi : Cert.frame_KernelIdeal := fun m ρ _ => Cert.KernelIdeal.Asm.frame m ρ

/-- The reference is a straight line of host operations: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Under the precondition the kernel's result buffer ends at the reference's last stage of the same arguments. -/
theorem result_is_ref (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.KernelIdeal.Asm.W5 m ρ c (Proc.devRef .tc Cert.KernelIdeal.main_v11)
      = Cert.ReferenceIdeal.Read.val_main_v31 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  obtain ⟨h0, h1, h2, h4, h5, h6, h7, h8, h9⟩ := Cert.Finite.real_of_pre _ _ _ _ _ _ _ _ _ _ (hpre c)
  refine (Cert.KernelIdeal.Glue.result_eq m ρ c).trans ?_
  rw [Cert.KernelIdeal.Glue.q_eq, Cert.KernelIdeal.Glue.k_eq, Cert.KernelIdeal.Glue.v_eq, Cert.KernelIdeal.Glue.mask3]
  rw [Cert.Softmax.out_eq_refOut _ _ _ _ (Cert.Softmax.proj3_real _ _ _ h0 h4 h5) (Cert.Softmax.proj3_real _ _ _ h1 h6 h7)
    (Cert.Softmax.proj3_real _ _ _ h2 h8 h9)]
  exact (Cert.RefRead.ref_eq _ _ _ _ _ _ _ _ _ _).symm

/-- From memories agreeing on the arguments both programs run, the arguments unchanged, and end with equal results:
    the kernel's result buffer at the output function of its regions, which on real inputs is the reference's. -/
theorem algebraic : Cert.algebraic_KernelIdeal_ReferenceIdeal := by
  intro m ρ m' ρ' hpre hagree
  refine ⟨fun c => Cert.KernelIdeal.Asm.W5 m ρ c (Proc.devRef .tc Cert.KernelIdeal.main_v11), Cert.KernelIdeal.Asm.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (result_is_ref m ρ hpre c).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
